-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)) →
    ∃ (v0 : (c : Dev Cert.KernelIdeal.nD) → Buf (Elt Ideal) ((c.tc : Thread Cert.KernelIdeal.nD Cert.KernelIdeal.τ).loc Cert.KernelIdeal.main_v86)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v86) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v170) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x128 : Shape := ⟨2, ![50000, 128]⟩
abbrev S2x1600000 : Shape := ⟨2, ![2, 1600000]⟩
abbrev S128x128 : Shape := ⟨2, ![128, 128]⟩
abbrev S128 : Shape := ⟨1, ![128]⟩
abbrev S3x128x128 : Shape := ⟨3, ![3, 128, 128]⟩
abbrev S3x128 : Shape := ⟨2, ![3, 128]⟩
abbrev S128x1 : Shape := ⟨2, ![128, 1]⟩
abbrev S1 : Shape := ⟨1, ![1]⟩
abbrev S_ : Shape := ⟨0, ![]⟩

class Facts : Prop where
  bcast_S_S50000x128 : S_.BroadcastsInDim S50000x128 (![] : Fin 0 → Fin S50000x128.rank)
  reducesTo_S50000x128_S_d0_1 : S50000x128.ReducesTo [0, 1] S_
  h_S_ : 0 < S_.numel
  bcast_S_S128x128 : S_.BroadcastsInDim S128x128 (![] : Fin 0 → Fin S128x128.rank)
  reducesTo_S128x128_S_d0_1 : S128x128.ReducesTo [0, 1] S_
  bcast_S_S128 : S_.BroadcastsInDim S128 (![] : Fin 0 → Fin S128.rank)
  reducesTo_S128_S_d0 : S128.ReducesTo [0] S_
  bcast_S_S3x128x128 : S_.BroadcastsInDim S3x128x128 (![] : Fin 0 → Fin S3x128x128.rank)
  reducesTo_S3x128x128_S_d0_1_2 : S3x128x128.ReducesTo [0, 1, 2] S_
  bcast_S_S3x128 : S_.BroadcastsInDim S3x128 (![] : Fin 0 → Fin S3x128.rank)
  reducesTo_S3x128_S_d0_1 : S3x128.ReducesTo [0, 1] S_
  bcast_S_S128x1 : S_.BroadcastsInDim S128x1 (![] : Fin 0 → Fin S128x1.rank)
  reducesTo_S128x1_S_d0_1 : S128x1.ReducesTo [0, 1] S_
  bcast_S_S1 : S_.BroadcastsInDim S1 (![] : Fin 0 → Fin S1.rank)
  reducesTo_S1_S_d0 : S1.ReducesTo [0] S_

variable [Facts]

def fn_part2 {F : FTy → Type} [FloatOps F] (main_arg8 : FVec F S128x1 .f32) (main_arg9 : FVec F S1 .f32) (main_v33 : IVec S_ 1) : IVec S_ 1 :=
  let main_v34 : FVec F S128x1 .f32 := Host.absf main_arg8
  let main_cst_12 : FVec F S_ .f32 := constant S_ .f32 0x7F800000#32
  let main_v35 : FVec F S128x1 .f32 := broadcastInDim S128x1 ![] bcast_S_S128x1 main_cst_12
  let main_v36 : IVec S128x1 1 := cmpf .olt main_v34 main_v35
  let main_c_13 : IVec S_ 1 := constantI S_ 1 1#1
  let main_v37 : IVec S_ 1 := (fun x v => Host.reduce IntOp.andi x v reducesTo_S128x1_S_d0_1 h_S_) main_v36 main_c_13
  let main_v38 : IVec S_ 1 := andi main_v33 main_v37
  let main_v39 : FVec F S1 .f32 := Host.absf main_arg9
  let main_cst_14 : FVec F S_ .f32 := constant S_ .f32 0x7F800000#32
  let main_v40 : FVec F S1 .f32 := broadcastInDim S1 ![] bcast_S_S1 main_cst_14
  let main_v41 : IVec S1 1 := cmpf .olt main_v39 main_v40
  let main_c_15 : IVec S_ 1 := constantI S_ 1 1#1
  let main_v42 : IVec S_ 1 := (fun x v => Host.reduce IntOp.andi x v reducesTo_S1_S_d0 h_S_) main_v41 main_c_15
  let main_v43 : IVec S_ 1 := andi main_v38 main_v42
  main_v43

def fn_part1 {F : FTy → Type} [FloatOps F] (main_arg5 : FVec F S3x128 .f32) (main_arg6 : FVec F S3x128x128 .f32) (main_arg7 : FVec F S3x128 .f32) (main_arg8 : FVec F S128x1 .f32) (main_arg9 : FVec F S1 .f32) (main_v13 : IVec S_ 1) (main_v16 : IVec S3x128x128 1) : IVec S_ 1 :=
  let main_c_5 : IVec S_ 1 := constantI S_ 1 1#1
  let main_v17 : IVec S_ 1 := (fun x v => Host.reduce IntOp.andi x v reducesTo_S3x128x128_S_d0_1_2 h_S_) main_v16 main_c_5
  let main_v18 : IVec S_ 1 := andi main_v13 main_v17
  let main_v19 : FVec F S3x128 .f32 := Host.absf main_arg5
  let main_cst_6 : FVec F S_ .f32 := constant S_ .f32 0x7F800000#32
  let main_v20 : FVec F S3x128 .f32 := broadcastInDim S3x128 ![] bcast_S_S3x128 main_cst_6
  let main_v21 : IVec S3x128 1 := cmpf .olt main_v19 main_v20
  let main_c_7 : IVec S_ 1 := constantI S_ 1 1#1
  let main_v22 : IVec S_ 1 := (fun x v => Host.reduce IntOp.andi x v reducesTo_S3x128_S_d0_1 h_S_) main_v21 main_c_7
  let main_v23 : IVec S_ 1 := andi main_v18 main_v22
  let main_v24 : FVec F S3x128x128 .f32 := Host.absf main_arg6
  let main_cst_8 : FVec F S_ .f32 := constant S_ .f32 0x7F800000#32
  let main_v25 : FVec F S3x128x128 .f32 := broadcastInDim S3x128x128 ![] bcast_S_S3x128x128 main_cst_8
  let main_v26 : IVec S3x128x128 1 := cmpf .olt main_v24 main_v25
  let main_c_9 : IVec S_ 1 := constantI S_ 1 1#1
  let main_v27 : IVec S_ 1 := (fun x v => Host.reduce IntOp.andi x v reducesTo_S3x128x128_S_d0_1_2 h_S_) main_v26 main_c_9
  let main_v28 : IVec S_ 1 := andi main_v23 main_v27
  let main_v29 : FVec F S3x128 .f32 := Host.absf main_arg7
  let main_cst_10 : FVec F S_ .f32 := constant S_ .f32 0x7F800000#32
  let main_v30 : FVec F S3x128 .f32 := broadcastInDim S3x128 ![] bcast_S_S3x128 main_cst_10
  let main_v31 : IVec S3x128 1 := cmpf .olt main_v29 main_v30
  let main_c_11 : IVec S_ 1 := constantI S_ 1 1#1
  let main_v32 : IVec S_ 1 := (fun x v => Host.reduce IntOp.andi x v reducesTo_S3x128_S_d0_1 h_S_) main_v31 main_c_11
  let main_v33 : IVec S_ 1 := andi main_v28 main_v32
  fn_part2 (F := F) main_arg8 main_arg9 main_v33

def fn {F : FTy → Type} [FloatOps F] (main_arg0 : FVec F S50000x128 .f32) (main_arg1 : IVec S2x1600000 32) (main_arg2 : FVec F S128x128 .f32) (main_arg3 : FVec F S128 .f32) (main_arg4 : FVec F S3x128x128 .f32) (main_arg5 : FVec F S3x128 .f32) (main_arg6 : FVec F S3x128x128 .f32) (main_arg7 : FVec F S3x128 .f32) (main_arg8 : FVec F S128x1 .f32) (main_arg9 : FVec F S1 .f32) : IVec S_ 1 :=
  let main_v0 : FVec F S50000x128 .f32 := Host.absf main_arg0
  let main_cst : FVec F S_ .f32 := constant S_ .f32 0x7F800000#32
  let main_v1 : FVec F S50000x128 .f32 := broadcastInDim S50000x128 ![] bcast_S_S50000x128 main_cst
  let main_v2 : IVec S50000x128 1 := cmpf .olt main_v0 main_v1
  let main_c : IVec S_ 1 := constantI S_ 1 1#1
  let main_v3 : IVec S_ 1 := (fun x v => Host.reduce IntOp.andi x v reducesTo_S50000x128_S_d0_1 h_S_) main_v2 main_c
  let main_v4 : FVec F S128x128 .f32 := Host.absf main_arg2
  let main_cst_0 : FVec F S_ .f32 := constant S_ .f32 0x7F800000#32
  let main_v5 : FVec F S128x128 .f32 := broadcastInDim S128x128 ![] bcast_S_S128x128 main_cst_0
  let main_v6 : IVec S128x128 1 := cmpf .olt main_v4 main_v5
  let main_c_1 : IVec S_ 1 := constantI S_ 1 1#1
  let main_v7 : IVec S_ 1 := (fun x v => Host.reduce IntOp.andi x v reducesTo_S128x128_S_d0_1 h_S_) main_v6 main_c_1
  let main_v8 : IVec S_ 1 := andi main_v3 main_v7
  let main_v9 : FVec F S128 .f32 := Host.absf main_arg3
  let main_cst_2 : FVec F S_ .f32 := constant S_ .f32 0x7F800000#32
  let main_v10 : FVec F S128 .f32 := broadcastInDim S128 ![] bcast_S_S128 main_cst_2
  let main_v11 : IVec S128 1 := cmpf .olt main_v9 main_v10
  let main_c_3 : IVec S_ 1 := constantI S_ 1 1#1
  let main_v12 : IVec S_ 1 := (fun x v => Host.reduce IntOp.andi x v reducesTo_S128_S_d0 h_S_) main_v11 main_c_3
  let main_v13 : IVec S_ 1 := andi main_v8 main_v12
  let main_v14 : FVec F S3x128x128 .f32 := Host.absf main_arg4
  let main_cst_4 : FVec F S_ .f32 := constant S_ .f32 0x7F800000#32
  let main_v15 : FVec F S3x128x128 .f32 := broadcastInDim S3x128x128 ![] bcast_S_S3x128x128 main_cst_4
  let main_v16 : IVec S3x128x128 1 := cmpf .olt main_v14 main_v15
  fn_part1 (F := F) main_arg5 main_arg6 main_arg7 main_arg8 main_arg9 main_v13 main_v16
-- ==== Kernel.lean ====
abbrev S50000x128 : Shape := ⟨2, ![50000, 128]⟩
abbrev S2x1600000 : Shape := ⟨2, ![2, 1600000]⟩
abbrev S128x128 : Shape := ⟨2, ![128, 128]⟩
abbrev S128 : Shape := ⟨1, ![128]⟩
abbrev S3x128x128 : Shape := ⟨3, ![3, 128, 128]⟩
abbrev S3x128 : Shape := ⟨2, ![3, 128]⟩
abbrev S128x1 : Shape := ⟨2, ![128, 1]⟩
abbrev S1 : Shape := ⟨1, ![1]⟩
abbrev S50000 : Shape := ⟨1, ![50000]⟩
abbrev S1x1600000 : Shape := ⟨2, ![1, 1600000]⟩
abbrev S1600000 : Shape := ⟨1, ![1600000]⟩
abbrev S1650000 : Shape := ⟨1, ![1650000]⟩
abbrev S_ : Shape := ⟨0, ![]⟩
abbrev S1650000x1 : Shape := ⟨2, ![1650000, 1]⟩
abbrev S50000x1 : Shape := ⟨2, ![50000, 1]⟩
abbrev S1x128 : Shape := ⟨2, ![1, 128]⟩
abbrev S5000x128 : Shape := ⟨2, ![5000, 128]⟩
abbrev S1x128x128 : Shape := ⟨3, ![1, 128, 128]⟩
abbrev S5000x1 : Shape := ⟨2, ![5000, 1]⟩
abbrev S1650000x128 : Shape := ⟨2, ![1650000, 128]⟩
abbrev S1x1 : Shape := ⟨2, ![1, 1]⟩

abbrev nBuf : Space → Nat
  | .hbm => 113
  | .vmem => 66
  | .smem => 0
  | _ => 0

abbrev bufTy : (tb : Table) → Fin (tcTables nBuf tb) → BufTy
  | .hbm, ⟨0, _⟩ => ⟨S50000x128, .f32⟩
  | .hbm, ⟨1, _⟩ => ⟨S2x1600000, .i32⟩
  | .hbm, ⟨2, _⟩ => ⟨S128x128, .f32⟩
  | .hbm, ⟨3, _⟩ => ⟨S128, .f32⟩
  | .hbm, ⟨4, _⟩ => ⟨S3x128x128, .f32⟩
  | .hbm, ⟨5, _⟩ => ⟨S3x128, .f32⟩
  | .hbm, ⟨6, _⟩ => ⟨S3x128x128, .f32⟩
  | .hbm, ⟨7, _⟩ => ⟨S3x128, .f32⟩
  | .hbm, ⟨8, _⟩ => ⟨S128x1, .f32⟩
  | .hbm, ⟨9, _⟩ => ⟨S1, .f32⟩
  | .hbm, ⟨10, _⟩ => ⟨S50000, .i32⟩
  | .hbm, ⟨11, _⟩ => ⟨S1x1600000, .i32⟩
  | .hbm, ⟨12, _⟩ => ⟨S1600000, .i32⟩
  | .hbm, ⟨13, _⟩ => ⟨S1650000, .i32⟩
  | .hbm, ⟨14, _⟩ => ⟨S1x1600000, .i32⟩
  | .hbm, ⟨15, _⟩ => ⟨S1600000, .i32⟩
  | .hbm, ⟨16, _⟩ => ⟨S1650000, .i32⟩
  | .hbm, ⟨17, _⟩ => ⟨S_, .f32⟩
  | .hbm, ⟨18, _⟩ => ⟨S1650000, .f32⟩
  | .hbm, ⟨19, _⟩ => ⟨S_, .f32⟩
  | .hbm, ⟨20, _⟩ => ⟨S50000, .f32⟩
  | .hbm, ⟨21, _⟩ => ⟨S1650000x1, .i32⟩
  | .hbm, ⟨22, _⟩ => ⟨S50000, .f32⟩
  | .hbm, ⟨23, _⟩ => ⟨S_, .f32⟩
  | .hbm, ⟨24, _⟩ => ⟨S50000, .f32⟩
  | .hbm, ⟨25, _⟩ => ⟨S50000, .i1⟩
  | .hbm, ⟨26, _⟩ => ⟨S_, .f32⟩
  | .hbm, ⟨27, _⟩ => ⟨S50000, .f32⟩
  | .hbm, ⟨28, _⟩ => ⟨S50000, .f32⟩
  | .hbm, ⟨29, _⟩ => ⟨S_, .f32⟩
  | .hbm, ⟨30, _⟩ => ⟨S_, .f32⟩
  | .hbm, ⟨31, _⟩ => ⟨S50000, .f32⟩
  | .hbm, ⟨32, _⟩ => ⟨S50000, .f32⟩
  | .hbm, ⟨33, _⟩ => ⟨S50000x1, .f32⟩
  | .hbm, ⟨34, _⟩ => ⟨S1x128, .f32⟩
  | .hbm, ⟨35, _⟩ => ⟨S50000x128, .f32⟩
  | .hbm, ⟨36, _⟩ => ⟨S1x128x128, .f32⟩
  | .hbm, ⟨37, _⟩ => ⟨S128x128, .f32⟩
  | .hbm, ⟨38, _⟩ => ⟨S50000x128, .f32⟩
  | .hbm, ⟨39, _⟩ => ⟨S_, .i32⟩
  | .hbm, ⟨40, _⟩ => ⟨S1650000, .i32⟩
  | .hbm, ⟨41, _⟩ => ⟨S1650000, .i1⟩
  | .hbm, ⟨42, _⟩ => ⟨S_, .i32⟩
  | .hbm, ⟨43, _⟩ => ⟨S1650000, .i32⟩
  | .hbm, ⟨44, _⟩ => ⟨S1650000, .i32⟩
  | .hbm, ⟨45, _⟩ => ⟨S1650000, .i32⟩
  | .hbm, ⟨46, _⟩ => ⟨S1650000x1, .i32⟩
  | .hbm, ⟨47, _⟩ => ⟨S1650000x128, .f32⟩
  | .hbm, ⟨48, _⟩ => ⟨S_, .f32⟩
  | .hbm, ⟨49, _⟩ => ⟨S50000x128, .f32⟩
  | .hbm, ⟨50, _⟩ => ⟨S1650000x1, .i32⟩
  | .hbm, ⟨51, _⟩ => ⟨S50000x128, .f32⟩
  | .hbm, ⟨52, _⟩ => ⟨S1x128x128, .f32⟩
  | .hbm, ⟨53, _⟩ => ⟨S128x128, .f32⟩
  | .hbm, ⟨54, _⟩ => ⟨S1x128, .f32⟩
  | .hbm, ⟨55, _⟩ => ⟨S128, .f32⟩
  | .hbm, ⟨56, _⟩ => ⟨S1x128, .f32⟩
  | .hbm, ⟨57, _⟩ => ⟨S128, .f32⟩
  | .hbm, ⟨58, _⟩ => ⟨S1x128, .f32⟩
  | .hbm, ⟨59, _⟩ => ⟨S1x128, .f32⟩
  | .hbm, ⟨60, _⟩ => ⟨S50000x128, .f32⟩
  | .hbm, ⟨61, _⟩ => ⟨S1x128x128, .f32⟩
  | .hbm, ⟨62, _⟩ => ⟨S128x128, .f32⟩
  | .hbm, ⟨63, _⟩ => ⟨S50000x128, .f32⟩
  | .hbm, ⟨64, _⟩ => ⟨S_, .i32⟩
  | .hbm, ⟨65, _⟩ => ⟨S1650000, .i32⟩
  | .hbm, ⟨66, _⟩ => ⟨S1650000, .i1⟩
  | .hbm, ⟨67, _⟩ => ⟨S_, .i32⟩
  | .hbm, ⟨68, _⟩ => ⟨S1650000, .i32⟩
  | .hbm, ⟨69, _⟩ => ⟨S1650000, .i32⟩
  | .hbm, ⟨70, _⟩ => ⟨S1650000, .i32⟩
  | .hbm, ⟨71, _⟩ => ⟨S1650000x1, .i32⟩
  | .hbm, ⟨72, _⟩ => ⟨S1650000x128, .f32⟩
  | .hbm, ⟨73, _⟩ => ⟨S_, .f32⟩
  | .hbm, ⟨74, _⟩ => ⟨S50000x128, .f32⟩
  | .hbm, ⟨75, _⟩ => ⟨S1650000x1, .i32⟩
  | .hbm, ⟨76, _⟩ => ⟨S50000x128, .f32⟩
  | .hbm, ⟨77, _⟩ => ⟨S1x128x128, .f32⟩
  | .hbm, ⟨78, _⟩ => ⟨S128x128, .f32⟩
  | .hbm, ⟨79, _⟩ => ⟨S1x128, .f32⟩
  | .hbm, ⟨80, _⟩ => ⟨S128, .f32⟩
  | .hbm, ⟨81, _⟩ => ⟨S1x128, .f32⟩
  | .hbm, ⟨82, _⟩ => ⟨S128, .f32⟩
  | .hbm, ⟨83, _⟩ => ⟨S1x128, .f32⟩
  | .hbm, ⟨84, _⟩ => ⟨S1x128, .f32⟩
  | .hbm, ⟨85, _⟩ => ⟨S50000x128, .f32⟩
  | .hbm, ⟨86, _⟩ => ⟨S1x128x128, .f32⟩
  | .hbm, ⟨87, _⟩ => ⟨S128x128, .f32⟩
  | .hbm, ⟨88, _⟩ => ⟨S50000x128, .f32⟩
  | .hbm, ⟨89, _⟩ => ⟨S_, .i32⟩
  | .hbm, ⟨90, _⟩ => ⟨S1650000, .i32⟩
  | .hbm, ⟨91, _⟩ => ⟨S1650000, .i1⟩
  | .hbm, ⟨92, _⟩ => ⟨S_, .i32⟩
  | .hbm, ⟨93, _⟩ => ⟨S1650000, .i32⟩
  | .hbm, ⟨94, _⟩ => ⟨S1650000, .i32⟩
  | .hbm, ⟨95, _⟩ => ⟨S1650000, .i32⟩
  | .hbm, ⟨96, _⟩ => ⟨S1650000x1, .i32⟩
  | .hbm, ⟨97, _⟩ => ⟨S1650000x128, .f32⟩
  | .hbm, ⟨98, _⟩ => ⟨S_, .f32⟩
  | .hbm, ⟨99, _⟩ => ⟨S50000x128, .f32⟩
  | .hbm, ⟨100, _⟩ => ⟨S1650000x1, .i32⟩
  | .hbm, ⟨101, _⟩ => ⟨S50000x128, .f32⟩
  | .hbm, ⟨102, _⟩ => ⟨S1x128x128, .f32⟩
  | .hbm, ⟨103, _⟩ => ⟨S128x128, .f32⟩
  | .hbm, ⟨104, _⟩ => ⟨S1x128, .f32⟩
  | .hbm, ⟨105, _⟩ => ⟨S128, .f32⟩
  | .hbm, ⟨106, _⟩ => ⟨S1x128, .f32⟩
  | .hbm, ⟨107, _⟩ => ⟨S128, .f32⟩
  | .hbm, ⟨108, _⟩ => ⟨S1x128, .f32⟩
  | .hbm, ⟨109, _⟩ => ⟨S1x128, .f32⟩
  | .hbm, ⟨110, _⟩ => ⟨S50000x128, .f32⟩
  | .hbm, ⟨111, _⟩ => ⟨S1x1, .f32⟩
  | .hbm, ⟨112, _⟩ => ⟨S50000x1, .f32⟩
  | .local _ .vmem, ⟨0, _⟩ => ⟨S5000x128, .f32⟩
  | .local _ .vmem, ⟨1, _⟩ => ⟨S5000x128, .f32⟩
  | .local _ .vmem, ⟨2, _⟩ => ⟨S128x128, .f32⟩
  | .local _ .vmem, ⟨3, _⟩ => ⟨S1x128, .f32⟩
  | .local _ .vmem, ⟨4, _⟩ => ⟨S5000x128, .f32⟩
  | .local _ .vmem, ⟨5, _⟩ => ⟨S5000x128, .f32⟩
  | .local _ .vmem, ⟨6, _⟩ => ⟨S5000x128, .f32⟩
  | .local _ .vmem, ⟨7, _⟩ => ⟨S5000x128, .f32⟩
  | .local _ .vmem, ⟨8, _⟩ => ⟨S128x128, .f32⟩
  | .local _ .vmem, ⟨9, _⟩ => ⟨S5000x1, .f32⟩
  | .local _ .vmem, ⟨10, _⟩ => ⟨S5000x1, .f32⟩
  | .local _ .vmem, ⟨11, _⟩ => ⟨S5000x128, .f32⟩
  | .local _ .vmem, ⟨12, _⟩ => ⟨S5000x128, .f32⟩
  | .local _ .vmem, ⟨13, _⟩ => ⟨S5000x128, .f32⟩
  | .local _ .vmem, ⟨14, _⟩ => ⟨S5000x128, .f32⟩
  | .local _ .vmem, ⟨15, _⟩ => ⟨S128x128, .f32⟩
  | .local _ .vmem, ⟨16, _⟩ => ⟨S1x128, .f32⟩
  | .local _ .vmem, ⟨17, _⟩ => ⟨S5000x128, .f32⟩
  | .local _ .vmem, ⟨18, _⟩ => ⟨S5000x128, .f32⟩
  | .local _ .vmem, ⟨19, _⟩ => ⟨S1x128, .f32⟩
  | .local _ .vmem, ⟨20, _⟩ => ⟨S5000x1, .f32⟩
  | .local _ .vmem, ⟨21, _⟩ => ⟨S5000x1, .f32⟩
  | .local _ .vmem, ⟨22, _⟩ => ⟨S5000x128, .f32⟩
  | .local _ .vmem, ⟨23, _⟩ => ⟨S5000x128, .f32⟩
  | .local _ .vmem, ⟨24, _⟩ => ⟨S5000x128, .f32⟩
  | .local _ .vmem, ⟨25, _⟩ => ⟨S5000x128, .f32⟩
  | .local _ .vmem, ⟨26, _⟩ => ⟨S128x128, .f32⟩
  | .local _ .vmem, ⟨27, _⟩ => ⟨S5000x1, .f32⟩
  | .local _ .vmem, ⟨28, _⟩ => ⟨S5000x1, .f32⟩
  | .local _ .vmem, ⟨29, _⟩ => ⟨S5000x128, .f32⟩
  | .local _ .vmem, ⟨30, _⟩ => ⟨S5000x128, .f32⟩
  | .local _ .vmem, ⟨31, _⟩ => ⟨S5000x128, .f32⟩
  | .local _ .vmem, ⟨32, _⟩ => ⟨S5000x128, .f32⟩
  | .local _ .vmem, ⟨33, _⟩ => ⟨S128x128, .f32⟩
  | .local _ .vmem, ⟨34, _⟩ => ⟨S1x128, .f32⟩
  | .local _ .vmem, ⟨35, _⟩ => ⟨S5000x128, .f32⟩
  | .local _ .vmem, ⟨36, _⟩ => ⟨S5000x128, .f32⟩
  | .local _ .vmem, ⟨37, _⟩ => ⟨S1x128, .f32⟩
  | .local _ .vmem, ⟨38, _⟩ => ⟨S5000x1, .f32⟩
  | .local _ .vmem, ⟨39, _⟩ => ⟨S5000x1, .f32⟩
  | .local _ .vmem, ⟨40, _⟩ => ⟨S5000x128, .f32⟩
  | .local _ .vmem, ⟨41, _⟩ => ⟨S5000x128, .f32⟩
  | .local _ .vmem, ⟨42, _⟩ => ⟨S5000x128, .f32⟩
  | .local _ .vmem, ⟨43, _⟩ => ⟨S5000x128, .f32⟩
  | .local _ .vmem, ⟨44, _⟩ => ⟨S128x128, .f32⟩
  | .local _ .vmem, ⟨45, _⟩ => ⟨S5000x1, .f32⟩
  | .local _ .vmem, ⟨46, _⟩ => ⟨S5000x1, .f32⟩
  | .local _ .vmem, ⟨47, _⟩ => ⟨S5000x128, .f32⟩
  | .local _ .vmem, ⟨48, _⟩ => ⟨S5000x128, .f32⟩
  | .local _ .vmem, ⟨49, _⟩ => ⟨S5000x128, .f32⟩
  | .local _ .vmem, ⟨50, _⟩ => ⟨S5000x128, .f32⟩
  | .local _ .vmem, ⟨51, _⟩ => ⟨S128x128, .f32⟩
  | .local _ .vmem, ⟨52, _⟩ => ⟨S1x128, .f32⟩
  | .local _ .vmem, ⟨53, _⟩ => ⟨S5000x128, .f32⟩
  | .local _ .vmem, ⟨54, _⟩ => ⟨S5000x128, .f32⟩
  | .local _ .vmem, ⟨55, _⟩ => ⟨S1x128, .f32⟩
  | .local _ .vmem, ⟨56, _⟩ => ⟨S5000x1, .f32⟩
  | .local _ .vmem, ⟨57, _⟩ => ⟨S5000x1, .f32⟩
  | .local _ .vmem, ⟨58, _⟩ => ⟨S5000x128, .f32⟩
  | .local _ .vmem, ⟨59, _⟩ => ⟨S5000x128, .f32⟩
  | .local _ .vmem, ⟨60, _⟩ => ⟨S5000x128, .f32⟩
  | .local _ .vmem, ⟨61, _⟩ => ⟨S5000x128, .f32⟩
  | .local _ .vmem, ⟨62, _⟩ => ⟨S128x1, .f32⟩
  | .local _ .vmem, ⟨63, _⟩ => ⟨S1x1, .f32⟩
  | .local _ .vmem, ⟨64, _⟩ => ⟨S5000x1, .f32⟩
  | .local _ .vmem, ⟨65, _⟩ => ⟨S5000x1, .f32⟩
  | _, _ => ⟨S50000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | .vmem, ⟨43, _⟩ => true
  | .vmem, ⟨44, _⟩ => true
  | .vmem, ⟨45, _⟩ => true
  | .vmem, ⟨46, _⟩ => true
  | .vmem, ⟨47, _⟩ => true
  | .vmem, ⟨48, _⟩ => true
  | .vmem, ⟨49, _⟩ => true
  | .vmem, ⟨50, _⟩ => true
  | .vmem, ⟨51, _⟩ => true
  | .vmem, ⟨52, _⟩ => true
  | .vmem, ⟨53, _⟩ => true
  | .vmem, ⟨54, _⟩ => true
  | .vmem, ⟨55, _⟩ => true
  | .vmem, ⟨56, _⟩ => true
  | .vmem, ⟨57, _⟩ => true
  | .vmem, ⟨58, _⟩ => true
  | .vmem, ⟨59, _⟩ => true
  | .vmem, ⟨60, _⟩ => true
  | .vmem, ⟨61, _⟩ => true
  | .vmem, ⟨62, _⟩ => true
  | .vmem, ⟨63, _⟩ => true
  | .vmem, ⟨64, _⟩ => true
  | .vmem, ⟨65, _⟩ => true
  | _, _ => false

abbrev semScoped : Fin 0 → Bool
  | ⟨_, h⟩ => absurd h (Nat.not_lt_zero _)

abbrev dmaSemScoped : Fin 66 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | ⟨49, _⟩ => true
  | ⟨50, _⟩ => true
  | ⟨51, _⟩ => true
  | ⟨52, _⟩ => true
  | ⟨53, _⟩ => true
  | ⟨54, _⟩ => true
  | ⟨55, _⟩ => true
  | ⟨56, _⟩ => true
  | ⟨57, _⟩ => true
  | ⟨58, _⟩ => true
  | ⟨59, _⟩ => true
  | ⟨60, _⟩ => true
  | ⟨61, _⟩ => true
  | ⟨62, _⟩ => true
  | ⟨63, _⟩ => true
  | ⟨64, _⟩ => true
  | ⟨65, _⟩ => true
  | _ => false

abbrev sig : RefSig :=
  ofTc nBuf bufTy 0 66 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_cst : Ref sig .tc := ⟨.hbm, 17, rfl⟩
abbrev main_v7 : Ref sig .tc := ⟨.hbm, 18, rfl⟩
abbrev main_cst_0 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_cst_1 : Ref sig .tc := ⟨.hbm, 23, rfl⟩
abbrev main_v11 : Ref sig .tc := ⟨.hbm, 24, rfl⟩
abbrev main_v12 : Ref sig .tc := ⟨.hbm, 25, rfl⟩
abbrev main_cst_2 : Ref sig .tc := ⟨.hbm, 26, rfl⟩
abbrev main_v13 : Ref sig .tc := ⟨.hbm, 27, rfl⟩
abbrev main_v14 : Ref sig .tc := ⟨.hbm, 28, rfl⟩
abbrev main_cst_3 : Ref sig .tc := ⟨.hbm, 29, rfl⟩
abbrev main_call0_v0 : Ref sig .tc := ⟨.hbm, 30, rfl⟩
abbrev main_call0_v1 : Ref sig .tc := ⟨.hbm, 31, rfl⟩
abbrev main_v15 : Ref sig .tc := ⟨.hbm, 32, rfl⟩
abbrev main_v16 : Ref sig .tc := ⟨.hbm, 33, rfl⟩
abbrev main_v17 : Ref sig .tc := ⟨.hbm, 34, rfl⟩
abbrev main_v18 : Ref sig .tc := ⟨.hbm, 35, rfl⟩
abbrev main_v19 : Ref sig .tc := ⟨.hbm, 36, rfl⟩
abbrev main_v20 : Ref sig .tc := ⟨.hbm, 37, rfl⟩
abbrev main_v21 : Ref sig .tc := ⟨.hbm, 38, rfl⟩
abbrev main_c : Ref sig .tc := ⟨.hbm, 39, rfl⟩
abbrev main_v22 : Ref sig .tc := ⟨.hbm, 40, rfl⟩
abbrev main_v23 : Ref sig .tc := ⟨.hbm, 41, rfl⟩
abbrev main_c_4 : Ref sig .tc := ⟨.hbm, 42, rfl⟩
abbrev main_v24 : Ref sig .tc := ⟨.hbm, 43, rfl⟩
abbrev main_v25 : Ref sig .tc := ⟨.hbm, 44, rfl⟩
abbrev main_v26 : Ref sig .tc := ⟨.hbm, 45, rfl⟩
abbrev main_v27 : Ref sig .tc := ⟨.hbm, 46, rfl⟩
abbrev main_v28 : Ref sig .tc := ⟨.hbm, 47, rfl⟩
abbrev main_cst_5 : Ref sig .tc := ⟨.hbm, 48, rfl⟩
abbrev main_v29 : Ref sig .tc := ⟨.hbm, 49, rfl⟩
abbrev main_v30 : Ref sig .tc := ⟨.hbm, 50, rfl⟩
abbrev main_v31 : Ref sig .tc := ⟨.hbm, 51, rfl⟩
abbrev main_v32 : Ref sig .tc := ⟨.hbm, 52, rfl⟩
abbrev main_v33 : Ref sig .tc := ⟨.hbm, 53, rfl⟩
abbrev main_v34 : Ref sig .tc := ⟨.hbm, 54, rfl⟩
abbrev main_v35 : Ref sig .tc := ⟨.hbm, 55, rfl⟩
abbrev main_v36 : Ref sig .tc := ⟨.hbm, 56, rfl⟩
abbrev main_v37 : Ref sig .tc := ⟨.hbm, 57, rfl⟩
abbrev main_v38 : Ref sig .tc := ⟨.hbm, 58, rfl⟩
abbrev main_v39 : Ref sig .tc := ⟨.hbm, 59, rfl⟩
abbrev main_v40 : Ref sig .tc := ⟨.hbm, 60, rfl⟩
abbrev main_v41 : Ref sig .tc := ⟨.hbm, 61, rfl⟩
abbrev main_v42 : Ref sig .tc := ⟨.hbm, 62, rfl⟩
abbrev main_v43 : Ref sig .tc := ⟨.hbm, 63, rfl⟩
abbrev main_c_6 : Ref sig .tc := ⟨.hbm, 64, rfl⟩
abbrev main_v44 : Ref sig .tc := ⟨.hbm, 65, rfl⟩
abbrev main_v45 : Ref sig .tc := ⟨.hbm, 66, rfl⟩
abbrev main_c_7 : Ref sig .tc := ⟨.hbm, 67, rfl⟩
abbrev main_v46 : Ref sig .tc := ⟨.hbm, 68, rfl⟩
abbrev main_v47 : Ref sig .tc := ⟨.hbm, 69, rfl⟩
abbrev main_v48 : Ref sig .tc := ⟨.hbm, 70, rfl⟩
abbrev main_v49 : Ref sig .tc := ⟨.hbm, 71, rfl⟩
abbrev main_v50 : Ref sig .tc := ⟨.hbm, 72, rfl⟩
abbrev main_cst_8 : Ref sig .tc := ⟨.hbm, 73, rfl⟩
abbrev main_v51 : Ref sig .tc := ⟨.hbm, 74, rfl⟩
abbrev main_v52 : Ref sig .tc := ⟨.hbm, 75, rfl⟩
abbrev main_v53 : Ref sig .tc := ⟨.hbm, 76, rfl⟩
abbrev main_v54 : Ref sig .tc := ⟨.hbm, 77, rfl⟩
abbrev main_v55 : Ref sig .tc := ⟨.hbm, 78, rfl⟩
abbrev main_v56 : Ref sig .tc := ⟨.hbm, 79, rfl⟩
abbrev main_v57 : Ref sig .tc := ⟨.hbm, 80, rfl⟩
abbrev main_v58 : Ref sig .tc := ⟨.hbm, 81, rfl⟩
abbrev main_v59 : Ref sig .tc := ⟨.hbm, 82, rfl⟩
abbrev main_v60 : Ref sig .tc := ⟨.hbm, 83, rfl⟩
abbrev main_v61 : Ref sig .tc := ⟨.hbm, 84, rfl⟩
abbrev main_v62 : Ref sig .tc := ⟨.hbm, 85, rfl⟩
abbrev main_v63 : Ref sig .tc := ⟨.hbm, 86, rfl⟩
abbrev main_v64 : Ref sig .tc := ⟨.hbm, 87, rfl⟩
abbrev main_v65 : Ref sig .tc := ⟨.hbm, 88, rfl⟩
abbrev main_c_9 : Ref sig .tc := ⟨.hbm, 89, rfl⟩
abbrev main_v66 : Ref sig .tc := ⟨.hbm, 90, rfl⟩
abbrev main_v67 : Ref sig .tc := ⟨.hbm, 91, rfl⟩
abbrev main_c_10 : Ref sig .tc := ⟨.hbm, 92, rfl⟩
abbrev main_v68 : Ref sig .tc := ⟨.hbm, 93, rfl⟩
abbrev main_v69 : Ref sig .tc := ⟨.hbm, 94, rfl⟩
abbrev main_v70 : Ref sig .tc := ⟨.hbm, 95, rfl⟩
abbrev main_v71 : Ref sig .tc := ⟨.hbm, 96, rfl⟩
abbrev main_v72 : Ref sig .tc := ⟨.hbm, 97, rfl⟩
abbrev main_cst_11 : Ref sig .tc := ⟨.hbm, 98, rfl⟩
abbrev main_v73 : Ref sig .tc := ⟨.hbm, 99, rfl⟩
abbrev main_v74 : Ref sig .tc := ⟨.hbm, 100, rfl⟩
abbrev main_v75 : Ref sig .tc := ⟨.hbm, 101, rfl⟩
abbrev main_v76 : Ref sig .tc := ⟨.hbm, 102, rfl⟩
abbrev main_v77 : Ref sig .tc := ⟨.hbm, 103, rfl⟩
abbrev main_v78 : Ref sig .tc := ⟨.hbm, 104, rfl⟩
abbrev main_v79 : Ref sig .tc := ⟨.hbm, 105, rfl⟩
abbrev main_v80 : Ref sig .tc := ⟨.hbm, 106, rfl⟩
abbrev main_v81 : Ref sig .tc := ⟨.hbm, 107, rfl⟩
abbrev main_v82 : Ref sig .tc := ⟨.hbm, 108, rfl⟩
abbrev main_v83 : Ref sig .tc := ⟨.hbm, 109, rfl⟩
abbrev main_v84 : Ref sig .tc := ⟨.hbm, 110, rfl⟩
abbrev main_v85 : Ref sig .tc := ⟨.hbm, 111, rfl⟩
abbrev main_v86 : Ref sig .tc := ⟨.hbm, 112, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc1_stg0_0 : Ref sig .tc := ⟨.vmem, 6, rfl⟩
abbrev cc1_stg0_1 : Ref sig .tc := ⟨.vmem, 7, rfl⟩
abbrev cc1_stg1_0 : Ref sig .tc := ⟨.vmem, 8, rfl⟩
abbrev cc1_stg2_0 : Ref sig .tc := ⟨.vmem, 9, rfl⟩
abbrev cc1_stg2_1 : Ref sig .tc := ⟨.vmem, 10, rfl⟩
abbrev cc1_stg3_0 : Ref sig .tc := ⟨.vmem, 11, rfl⟩
abbrev cc1_stg3_1 : Ref sig .tc := ⟨.vmem, 12, rfl⟩
abbrev cc2_stg0_0 : Ref sig .tc := ⟨.vmem, 13, rfl⟩
abbrev cc2_stg0_1 : Ref sig .tc := ⟨.vmem, 14, rfl⟩
abbrev cc2_stg1_0 : Ref sig .tc := ⟨.vmem, 15, rfl⟩
abbrev cc2_stg2_0 : Ref sig .tc := ⟨.vmem, 16, rfl⟩
abbrev cc2_stg3_0 : Ref sig .tc := ⟨.vmem, 17, rfl⟩
abbrev cc2_stg3_1 : Ref sig .tc := ⟨.vmem, 18, rfl⟩
abbrev cc2_stg4_0 : Ref sig .tc := ⟨.vmem, 19, rfl⟩
abbrev cc2_stg5_0 : Ref sig .tc := ⟨.vmem, 20, rfl⟩
abbrev cc2_stg5_1 : Ref sig .tc := ⟨.vmem, 21, rfl⟩
abbrev cc2_stg6_0 : Ref sig .tc := ⟨.vmem, 22, rfl⟩
abbrev cc2_stg6_1 : Ref sig .tc := ⟨.vmem, 23, rfl⟩
abbrev cc3_stg0_0 : Ref sig .tc := ⟨.vmem, 24, rfl⟩
abbrev cc3_stg0_1 : Ref sig .tc := ⟨.vmem, 25, rfl⟩
abbrev cc3_stg1_0 : Ref sig .tc := ⟨.vmem, 26, rfl⟩
abbrev cc3_stg2_0 : Ref sig .tc := ⟨.vmem, 27, rfl⟩
abbrev cc3_stg2_1 : Ref sig .tc := ⟨.vmem, 28, rfl⟩
abbrev cc3_stg3_0 : Ref sig .tc := ⟨.vmem, 29, rfl⟩
abbrev cc3_stg3_1 : Ref sig .tc := ⟨.vmem, 30, rfl⟩
abbrev cc4_stg0_0 : Ref sig .tc := ⟨.vmem, 31, rfl⟩
abbrev cc4_stg0_1 : Ref sig .tc := ⟨.vmem, 32, rfl⟩
abbrev cc4_stg1_0 : Ref sig .tc := ⟨.vmem, 33, rfl⟩
abbrev cc4_stg2_0 : Ref sig .tc := ⟨.vmem, 34, rfl⟩
abbrev cc4_stg3_0 : Ref sig .tc := ⟨.vmem, 35, rfl⟩
abbrev cc4_stg3_1 : Ref sig .tc := ⟨.vmem, 36, rfl⟩
abbrev cc4_stg4_0 : Ref sig .tc := ⟨.vmem, 37, rfl⟩
abbrev cc4_stg5_0 : Ref sig .tc := ⟨.vmem, 38, rfl⟩
abbrev cc4_stg5_1 : Ref sig .tc := ⟨.vmem, 39, rfl⟩
abbrev cc4_stg6_0 : Ref sig .tc := ⟨.vmem, 40, rfl⟩
abbrev cc4_stg6_1 : Ref sig .tc := ⟨.vmem, 41, rfl⟩
abbrev cc5_stg0_0 : Ref sig .tc := ⟨.vmem, 42, rfl⟩
abbrev cc5_stg0_1 : Ref sig .tc := ⟨.vmem, 43, rfl⟩
abbrev cc5_stg1_0 : Ref sig .tc := ⟨.vmem, 44, rfl⟩
abbrev cc5_stg2_0 : Ref sig .tc := ⟨.vmem, 45, rfl⟩
abbrev cc5_stg2_1 : Ref sig .tc := ⟨.vmem, 46, rfl⟩
abbrev cc5_stg3_0 : Ref sig .tc := ⟨.vmem, 47, rfl⟩
abbrev cc5_stg3_1 : Ref sig .tc := ⟨.vmem, 48, rfl⟩
abbrev cc6_stg0_0 : Ref sig .tc := ⟨.vmem, 49, rfl⟩
abbrev cc6_stg0_1 : Ref sig .tc := ⟨.vmem, 50, rfl⟩
abbrev cc6_stg1_0 : Ref sig .tc := ⟨.vmem, 51, rfl⟩
abbrev cc6_stg2_0 : Ref sig .tc := ⟨.vmem, 52, rfl⟩
abbrev cc6_stg3_0 : Ref sig .tc := ⟨.vmem, 53, rfl⟩
abbrev cc6_stg3_1 : Ref sig .tc := ⟨.vmem, 54, rfl⟩
abbrev cc6_stg4_0 : Ref sig .tc := ⟨.vmem, 55, rfl⟩
abbrev cc6_stg5_0 : Ref sig .tc := ⟨.vmem, 56, rfl⟩
abbrev cc6_stg5_1 : Ref sig .tc := ⟨.vmem, 57, rfl⟩
abbrev cc6_stg6_0 : Ref sig .tc := ⟨.vmem, 58, rfl⟩
abbrev cc6_stg6_1 : Ref sig .tc := ⟨.vmem, 59, rfl⟩
abbrev cc7_stg0_0 : Ref sig .tc := ⟨.vmem, 60, rfl⟩
abbrev cc7_stg0_1 : Ref sig .tc := ⟨.vmem, 61, rfl⟩
abbrev cc7_stg1_0 : Ref sig .tc := ⟨.vmem, 62, rfl⟩
abbrev cc7_stg2_0 : Ref sig .tc := ⟨.vmem, 63, rfl⟩
abbrev cc7_stg3_0 : Ref sig .tc := ⟨.vmem, 64, rfl⟩
abbrev cc7_stg3_1 : Ref sig .tc := ⟨.vmem, 65, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc1_sem0_0 : DmaSem sig := 6
abbrev cc1_sem0_1 : DmaSem sig := 7
abbrev cc1_sem1_0 : DmaSem sig := 8
abbrev cc1_sem2_0 : DmaSem sig := 9
abbrev cc1_sem2_1 : DmaSem sig := 10
abbrev cc1_sem3_0 : DmaSem sig := 11
abbrev cc1_sem3_1 : DmaSem sig := 12
abbrev cc2_sem0_0 : DmaSem sig := 13
abbrev cc2_sem0_1 : DmaSem sig := 14
abbrev cc2_sem1_0 : DmaSem sig := 15
abbrev cc2_sem2_0 : DmaSem sig := 16
abbrev cc2_sem3_0 : DmaSem sig := 17
abbrev cc2_sem3_1 : DmaSem sig := 18
abbrev cc2_sem4_0 : DmaSem sig := 19
abbrev cc2_sem5_0 : DmaSem sig := 20
abbrev cc2_sem5_1 : DmaSem sig := 21
abbrev cc2_sem6_0 : DmaSem sig := 22
abbrev cc2_sem6_1 : DmaSem sig := 23
abbrev cc3_sem0_0 : DmaSem sig := 24
abbrev cc3_sem0_1 : DmaSem sig := 25
abbrev cc3_sem1_0 : DmaSem sig := 26
abbrev cc3_sem2_0 : DmaSem sig := 27
abbrev cc3_sem2_1 : DmaSem sig := 28
abbrev cc3_sem3_0 : DmaSem sig := 29
abbrev cc3_sem3_1 : DmaSem sig := 30
abbrev cc4_sem0_0 : DmaSem sig := 31
abbrev cc4_sem0_1 : DmaSem sig := 32
abbrev cc4_sem1_0 : DmaSem sig := 33
abbrev cc4_sem2_0 : DmaSem sig := 34
abbrev cc4_sem3_0 : DmaSem sig := 35
abbrev cc4_sem3_1 : DmaSem sig := 36
abbrev cc4_sem4_0 : DmaSem sig := 37
abbrev cc4_sem5_0 : DmaSem sig := 38
abbrev cc4_sem5_1 : DmaSem sig := 39
abbrev cc4_sem6_0 : DmaSem sig := 40
abbrev cc4_sem6_1 : DmaSem sig := 41
abbrev cc5_sem0_0 : DmaSem sig := 42
abbrev cc5_sem0_1 : DmaSem sig := 43
abbrev cc5_sem1_0 : DmaSem sig := 44
abbrev cc5_sem2_0 : DmaSem sig := 45
abbrev cc5_sem2_1 : DmaSem sig := 46
abbrev cc5_sem3_0 : DmaSem sig := 47
abbrev cc5_sem3_1 : DmaSem sig := 48
abbrev cc6_sem0_0 : DmaSem sig := 49
abbrev cc6_sem0_1 : DmaSem sig := 50
abbrev cc6_sem1_0 : DmaSem sig := 51
abbrev cc6_sem2_0 : DmaSem sig := 52
abbrev cc6_sem3_0 : DmaSem sig := 53
abbrev cc6_sem3_1 : DmaSem sig := 54
abbrev cc6_sem4_0 : DmaSem sig := 55
abbrev cc6_sem5_0 : DmaSem sig := 56
abbrev cc6_sem5_1 : DmaSem sig := 57
abbrev cc6_sem6_0 : DmaSem sig := 58
abbrev cc6_sem6_1 : DmaSem sig := 59
abbrev cc7_sem0_0 : DmaSem sig := 60
abbrev cc7_sem0_1 : DmaSem sig := 61
abbrev cc7_sem1_0 : DmaSem sig := 62
abbrev cc7_sem2_0 : DmaSem sig := 63
abbrev cc7_sem3_0 : DmaSem sig := 64
abbrev cc7_sem3_1 : DmaSem sig := 65

abbrev nD : Nat := 1
abbrev τ : Topo := Topo.v7x

variable {F : FTy → Type} [FloatOps F]

abbrev grid0 : Pipeline.Grid := ⟨1, ![10], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S5000x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev grid1 : Pipeline.Grid := ⟨1, ![10], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_3 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S128x128 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 2 → Memref sig .tc .vmem S5000x1 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev stage1_3 : Fin 2 → Memref sig .tc .vmem S5000x128 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

abbrev grid2 : Pipeline.Grid := ⟨1, ![10], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_4 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_5 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_6 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S5000x128 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S128x128 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 1 → Memref sig .tc .vmem S1x128 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 2 → Memref sig .tc .vmem S5000x128 .f32 := fun | 0 => Memref.whole cc2_stg3_0 | 1 => Memref.whole cc2_stg3_1 | ⟨_ + 2, h⟩ => absurd h (Nat.not_lt.2 (Nat.le_add_left _ _))
abbrev sem2_3 : Fin 2 → DmaSem sig := fun | 0 => cc2_sem3_0 | 1 => cc2_sem3_1 | ⟨_ + 2, h⟩ => absurd h (Nat.not_lt.2 (Nat.le_add_left _ _))
abbrev reads2_3 : Fin grid2.rank → Bool := ![true]

abbrev stage2_4 : Fin 1 → Memref sig .tc .vmem S1x128 .f32 := fun | 0 => Memref.whole cc2_stg4_0 | ⟨_ + 1, h⟩ => absurd h (Nat.not_lt.2 (Nat.le_add_left _ _))
abbrev sem2_4 : Fin 1 → DmaSem sig := fun | 0 => cc2_sem4_0 | ⟨_ + 1, h⟩ => absurd h (Nat.not_lt.2 (Nat.le_add_left _ _))
abbrev reads2_4 : Fin grid2.rank → Bool := ![false]

abbrev stage2_5 : Fin 2 → Memref sig .tc .vmem S5000x1 .f32 := fun | 0 => Memref.whole cc2_stg5_0 | 1 => Memref.whole cc2_stg5_1 | ⟨_ + 2, h⟩ => absurd h (Nat.not_lt.2 (Nat.le_add_left _ _))
abbrev sem2_5 : Fin 2 → DmaSem sig := fun | 0 => cc2_sem5_0 | 1 => cc2_sem5_1 | ⟨_ + 2, h⟩ => absurd h (Nat.not_lt.2 (Nat.le_add_left _ _))
abbrev reads2_5 : Fin grid2.rank → Bool := ![true]

abbrev stage2_6 : Fin 2 → Memref sig .tc .vmem S5000x128 .f32 := fun | 0 => Memref.whole cc2_stg6_0 | 1 => Memref.whole cc2_stg6_1 | ⟨_ + 2, h⟩ => absurd h (Nat.not_lt.2 (Nat.le_add_left _ _))
abbrev sem2_6 : Fin 2 → DmaSem sig := fun | 0 => cc2_sem6_0 | 1 => cc2_sem6_1 | ⟨_ + 2, h⟩ => absurd h (Nat.not_lt.2 (Nat.le_add_left _ _))
abbrev reads2_6 : Fin grid2.rank → Bool := ![true]

abbrev grid3 : Pipeline.Grid := ⟨1, ![10], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_2 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_3 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S5000x128 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 1 → Memref sig .tc .vmem S128x128 .f32 := fun | 0 => Memref.whole cc3_stg1_0 | ⟨_ + 1, h⟩ => absurd h (Nat.not_lt.2 (Nat.le_add_left _ _))
abbrev sem3_1 : Fin 1 → DmaSem sig := fun | 0 => cc3_sem1_0 | ⟨_ + 1, h⟩ => absurd h (Nat.not_lt.2 (Nat.le_add_left _ _))
abbrev reads3_1 : Fin grid3.rank → Bool := ![false]

abbrev stage3_2 : Fin 2 → Memref sig .tc .vmem S5000x1 .f32 := fun | 0 => Memref.whole cc3_stg2_0 | 1 => Memref.whole cc3_stg2_1 | ⟨_ + 2, h⟩ => absurd h (Nat.not_lt.2 (Nat.le_add_left _ _))
abbrev sem3_2 : Fin 2 → DmaSem sig := fun | 0 => cc3_sem2_0 | 1 => cc3_sem2_1 | ⟨_ + 2, h⟩ => absurd h (Nat.not_lt.2 (Nat.le_add_left _ _))
abbrev reads3_2 : Fin grid3.rank → Bool := ![true]

abbrev stage3_3 : Fin 2 → Memref sig .tc .vmem S5000x128 .f32 := fun | 0 => Memref.whole cc3_stg3_0 | 1 => Memref.whole cc3_stg3_1 | ⟨_ + 2, h⟩ => absurd h (Nat.not_lt.2 (Nat.le_add_left _ _))
abbrev sem3_3 : Fin 2 → DmaSem sig := fun | 0 => cc3_sem3_0 | 1 => cc3_sem3_1 | ⟨_ + 2, h⟩ => absurd h (Nat.not_lt.2 (Nat.le_add_left _ _))
abbrev reads3_3 : Fin grid3.rank → Bool := ![true]

abbrev grid4 : Pipeline.Grid := ⟨1, ![10], ![false]⟩

def cc4_transform_0 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_1 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_2 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_3 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_4 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_5 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_6 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage4_0 : Fin 2 → Memref sig .tc .vmem S5000x128 .f32 := fun | 0 => Memref.whole cc4_stg0_0 | 1 => Memref.whole cc4_stg0_1 | ⟨_ + 2, h⟩ => absurd h (Nat.not_lt.2 (Nat.le_add_left _ _))
abbrev sem4_0 : Fin 2 → DmaSem sig := fun | 0 => cc4_sem0_0 | 1 => cc4_sem0_1 | ⟨_ + 2, h⟩ => absurd h (Nat.not_lt.2 (Nat.le_add_left _ _))
abbrev reads4_0 : Fin grid4.rank → Bool := ![true]

abbrev stage4_1 : Fin 1 → Memref sig .tc .vmem S128x128 .f32 := fun | 0 => Memref.whole cc4_stg1_0 | ⟨_ + 1, h⟩ => absurd h (Nat.not_lt.2 (Nat.le_add_left _ _))
abbrev sem4_1 : Fin 1 → DmaSem sig := fun | 0 => cc4_sem1_0 | ⟨_ + 1, h⟩ => absurd h (Nat.not_lt.2 (Nat.le_add_left _ _))
abbrev reads4_1 : Fin grid4.rank → Bool := ![false]

abbrev stage4_2 : Fin 1 → Memref sig .tc .vmem S1x128 .f32 := fun | 0 => Memref.whole cc4_stg2_0 | ⟨_ + 1, h⟩ => absurd h (Nat.not_lt.2 (Nat.le_add_left _ _))
abbrev sem4_2 : Fin 1 → DmaSem sig := fun | 0 => cc4_sem2_0 | ⟨_ + 1, h⟩ => absurd h (Nat.not_lt.2 (Nat.le_add_left _ _))
abbrev reads4_2 : Fin grid4.rank → Bool := ![false]

abbrev stage4_3 : Fin 2 → Memref sig .tc .vmem S5000x128 .f32 := fun | 0 => Memref.whole cc4_stg3_0 | 1 => Memref.whole cc4_stg3_1 | ⟨_ + 2, h⟩ => absurd h (Nat.not_lt.2 (Nat.le_add_left _ _))
abbrev sem4_3 : Fin 2 → DmaSem sig := fun | 0 => cc4_sem3_0 | 1 => cc4_sem3_1 | ⟨_ + 2, h⟩ => absurd h (Nat.not_lt.2 (Nat.le_add_left _ _))
abbrev reads4_3 : Fin grid4.rank → Bool := ![true]

abbrev stage4_4 : Fin 1 → Memref sig .tc .vmem S1x128 .f32 := fun | 0 => Memref.whole cc4_stg4_0 | ⟨_ + 1, h⟩ => absurd h (Nat.not_lt.2 (Nat.le_add_left _ _))
abbrev sem4_4 : Fin 1 → DmaSem sig := fun | 0 => cc4_sem4_0 | ⟨_ + 1, h⟩ => absurd h (Nat.not_lt.2 (Nat.le_add_left _ _))
abbrev reads4_4 : Fin grid4.rank → Bool := ![false]

abbrev stage4_5 : Fin 2 → Memref sig .tc .vmem S5000x1 .f32 := fun | 0 => Memref.whole cc4_stg5_0 | 1 => Memref.whole cc4_stg5_1 | ⟨_ + 2, h⟩ => absurd h (Nat.not_lt.2 (Nat.le_add_left _ _))
abbrev sem4_5 : Fin 2 → DmaSem sig := fun | 0 => cc4_sem5_0 | 1 => cc4_sem5_1 | ⟨_ + 2, h⟩ => absurd h (Nat.not_lt.2 (Nat.le_add_left _ _))
abbrev reads4_5 : Fin grid4.rank → Bool := ![true]

abbrev stage4_6 : Fin 2 → Memref sig .tc .vmem S5000x128 .f32 := fun | 0 => Memref.whole cc4_stg6_0 | 1 => Memref.whole cc4_stg6_1 | ⟨_ + 2, h⟩ => absurd h (Nat.not_lt.2 (Nat.le_add_left _ _))
abbrev sem4_6 : Fin 2 → DmaSem sig := fun | 0 => cc4_sem6_0 | 1 => cc4_sem6_1 | ⟨_ + 2, h⟩ => absurd h (Nat.not_lt.2 (Nat.le_add_left _ _))
abbrev reads4_6 : Fin grid4.rank → Bool := ![true]

abbrev grid5 : Pipeline.Grid := ⟨1, ![10], ![false]⟩

def cc5_transform_0 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_1 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_2 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_3 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage5_0 : Fin 2 → Memref sig .tc .vmem S5000x128 .f32 := fun | 0 => Memref.whole cc5_stg0_0 | 1 => Memref.whole cc5_stg0_1 | ⟨_ + 2, h⟩ => absurd h (Nat.not_lt.2 (Nat.le_add_left _ _))
abbrev sem5_0 : Fin 2 → DmaSem sig := fun | 0 => cc5_sem0_0 | 1 => cc5_sem0_1 | ⟨_ + 2, h⟩ => absurd h (Nat.not_lt.2 (Nat.le_add_left _ _))
abbrev reads5_0 : Fin grid5.rank → Bool := ![true]

abbrev stage5_1 : Fin 1 → Memref sig .tc .vmem S128x128 .f32 := fun | 0 => Memref.whole cc5_stg1_0 | ⟨_ + 1, h⟩ => absurd h (Nat.not_lt.2 (Nat.le_add_left _ _))
abbrev sem5_1 : Fin 1 → DmaSem sig := fun | 0 => cc5_sem1_0 | ⟨_ + 1, h⟩ => absurd h (Nat.not_lt.2 (Nat.le_add_left _ _))
abbrev reads5_1 : Fin grid5.rank → Bool := ![false]

abbrev stage5_2 : Fin 2 → Memref sig .tc .vmem S5000x1 .f32 := fun | 0 => Memref.whole cc5_stg2_0 | 1 => Memref.whole cc5_stg2_1 | ⟨_ + 2, h⟩ => absurd h (Nat.not_lt.2 (Nat.le_add_left _ _))
abbrev sem5_2 : Fin 2 → DmaSem sig := fun | 0 => cc5_sem2_0 | 1 => cc5_sem2_1 | ⟨_ + 2, h⟩ => absurd h (Nat.not_lt.2 (Nat.le_add_left _ _))
abbrev reads5_2 : Fin grid5.rank → Bool := ![true]

abbrev stage5_3 : Fin 2 → Memref sig .tc .vmem S5000x128 .f32 := fun | 0 => Memref.whole cc5_stg3_0 | 1 => Memref.whole cc5_stg3_1 | ⟨_ + 2, h⟩ => absurd h (Nat.not_lt.2 (Nat.le_add_left _ _))
abbrev sem5_3 : Fin 2 → DmaSem sig := fun | 0 => cc5_sem3_0 | 1 => cc5_sem3_1 | ⟨_ + 2, h⟩ => absurd h (Nat.not_lt.2 (Nat.le_add_left _ _))
abbrev reads5_3 : Fin grid5.rank → Bool := ![true]

abbrev grid6 : Pipeline.Grid := ⟨1, ![10], ![false]⟩

def cc6_transform_0 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

def cc6_transform_1 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc6_transform_2 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc6_transform_3 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

def cc6_transform_4 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc6_transform_5 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

def cc6_transform_6 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage6_0 : Fin 2 → Memref sig .tc .vmem S5000x128 .f32 := fun | 0 => Memref.whole cc6_stg0_0 | 1 => Memref.whole cc6_stg0_1 | ⟨_ + 2, h⟩ => absurd h (Nat.not_lt.2 (Nat.le_add_left _ _))
abbrev sem6_0 : Fin 2 → DmaSem sig := fun | 0 => cc6_sem0_0 | 1 => cc6_sem0_1 | ⟨_ + 2, h⟩ => absurd h (Nat.not_lt.2 (Nat.le_add_left _ _))
abbrev reads6_0 : Fin grid6.rank → Bool := ![true]

abbrev stage6_1 : Fin 1 → Memref sig .tc .vmem S128x128 .f32 := fun | 0 => Memref.whole cc6_stg1_0 | ⟨_ + 1, h⟩ => absurd h (Nat.not_lt.2 (Nat.le_add_left _ _))
abbrev sem6_1 : Fin 1 → DmaSem sig := fun | 0 => cc6_sem1_0 | ⟨_ + 1, h⟩ => absurd h (Nat.not_lt.2 (Nat.le_add_left _ _))
abbrev reads6_1 : Fin grid6.rank → Bool := ![false]

abbrev stage6_2 : Fin 1 → Memref sig .tc .vmem S1x128 .f32 := fun | 0 => Memref.whole cc6_stg2_0 | ⟨_ + 1, h⟩ => absurd h (Nat.not_lt.2 (Nat.le_add_left _ _))
abbrev sem6_2 : Fin 1 → DmaSem sig := fun | 0 => cc6_sem2_0 | ⟨_ + 1, h⟩ => absurd h (Nat.not_lt.2 (Nat.le_add_left _ _))
abbrev reads6_2 : Fin grid6.rank → Bool := ![false]

abbrev stage6_3 : Fin 2 → Memref sig .tc .vmem S5000x128 .f32 := fun | 0 => Memref.whole cc6_stg3_0 | 1 => Memref.whole cc6_stg3_1 | ⟨_ + 2, h⟩ => absurd h (Nat.not_lt.2 (Nat.le_add_left _ _))
abbrev sem6_3 : Fin 2 → DmaSem sig := fun | 0 => cc6_sem3_0 | 1 => cc6_sem3_1 | ⟨_ + 2, h⟩ => absurd h (Nat.not_lt.2 (Nat.le_add_left _ _))
abbrev reads6_3 : Fin grid6.rank → Bool := ![true]

abbrev stage6_4 : Fin 1 → Memref sig .tc .vmem S1x128 .f32 := fun | 0 => Memref.whole cc6_stg4_0 | ⟨_ + 1, h⟩ => absurd h (Nat.not_lt.2 (Nat.le_add_left _ _))
abbrev sem6_4 : Fin 1 → DmaSem sig := fun | 0 => cc6_sem4_0 | ⟨_ + 1, h⟩ => absurd h (Nat.not_lt.2 (Nat.le_add_left _ _))
abbrev reads6_4 : Fin grid6.rank → Bool := ![false]

abbrev stage6_5 : Fin 2 → Memref sig .tc .vmem S5000x1 .f32 := fun | 0 => Memref.whole cc6_stg5_0 | 1 => Memref.whole cc6_stg5_1 | ⟨_ + 2, h⟩ => absurd h (Nat.not_lt.2 (Nat.le_add_left _ _))
abbrev sem6_5 : Fin 2 → DmaSem sig := fun | 0 => cc6_sem5_0 | 1 => cc6_sem5_1 | ⟨_ + 2, h⟩ => absurd h (Nat.not_lt.2 (Nat.le_add_left _ _))
abbrev reads6_5 : Fin grid6.rank → Bool := ![true]

abbrev stage6_6 : Fin 2 → Memref sig .tc .vmem S5000x128 .f32 := fun | 0 => Memref.whole cc6_stg6_0 | 1 => Memref.whole cc6_stg6_1 | ⟨_ + 2, h⟩ => absurd h (Nat.not_lt.2 (Nat.le_add_left _ _))
abbrev sem6_6 : Fin 2 → DmaSem sig := fun | 0 => cc6_sem6_0 | 1 => cc6_sem6_1 | ⟨_ + 2, h⟩ => absurd h (Nat.not_lt.2 (Nat.le_add_left _ _))
abbrev reads6_6 : Fin grid6.rank → Bool := ![true]

abbrev grid7 : Pipeline.Grid := ⟨1, ![10], ![false]⟩

def cc7_transform_0 (i : grid7.Coords) : Fin 2 → Nat :=
  let arg0 : BitVec 32 := BitVec.ofNat 32 (i 0).val
  let c0_i32 : BitVec 32 := 0#32
  let c0_i32_0 : BitVec 32 := 0#32
  ![arg0.toNat, c0_i32.toNat]

def cc7_transform_1 (i : grid7.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc7_transform_2 (i : grid7.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc7_transform_3 (i : grid7.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage7_0 : Fin 2 → Memref sig .tc .vmem S5000x128 .f32 := fun | 0 => Memref.whole cc7_stg0_0 | 1 => Memref.whole cc7_stg0_1 | ⟨_ + 2, h⟩ => absurd h (Nat.not_lt.2 (Nat.le_add_left _ _))
abbrev sem7_0 : Fin 2 → DmaSem sig := fun | 0 => cc7_sem0_0 | 1 => cc7_sem0_1 | ⟨_ + 2, h⟩ => absurd h (Nat.not_lt.2 (Nat.le_add_left _ _))
abbrev reads7_0 : Fin grid7.rank → Bool := ![true]

abbrev stage7_1 : Fin 1 → Memref sig .tc .vmem S128x1 .f32 := fun | 0 => Memref.whole cc7_stg1_0 | ⟨_ + 1, h⟩ => absurd h (Nat.not_lt.2 (Nat.le_add_left _ _))
abbrev sem7_1 : Fin 1 → DmaSem sig := fun | 0 => cc7_sem1_0 | ⟨_ + 1, h⟩ => absurd h (Nat.not_lt.2 (Nat.le_add_left _ _))
abbrev reads7_1 : Fin grid7.rank → Bool := ![false]

abbrev stage7_2 : Fin 1 → Memref sig .tc .vmem S1x1 .f32 := fun | 0 => Memref.whole cc7_stg2_0 | ⟨_ + 1, h⟩ => absurd h (Nat.not_lt.2 (Nat.le_add_left _ _))
abbrev sem7_2 : Fin 1 → DmaSem sig := fun | 0 => cc7_sem2_0 | ⟨_ + 1, h⟩ => absurd h (Nat.not_lt.2 (Nat.le_add_left _ _))
abbrev reads7_2 : Fin grid7.rank → Bool := ![false]

abbrev stage7_3 : Fin 2 → Memref sig .tc .vmem S5000x1 .f32 := fun | 0 => Memref.whole cc7_stg3_0 | 1 => Memref.whole cc7_stg3_1 | ⟨_ + 2, h⟩ => absurd h (Nat.not_lt.2 (Nat.le_add_left _ _))
abbrev sem7_3 : Fin 2 → DmaSem sig := fun | 0 => cc7_sem3_0 | 1 => cc7_sem3_1 | ⟨_ + 2, h⟩ => absurd h (Nat.not_lt.2 (Nat.le_add_left _ _))
abbrev reads7_3 : Fin grid7.rank → Bool := ![true]

class Facts₀ : Prop where
  slices_S2x1600000_S1x1600000_0_0 : S2x1600000.Slices ![0, 0] S1x1600000
  shapeCasts_S1x1600000_S1600000 : S1x1600000.ShapeCasts S1600000
  concatenates_S1600000_S50000_S1650000_d0 : Shape.Concatenates [S1600000, S50000] S1650000 0
  slices_S2x1600000_S1x1600000_1_0 : S2x1600000.Slices ![1, 0] S1x1600000
  bcast_S_S1650000 : S_.BroadcastsInDim S1650000 (![] : Fin 0 → Fin S1650000.rank)
  bcast_S_S50000 : S_.BroadcastsInDim S50000 (![] : Fin 0 → Fin S50000.rank)
  bcast_S1650000_S1650000x1_0 : S1650000.BroadcastsInDim S1650000x1 (![0] : Fin 1 → Fin S1650000x1.rank)
  shapeCasts_S50000_S50000x1 : S50000.ShapeCasts S50000x1
  shapeCasts_S128_S1x128 : S128.ShapeCasts S1x128
  inb_S5000x128_S5000x128_0_0 : ∀ a, (![0, 0] : Fin 2 → Nat) a + S5000x128.size a ≤ S5000x128.size a
  h_S5000x128 : 0 < S5000x128.numel
  bitsLt_bf16_f32 : FTy.bits .bf16 < FTy.bits .f32
  inb_S128x128_S128x128_0_0 : ∀ a, (![0, 0] : Fin 2 → Nat) a + S128x128.size a ≤ S128x128.size a
  h_S128x128 : 0 < S128x128.numel
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S5000x128 : S1x128.Broadcasts S5000x128
  slices_S3x128x128_S1x128x128_0_0_0 : S3x128x128.Slices ![0, 0, 0] S1x128x128
  shapeCasts_S1x128x128_S128x128 : S1x128x128.ShapeCasts S128x128
  shapeCasts_S5000x128_S5000x128 : S5000x128.ShapeCasts S5000x128
  shapeCasts_S128x128_S128x128 : S128x128.ShapeCasts S128x128
  inb_S5000x1_S5000x1_0_0 : ∀ a, (![0, 0] : Fin 2 → Nat) a + S5000x1.size a ≤ S5000x1.size a
  h_S5000x1 : 0 < S5000x1.numel
  shapeCasts_S5000x1_S5000x1 : S5000x1.ShapeCasts S5000x1
  broadcasts_S5000x1_S5000x128 : S5000x1.Broadcasts S5000x128
  bcast_S_S50000x128 : S_.BroadcastsInDim S50000x128 (![] : Fin 0 → Fin S50000x128.rank)
  slices_S3x128_S1x128_0_0 : S3x128.Slices ![0, 0] S1x128
  shapeCasts_S1x128_S128 : S1x128.ShapeCasts S128
  slices_S3x128x128_S1x128x128_1_0_0 : S3x128x128.Slices ![1, 0, 0] S1x128x128
  slices_S3x128_S1x128_1_0 : S3x128.Slices ![1, 0] S1x128
  slices_S3x128x128_S1x128x128_2_0_0 : S3x128x128.Slices ![2, 0, 0] S1x128x128
  slices_S3x128_S1x128_2_0 : S3x128.Slices ![2, 0] S1x128
  shapeCasts_S1_S1x1 : S1.ShapeCasts S1x1
  inb_S128x1_S128x1_0_0 : ∀ a, (![0, 0] : Fin 2 → Nat) a + S128x1.size a ≤ S128x1.size a
  h_S128x1 : 0 < S128x1.numel
  inb_S1x1_S1x1_0_0 : ∀ a, (![0, 0] : Fin 2 → Nat) a + S1x1.size a ≤ S1x1.size a
  h_S1x1 : 0 < S1x1.numel
  shapeCasts_S1x1_S1x1 : S1x1.ShapeCasts S1x1
  broadcasts_S1x1_S5000x1 : S1x1.Broadcasts S5000x1
  scatter_S50000_S1650000x1_S1650000_n_0_0_1_wf : ScatterDims.WF S50000 S1650000x1 S1650000 [] [0] [0] 1
  dot_S5000x128_S128x128_S5000x128_1_0_0_1_n_n_wf : DotDims.WF S5000x128 S128x128 S5000x128 [1] [0] [0] [1] [] []
  gather_S50000x128_S1650000x1_S1650000x128_1_0_n_n_0_1_1128_wf : GatherDims.WF S50000x128 S1650000x1 S1650000x128 [1] [0] [] [0] [] 1 ![1, 128]
  scatter_S50000x128_S1650000x1_S1650000x128_1_0_0_1_wf : ScatterDims.WF S50000x128 S1650000x1 S1650000x128 [1] [0] [0] 1
  dot_S5000x128_S128x1_S5000x1_1_0_0_1_n_n_wf : DotDims.WF S5000x128 S128x1 S5000x1 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x128.size a ≤ S50000x128.size a
  hwx0_0 : ∀ i : grid0.Coords, EltTy.bits .f32 = 32 ∨ (Rect.block (s := S50000x128) S5000x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128x128.size a ≤ S128x128.size a
  hwx0_1 : ∀ i : grid0.Coords, EltTy.bits .f32 = 32 ∨ (Rect.block (s := S128x128) S128x128.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x128.size a ≤ S1x128.size a
  hwx0_2 : ∀ i : grid0.Coords, EltTy.bits .f32 = 32 ∨ (Rect.block (s := S1x128) S1x128.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S5000x128.size a ≤ S50000x128.size a
  hwx0_3 : ∀ i : grid0.Coords, EltTy.bits .f32 = 32 ∨ (Rect.block (s := S50000x128) S5000x128.size (cc0_transform_3 i) (hinb0_3 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x128.size a ≤ S50000x128.size a
  hwx1_0 : ∀ i : grid1.Coords, EltTy.bits .f32 = 32 ∨ (Rect.block (s := S50000x128) S5000x128.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S128x128.size a ≤ S128x128.size a
  hwx1_1 : ∀ i : grid1.Coords, EltTy.bits .f32 = 32 ∨ (Rect.block (s := S128x128) S128x128.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S5000x1.size a ≤ S50000x1.size a
  hwx1_2 : ∀ i : grid1.Coords, EltTy.bits .f32 = 32 ∨ (Rect.block (s := S50000x1) S5000x1.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S5000x128.size a ≤ S50000x128.size a
  hwx1_3 : ∀ i : grid1.Coords, EltTy.bits .f32 = 32 ∨ (Rect.block (s := S50000x128) S5000x128.size (cc1_transform_3 i) (hinb1_3 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S5000x128.size a ≤ S50000x128.size a
  hwx2_0 : ∀ i : grid2.Coords, EltTy.bits .f32 = 32 ∨ (Rect.block (s := S50000x128) S5000x128.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S128x128.size a ≤ S128x128.size a
  hwx2_1 : ∀ i : grid2.Coords, EltTy.bits .f32 = 32 ∨ (Rect.block (s := S128x128) S128x128.size (cc2_transform_1 i) (hinb2_1 i)).WholeWords (EltTy.packing .f32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S1x128.size a ≤ S1x128.size a
  hwx2_2 : ∀ i : grid2.Coords, EltTy.bits .f32 = 32 ∨ (Rect.block (s := S1x128) S1x128.size (cc2_transform_2 i) (hinb2_2 i)).WholeWords (EltTy.packing .f32)
  hstage2_3 : ∀ j, (stage2_3 j).IsWhole
  nbuf2_3 : grid2.bufCount reads2_3 false = 2
  hreads2_3 : ∀ i i' : grid2.Coords, (∀ a, reads2_3 a = true → i a = i' a) → cc2_transform_3 i = cc2_transform_3 i'
  hinb2_3 : ∀ (i : grid2.Coords) a, (cc2_transform_3 i a + 1) * S5000x128.size a ≤ S50000x128.size a
  hwx2_3 : ∀ i : grid2.Coords, EltTy.bits .f32 = 32 ∨ (Rect.block (s := S50000x128) S5000x128.size (cc2_transform_3 i) (hinb2_3 i)).WholeWords (EltTy.packing .f32)
  hstage2_4 : ∀ j, (stage2_4 j).IsWhole
  nbuf2_4 : grid2.bufCount reads2_4 true = 1
  hreads2_4 : ∀ i i' : grid2.Coords, (∀ a, reads2_4 a = true → i a = i' a) → cc2_transform_4 i = cc2_transform_4 i'
  hinb2_4 : ∀ (i : grid2.Coords) a, (cc2_transform_4 i a + 1) * S1x128.size a ≤ S1x128.size a
  hwx2_4 : ∀ i : grid2.Coords, EltTy.bits .f32 = 32 ∨ (Rect.block (s := S1x128) S1x128.size (cc2_transform_4 i) (hinb2_4 i)).WholeWords (EltTy.packing .f32)
  hstage2_5 : ∀ j, (stage2_5 j).IsWhole
  nbuf2_5 : grid2.bufCount reads2_5 false = 2
  hreads2_5 : ∀ i i' : grid2.Coords, (∀ a, reads2_5 a = true → i a = i' a) → cc2_transform_5 i = cc2_transform_5 i'
  hinb2_5 : ∀ (i : grid2.Coords) a, (cc2_transform_5 i a + 1) * S5000x1.size a ≤ S50000x1.size a
  hwx2_5 : ∀ i : grid2.Coords, EltTy.bits .f32 = 32 ∨ (Rect.block (s := S50000x1) S5000x1.size (cc2_transform_5 i) (hinb2_5 i)).WholeWords (EltTy.packing .f32)
  hstage2_6 : ∀ j, (stage2_6 j).IsWhole
  nbuf2_6 : grid2.bufCount reads2_6 false = 2
  hreads2_6 : ∀ i i' : grid2.Coords, (∀ a, reads2_6 a = true → i a = i' a) → cc2_transform_6 i = cc2_transform_6 i'
  hinb2_6 : ∀ (i : grid2.Coords) a, (cc2_transform_6 i a + 1) * S5000x128.size a ≤ S50000x128.size a
  hwx2_6 : ∀ i : grid2.Coords, EltTy.bits .f32 = 32 ∨ (Rect.block (s := S50000x128) S5000x128.size (cc2_transform_6 i) (hinb2_6 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S5000x128.size a ≤ S50000x128.size a
  hwx3_0 : ∀ i : grid3.Coords, EltTy.bits .f32 = 32 ∨ (Rect.block (s := S50000x128) S5000x128.size (cc3_transform_0 i) (hinb3_0 i)).WholeWords (EltTy.packing .f32)
  hstage3_1 : ∀ j, (stage3_1 j).IsWhole
  nbuf3_1 : grid3.bufCount reads3_1 true = 1
  hreads3_1 : ∀ i i' : grid3.Coords, (∀ a, reads3_1 a = true → i a = i' a) → cc3_transform_1 i = cc3_transform_1 i'
  hinb3_1 : ∀ (i : grid3.Coords) a, (cc3_transform_1 i a + 1) * S128x128.size a ≤ S128x128.size a
  hwx3_1 : ∀ i : grid3.Coords, EltTy.bits .f32 = 32 ∨ (Rect.block (s := S128x128) S128x128.size (cc3_transform_1 i) (hinb3_1 i)).WholeWords (EltTy.packing .f32)
  hstage3_2 : ∀ j, (stage3_2 j).IsWhole
  nbuf3_2 : grid3.bufCount reads3_2 false = 2
  hreads3_2 : ∀ i i' : grid3.Coords, (∀ a, reads3_2 a = true → i a = i' a) → cc3_transform_2 i = cc3_transform_2 i'
  hinb3_2 : ∀ (i : grid3.Coords) a, (cc3_transform_2 i a + 1) * S5000x1.size a ≤ S50000x1.size a
  hwx3_2 : ∀ i : grid3.Coords, EltTy.bits .f32 = 32 ∨ (Rect.block (s := S50000x1) S5000x1.size (cc3_transform_2 i) (hinb3_2 i)).WholeWords (EltTy.packing .f32)
  hstage3_3 : ∀ j, (stage3_3 j).IsWhole
  nbuf3_3 : grid3.bufCount reads3_3 false = 2
  hreads3_3 : ∀ i i' : grid3.Coords, (∀ a, reads3_3 a = true → i a = i' a) → cc3_transform_3 i = cc3_transform_3 i'
  hinb3_3 : ∀ (i : grid3.Coords) a, (cc3_transform_3 i a + 1) * S5000x128.size a ≤ S50000x128.size a
  hwx3_3 : ∀ i : grid3.Coords, EltTy.bits .f32 = 32 ∨ (Rect.block (s := S50000x128) S5000x128.size (cc3_transform_3 i) (hinb3_3 i)).WholeWords (EltTy.packing .f32)
  hrank4 : 0 < grid4.rank
  hstage4_0 : ∀ j, (stage4_0 j).IsWhole
  nbuf4_0 : grid4.bufCount reads4_0 false = 2
  hreads4_0 : ∀ i i' : grid4.Coords, (∀ a, reads4_0 a = true → i a = i' a) → cc4_transform_0 i = cc4_transform_0 i'
  hinb4_0 : ∀ (i : grid4.Coords) a, (cc4_transform_0 i a + 1) * S5000x128.size a ≤ S50000x128.size a
  hwx4_0 : ∀ i : grid4.Coords, EltTy.bits .f32 = 32 ∨ (Rect.block (s := S50000x128) S5000x128.size (cc4_transform_0 i) (hinb4_0 i)).WholeWords (EltTy.packing .f32)
  hstage4_1 : ∀ j, (stage4_1 j).IsWhole
  nbuf4_1 : grid4.bufCount reads4_1 true = 1
  hreads4_1 : ∀ i i' : grid4.Coords, (∀ a, reads4_1 a = true → i a = i' a) → cc4_transform_1 i = cc4_transform_1 i'
  hinb4_1 : ∀ (i : grid4.Coords) a, (cc4_transform_1 i a + 1) * S128x128.size a ≤ S128x128.size a
  hwx4_1 : ∀ i : grid4.Coords, EltTy.bits .f32 = 32 ∨ (Rect.block (s := S128x128) S128x128.size (cc4_transform_1 i) (hinb4_1 i)).WholeWords (EltTy.packing .f32)
  hstage4_2 : ∀ j, (stage4_2 j).IsWhole
  nbuf4_2 : grid4.bufCount reads4_2 true = 1
  hreads4_2 : ∀ i i' : grid4.Coords, (∀ a, reads4_2 a = true → i a = i' a) → cc4_transform_2 i = cc4_transform_2 i'
  hinb4_2 : ∀ (i : grid4.Coords) a, (cc4_transform_2 i a + 1) * S1x128.size a ≤ S1x128.size a
  hwx4_2 : ∀ i : grid4.Coords, EltTy.bits .f32 = 32 ∨ (Rect.block (s := S1x128) S1x128.size (cc4_transform_2 i) (hinb4_2 i)).WholeWords (EltTy.packing .f32)
  hstage4_3 : ∀ j, (stage4_3 j).IsWhole
  nbuf4_3 : grid4.bufCount reads4_3 false = 2
  hreads4_3 : ∀ i i' : grid4.Coords, (∀ a, reads4_3 a = true → i a = i' a) → cc4_transform_3 i = cc4_transform_3 i'
  hinb4_3 : ∀ (i : grid4.Coords) a, (cc4_transform_3 i a + 1) * S5000x128.size a ≤ S50000x128.size a
  hwx4_3 : ∀ i : grid4.Coords, EltTy.bits .f32 = 32 ∨ (Rect.block (s := S50000x128) S5000x128.size (cc4_transform_3 i) (hinb4_3 i)).WholeWords (EltTy.packing .f32)
  hstage4_4 : ∀ j, (stage4_4 j).IsWhole
  nbuf4_4 : grid4.bufCount reads4_4 true = 1
  hreads4_4 : ∀ i i' : grid4.Coords, (∀ a, reads4_4 a = true → i a = i' a) → cc4_transform_4 i = cc4_transform_4 i'
  hinb4_4 : ∀ (i : grid4.Coords) a, (cc4_transform_4 i a + 1) * S1x128.size a ≤ S1x128.size a
  hwx4_4 : ∀ i : grid4.Coords, EltTy.bits .f32 = 32 ∨ (Rect.block (s := S1x128) S1x128.size (cc4_transform_4 i) (hinb4_4 i)).WholeWords (EltTy.packing .f32)
  hstage4_5 : ∀ j, (stage4_5 j).IsWhole
  nbuf4_5 : grid4.bufCount reads4_5 false = 2
  hreads4_5 : ∀ i i' : grid4.Coords, (∀ a, reads4_5 a = true → i a = i' a) → cc4_transform_5 i = cc4_transform_5 i'
  hinb4_5 : ∀ (i : grid4.Coords) a, (cc4_transform_5 i a + 1) * S5000x1.size a ≤ S50000x1.size a
  hwx4_5 : ∀ i : grid4.Coords, EltTy.bits .f32 = 32 ∨ (Rect.block (s := S50000x1) S5000x1.size (cc4_transform_5 i) (hinb4_5 i)).WholeWords (EltTy.packing .f32)
  hstage4_6 : ∀ j, (stage4_6 j).IsWhole
  nbuf4_6 : grid4.bufCount reads4_6 false = 2
  hreads4_6 : ∀ i i' : grid4.Coords, (∀ a, reads4_6 a = true → i a = i' a) → cc4_transform_6 i = cc4_transform_6 i'
  hinb4_6 : ∀ (i : grid4.Coords) a, (cc4_transform_6 i a + 1) * S5000x128.size a ≤ S50000x128.size a
  hwx4_6 : ∀ i : grid4.Coords, EltTy.bits .f32 = 32 ∨ (Rect.block (s := S50000x128) S5000x128.size (cc4_transform_6 i) (hinb4_6 i)).WholeWords (EltTy.packing .f32)
  hrank5 : 0 < grid5.rank
  hstage5_0 : ∀ j, (stage5_0 j).IsWhole
  nbuf5_0 : grid5.bufCount reads5_0 false = 2
  hreads5_0 : ∀ i i' : grid5.Coords, (∀ a, reads5_0 a = true → i a = i' a) → cc5_transform_0 i = cc5_transform_0 i'
  hinb5_0 : ∀ (i : grid5.Coords) a, (cc5_transform_0 i a + 1) * S5000x128.size a ≤ S50000x128.size a
  hwx5_0 : ∀ i : grid5.Coords, EltTy.bits .f32 = 32 ∨ (Rect.block (s := S50000x128) S5000x128.size (cc5_transform_0 i) (hinb5_0 i)).WholeWords (EltTy.packing .f32)
  hstage5_1 : ∀ j, (stage5_1 j).IsWhole
  nbuf5_1 : grid5.bufCount reads5_1 true = 1
  hreads5_1 : ∀ i i' : grid5.Coords, (∀ a, reads5_1 a = true → i a = i' a) → cc5_transform_1 i = cc5_transform_1 i'
  hinb5_1 : ∀ (i : grid5.Coords) a, (cc5_transform_1 i a + 1) * S128x128.size a ≤ S128x128.size a
  hwx5_1 : ∀ i : grid5.Coords, EltTy.bits .f32 = 32 ∨ (Rect.block (s := S128x128) S128x128.size (cc5_transform_1 i) (hinb5_1 i)).WholeWords (EltTy.packing .f32)
  hstage5_2 : ∀ j, (stage5_2 j).IsWhole
  nbuf5_2 : grid5.bufCount reads5_2 false = 2
  hreads5_2 : ∀ i i' : grid5.Coords, (∀ a, reads5_2 a = true → i a = i' a) → cc5_transform_2 i = cc5_transform_2 i'
  hinb5_2 : ∀ (i : grid5.Coords) a, (cc5_transform_2 i a + 1) * S5000x1.size a ≤ S50000x1.size a
  hwx5_2 : ∀ i : grid5.Coords, EltTy.bits .f32 = 32 ∨ (Rect.block (s := S50000x1) S5000x1.size (cc5_transform_2 i) (hinb5_2 i)).WholeWords (EltTy.packing .f32)
  hstage5_3 : ∀ j, (stage5_3 j).IsWhole
  nbuf5_3 : grid5.bufCount reads5_3 false = 2
  hreads5_3 : ∀ i i' : grid5.Coords, (∀ a, reads5_3 a = true → i a = i' a) → cc5_transform_3 i = cc5_transform_3 i'
  hinb5_3 : ∀ (i : grid5.Coords) a, (cc5_transform_3 i a + 1) * S5000x128.size a ≤ S50000x128.size a
  hwx5_3 : ∀ i : grid5.Coords, EltTy.bits .f32 = 32 ∨ (Rect.block (s := S50000x128) S5000x128.size (cc5_transform_3 i) (hinb5_3 i)).WholeWords (EltTy.packing .f32)
  hrank6 : 0 < grid6.rank
  hstage6_0 : ∀ j, (stage6_0 j).IsWhole
  nbuf6_0 : grid6.bufCount reads6_0 false = 2
  hreads6_0 : ∀ i i' : grid6.Coords, (∀ a, reads6_0 a = true → i a = i' a) → cc6_transform_0 i = cc6_transform_0 i'
  hinb6_0 : ∀ (i : grid6.Coords) a, (cc6_transform_0 i a + 1) * S5000x128.size a ≤ S50000x128.size a
  hwx6_0 : ∀ i : grid6.Coords, EltTy.bits .f32 = 32 ∨ (Rect.block (s := S50000x128) S5000x128.size (cc6_transform_0 i) (hinb6_0 i)).WholeWords (EltTy.packing .f32)
  hstage6_1 : ∀ j, (stage6_1 j).IsWhole
  nbuf6_1 : grid6.bufCount reads6_1 true = 1
  hreads6_1 : ∀ i i' : grid6.Coords, (∀ a, reads6_1 a = true → i a = i' a) → cc6_transform_1 i = cc6_transform_1 i'
  hinb6_1 : ∀ (i : grid6.Coords) a, (cc6_transform_1 i a + 1) * S128x128.size a ≤ S128x128.size a
  hwx6_1 : ∀ i : grid6.Coords, EltTy.bits .f32 = 32 ∨ (Rect.block (s := S128x128) S128x128.size (cc6_transform_1 i) (hinb6_1 i)).WholeWords (EltTy.packing .f32)
  hstage6_2 : ∀ j, (stage6_2 j).IsWhole
  nbuf6_2 : grid6.bufCount reads6_2 true = 1
  hreads6_2 : ∀ i i' : grid6.Coords, (∀ a, reads6_2 a = true → i a = i' a) → cc6_transform_2 i = cc6_transform_2 i'
  hinb6_2 : ∀ (i : grid6.Coords) a, (cc6_transform_2 i a + 1) * S1x128.size a ≤ S1x128.size a
  hwx6_2 : ∀ i : grid6.Coords, EltTy.bits .f32 = 32 ∨ (Rect.block (s := S1x128) S1x128.size (cc6_transform_2 i) (hinb6_2 i)).WholeWords (EltTy.packing .f32)
  hstage6_3 : ∀ j, (stage6_3 j).IsWhole
  nbuf6_3 : grid6.bufCount reads6_3 false = 2
  hreads6_3 : ∀ i i' : grid6.Coords, (∀ a, reads6_3 a = true → i a = i' a) → cc6_transform_3 i = cc6_transform_3 i'
  hinb6_3 : ∀ (i : grid6.Coords) a, (cc6_transform_3 i a + 1) * S5000x128.size a ≤ S50000x128.size a
  hwx6_3 : ∀ i : grid6.Coords, EltTy.bits .f32 = 32 ∨ (Rect.block (s := S50000x128) S5000x128.size (cc6_transform_3 i) (hinb6_3 i)).WholeWords (EltTy.packing .f32)
  hstage6_4 : ∀ j, (stage6_4 j).IsWhole
  nbuf6_4 : grid6.bufCount reads6_4 true = 1
  hreads6_4 : ∀ i i' : grid6.Coords, (∀ a, reads6_4 a = true → i a = i' a) → cc6_transform_4 i = cc6_transform_4 i'
  hinb6_4 : ∀ (i : grid6.Coords) a, (cc6_transform_4 i a + 1) * S1x128.size a ≤ S1x128.size a
  hwx6_4 : ∀ i : grid6.Coords, EltTy.bits .f32 = 32 ∨ (Rect.block (s := S1x128) S1x128.size (cc6_transform_4 i) (hinb6_4 i)).WholeWords (EltTy.packing .f32)
  hstage6_5 : ∀ j, (stage6_5 j).IsWhole
  nbuf6_5 : grid6.bufCount reads6_5 false = 2
  hreads6_5 : ∀ i i' : grid6.Coords, (∀ a, reads6_5 a = true → i a = i' a) → cc6_transform_5 i = cc6_transform_5 i'
  hinb6_5 : ∀ (i : grid6.Coords) a, (cc6_transform_5 i a + 1) * S5000x1.size a ≤ S50000x1.size a
  hwx6_5 : ∀ i : grid6.Coords, EltTy.bits .f32 = 32 ∨ (Rect.block (s := S50000x1) S5000x1.size (cc6_transform_5 i) (hinb6_5 i)).WholeWords (EltTy.packing .f32)
  hstage6_6 : ∀ j, (stage6_6 j).IsWhole
  nbuf6_6 : grid6.bufCount reads6_6 false = 2
  hreads6_6 : ∀ i i' : grid6.Coords, (∀ a, reads6_6 a = true → i a = i' a) → cc6_transform_6 i = cc6_transform_6 i'
  hinb6_6 : ∀ (i : grid6.Coords) a, (cc6_transform_6 i a + 1) * S5000x128.size a ≤ S50000x128.size a
  hwx6_6 : ∀ i : grid6.Coords, EltTy.bits .f32 = 32 ∨ (Rect.block (s := S50000x128) S5000x128.size (cc6_transform_6 i) (hinb6_6 i)).WholeWords (EltTy.packing .f32)
  hrank7 : 0 < grid7.rank
  hstage7_0 : ∀ j, (stage7_0 j).IsWhole
  nbuf7_0 : grid7.bufCount reads7_0 false = 2
  hreads7_0 : ∀ i i' : grid7.Coords, (∀ a, reads7_0 a = true → i a = i' a) → cc7_transform_0 i = cc7_transform_0 i'
  hinb7_0 : ∀ (i : grid7.Coords) a, (cc7_transform_0 i a + 1) * S5000x128.size a ≤ S50000x128.size a
  hwx7_0 : ∀ i : grid7.Coords, EltTy.bits .f32 = 32 ∨ (Rect.block (s := S50000x128) S5000x128.size (cc7_transform_0 i) (hinb7_0 i)).WholeWords (EltTy.packing .f32)
  hstage7_1 : ∀ j, (stage7_1 j).IsWhole
  nbuf7_1 : grid7.bufCount reads7_1 true = 1
  hreads7_1 : ∀ i i' : grid7.Coords, (∀ a, reads7_1 a = true → i a = i' a) → cc7_transform_1 i = cc7_transform_1 i'
  hinb7_1 : ∀ (i : grid7.Coords) a, (cc7_transform_1 i a + 1) * S128x1.size a ≤ S128x1.size a
  hwx7_1 : ∀ i : grid7.Coords, EltTy.bits .f32 = 32 ∨ (Rect.block (s := S128x1) S128x1.size (cc7_transform_1 i) (hinb7_1 i)).WholeWords (EltTy.packing .f32)
  hstage7_2 : ∀ j, (stage7_2 j).IsWhole
  nbuf7_2 : grid7.bufCount reads7_2 true = 1
  hreads7_2 : ∀ i i' : grid7.Coords, (∀ a, reads7_2 a = true → i a = i' a) → cc7_transform_2 i = cc7_transform_2 i'
  hinb7_2 : ∀ (i : grid7.Coords) a, (cc7_transform_2 i a + 1) * S1x1.size a ≤ S1x1.size a
  hwx7_2 : ∀ i : grid7.Coords, EltTy.bits .f32 = 32 ∨ (Rect.block (s := S1x1) S1x1.size (cc7_transform_2 i) (hinb7_2 i)).WholeWords (EltTy.packing .f32)
  hstage7_3 : ∀ j, (stage7_3 j).IsWhole
  nbuf7_3 : grid7.bufCount reads7_3 false = 2
  hreads7_3 : ∀ i i' : grid7.Coords, (∀ a, reads7_3 a = true → i a = i' a) → cc7_transform_3 i = cc7_transform_3 i'
  hinb7_3 : ∀ (i : grid7.Coords) a, (cc7_transform_3 i a + 1) * S5000x1.size a ≤ S50000x1.size a
  hwx7_3 : ∀ i : grid7.Coords, EltTy.bits .f32 = 32 ∨ (Rect.block (s := S50000x1) S5000x1.size (cc7_transform_3 i) (hinb7_3 i)).WholeWords (EltTy.packing .f32)

variable [Facts₀]

def scatter_S50000_S1650000x1_S1650000_n_0_0_1 : ScatterDims S50000 S1650000x1 S1650000 where
  updateWindowDims := []
  insertedWindowDims := [0]
  scatterDimsToOperandDims := [0]
  indexVectorDim := 1
  wf := scatter_S50000_S1650000x1_S1650000_n_0_0_1_wf
def dot_S5000x128_S128x128_S5000x128_1_0_0_1_n_n : DotDims S5000x128 S128x128 S5000x128 where
  lhsContracting := [1]
  rhsContracting := [0]
  lhsNonContracting := [0]
  rhsNonContracting := [1]
  lhsBatch := []
  rhsBatch := []
  wf := dot_S5000x128_S128x128_S5000x128_1_0_0_1_n_n_wf
def gather_S50000x128_S1650000x1_S1650000x128_1_0_n_n_0_1_1128 : GatherDims S50000x128 S1650000x1 S1650000x128 where
  offsetDims := [1]
  collapsedSliceDims := [0]
  operandBatchingDims := []
  startIndicesBatchingDims := []
  startIndexMap := [0]
  indexVectorDim := 1
  sliceSizes := ![1, 128]
  wf := gather_S50000x128_S1650000x1_S1650000x128_1_0_n_n_0_1_1128_wf
def scatter_S50000x128_S1650000x1_S1650000x128_1_0_0_1 : ScatterDims S50000x128 S1650000x1 S1650000x128 where
  updateWindowDims := [1]
  insertedWindowDims := [0]
  scatterDimsToOperandDims := [0]
  indexVectorDim := 1
  wf := scatter_S50000x128_S1650000x1_S1650000x128_1_0_0_1_wf
def dot_S5000x128_S128x1_S5000x1_1_0_0_1_n_n : DotDims S5000x128 S128x1 S5000x1 where
  lhsContracting := [1]
  rhsContracting := [0]
  lhsNonContracting := [0]
  rhsNonContracting := [1]
  lhsBatch := []
  rhsBatch := []
  wf := dot_S5000x128_S128x1_S5000x1_1_0_0_1_n_n_wf

abbrev win0_0 : Pipeline.Window sig grid0 :=
  Pipeline.Window.ofSpec (Memref.whole main_arg0) S5000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg2) S128x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v17) S1x128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v18) S5000x128.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev win1_0 : Pipeline.Window sig grid1 :=
  Pipeline.Window.ofSpec (Memref.whole main_v18) S5000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v20) S128x128.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v16) S5000x1.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_v21) S5000x128.size cc1_transform_3 reads1_3 true false 2 stage1_3 sem1_3
    hrank1 hreads1_3 hinb1_3 nbuf1_3 (Memref.isWhole_whole _) hwx1_3 hstage1_3

abbrev win1 : Fin 4 → Pipeline.Window sig grid1 := fun | 0 => win1_0 | 1 => win1_1 | 2 => win1_2 | 3 => win1_3 | ⟨_ + 4, h⟩ => absurd h (Nat.not_lt.2 (Nat.le_add_left _ _))
abbrev spec1 : Fin 4 → Pipeline.WinSpec sig grid1.rank := fun w => (win1 w).toWinSpec

abbrev win2_0 : Pipeline.Window sig grid2 :=
  Pipeline.Window.ofSpec (Memref.whole main_v18) S5000x128.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v33) S128x128.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v38) S1x128.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_v31) S5000x128.size cc2_transform_3 reads2_3 false false 2 stage2_3 sem2_3
    hrank2 hreads2_3 hinb2_3 nbuf2_3 (Memref.isWhole_whole _) hwx2_3 hstage2_3

abbrev win2_4 : Pipeline.Window sig grid2 :=
  Pipeline.Window.ofSpec (Memref.whole main_v39) S1x128.size cc2_transform_4 reads2_4 false true 1 stage2_4 sem2_4
    hrank2 hreads2_4 hinb2_4 nbuf2_4 (Memref.isWhole_whole _) hwx2_4 hstage2_4

abbrev win2_5 : Pipeline.Window sig grid2 :=
  Pipeline.Window.ofSpec (Memref.whole main_v16) S5000x1.size cc2_transform_5 reads2_5 false false 2 stage2_5 sem2_5
    hrank2 hreads2_5 hinb2_5 nbuf2_5 (Memref.isWhole_whole _) hwx2_5 hstage2_5

abbrev win2_6 : Pipeline.Window sig grid2 :=
  Pipeline.Window.ofSpec (Memref.whole main_v40) S5000x128.size cc2_transform_6 reads2_6 true false 2 stage2_6 sem2_6
    hrank2 hreads2_6 hinb2_6 nbuf2_6 (Memref.isWhole_whole _) hwx2_6 hstage2_6

abbrev win2 : Fin 7 → Pipeline.Window sig grid2 := fun | 0 => win2_0 | 1 => win2_1 | 2 => win2_2 | 3 => win2_3 | 4 => win2_4 | 5 => win2_5 | 6 => win2_6 | ⟨_ + 7, h⟩ => absurd h (Nat.not_lt.2 (Nat.le_add_left _ _))
abbrev spec2 : Fin 7 → Pipeline.WinSpec sig grid2.rank := fun w => (win2 w).toWinSpec

abbrev win3_0 : Pipeline.Window sig grid3 :=
  Pipeline.Window.ofSpec (Memref.whole main_v40) S5000x128.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v42) S128x128.size cc3_transform_1 reads3_1 false true 1 stage3_1 sem3_1
    hrank3 hreads3_1 hinb3_1 nbuf3_1 (Memref.isWhole_whole _) hwx3_1 hstage3_1

abbrev win3_2 : Pipeline.Window sig grid3 :=
  Pipeline.Window.ofSpec (Memref.whole main_v16) S5000x1.size cc3_transform_2 reads3_2 false false 2 stage3_2 sem3_2
    hrank3 hreads3_2 hinb3_2 nbuf3_2 (Memref.isWhole_whole _) hwx3_2 hstage3_2

abbrev win3_3 : Pipeline.Window sig grid3 :=
  Pipeline.Window.ofSpec (Memref.whole main_v43) S5000x128.size cc3_transform_3 reads3_3 true false 2 stage3_3 sem3_3
    hrank3 hreads3_3 hinb3_3 nbuf3_3 (Memref.isWhole_whole _) hwx3_3 hstage3_3

abbrev win3 : Fin 4 → Pipeline.Window sig grid3 := fun | 0 => win3_0 | 1 => win3_1 | 2 => win3_2 | 3 => win3_3 | ⟨_ + 4, h⟩ => absurd h (Nat.not_lt.2 (Nat.le_add_left _ _))
abbrev spec3 : Fin 4 → Pipeline.WinSpec sig grid3.rank := fun w => (win3 w).toWinSpec

abbrev win4_0 : Pipeline.Window sig grid4 :=
  Pipeline.Window.ofSpec (Memref.whole main_v40) S5000x128.size cc4_transform_0 reads4_0 false false 2 stage4_0 sem4_0
    hrank4 hreads4_0 hinb4_0 nbuf4_0 (Memref.isWhole_whole _) hwx4_0 hstage4_0

abbrev win4_1 : Pipeline.Window sig grid4 :=
  Pipeline.Window.ofSpec (Memref.whole main_v55) S128x128.size cc4_transform_1 reads4_1 false true 1 stage4_1 sem4_1
    hrank4 hreads4_1 hinb4_1 nbuf4_1 (Memref.isWhole_whole _) hwx4_1 hstage4_1

abbrev win4_2 : Pipeline.Window sig grid4 :=
  Pipeline.Window.ofSpec (Memref.whole main_v60) S1x128.size cc4_transform_2 reads4_2 false true 1 stage4_2 sem4_2
    hrank4 hreads4_2 hinb4_2 nbuf4_2 (Memref.isWhole_whole _) hwx4_2 hstage4_2

abbrev win4_3 : Pipeline.Window sig grid4 :=
  Pipeline.Window.ofSpec (Memref.whole main_v53) S5000x128.size cc4_transform_3 reads4_3 false false 2 stage4_3 sem4_3
    hrank4 hreads4_3 hinb4_3 nbuf4_3 (Memref.isWhole_whole _) hwx4_3 hstage4_3

abbrev win4_4 : Pipeline.Window sig grid4 :=
  Pipeline.Window.ofSpec (Memref.whole main_v61) S1x128.size cc4_transform_4 reads4_4 false true 1 stage4_4 sem4_4
    hrank4 hreads4_4 hinb4_4 nbuf4_4 (Memref.isWhole_whole _) hwx4_4 hstage4_4

abbrev win4_5 : Pipeline.Window sig grid4 :=
  Pipeline.Window.ofSpec (Memref.whole main_v16) S5000x1.size cc4_transform_5 reads4_5 false false 2 stage4_5 sem4_5
    hrank4 hreads4_5 hinb4_5 nbuf4_5 (Memref.isWhole_whole _) hwx4_5 hstage4_5

abbrev win4_6 : Pipeline.Window sig grid4 :=
  Pipeline.Window.ofSpec (Memref.whole main_v62) S5000x128.size cc4_transform_6 reads4_6 true false 2 stage4_6 sem4_6
    hrank4 hreads4_6 hinb4_6 nbuf4_6 (Memref.isWhole_whole _) hwx4_6 hstage4_6

abbrev win4 : Fin 7 → Pipeline.Window sig grid4 := fun | 0 => win4_0 | 1 => win4_1 | 2 => win4_2 | 3 => win4_3 | 4 => win4_4 | 5 => win4_5 | 6 => win4_6 | ⟨_ + 7, h⟩ => absurd h (Nat.not_lt.2 (Nat.le_add_left _ _))
abbrev spec4 : Fin 7 → Pipeline.WinSpec sig grid4.rank := fun w => (win4 w).toWinSpec

abbrev win5_0 : Pipeline.Window sig grid5 :=
  Pipeline.Window.ofSpec (Memref.whole main_v62) S5000x128.size cc5_transform_0 reads5_0 false false 2 stage5_0 sem5_0
    hrank5 hreads5_0 hinb5_0 nbuf5_0 (Memref.isWhole_whole _) hwx5_0 hstage5_0

abbrev win5_1 : Pipeline.Window sig grid5 :=
  Pipeline.Window.ofSpec (Memref.whole main_v64) S128x128.size cc5_transform_1 reads5_1 false true 1 stage5_1 sem5_1
    hrank5 hreads5_1 hinb5_1 nbuf5_1 (Memref.isWhole_whole _) hwx5_1 hstage5_1

abbrev win5_2 : Pipeline.Window sig grid5 :=
  Pipeline.Window.ofSpec (Memref.whole main_v16) S5000x1.size cc5_transform_2 reads5_2 false false 2 stage5_2 sem5_2
    hrank5 hreads5_2 hinb5_2 nbuf5_2 (Memref.isWhole_whole _) hwx5_2 hstage5_2

abbrev win5_3 : Pipeline.Window sig grid5 :=
  Pipeline.Window.ofSpec (Memref.whole main_v65) S5000x128.size cc5_transform_3 reads5_3 true false 2 stage5_3 sem5_3
    hrank5 hreads5_3 hinb5_3 nbuf5_3 (Memref.isWhole_whole _) hwx5_3 hstage5_3

abbrev win5 : Fin 4 → Pipeline.Window sig grid5 := fun | 0 => win5_0 | 1 => win5_1 | 2 => win5_2 | 3 => win5_3 | ⟨_ + 4, h⟩ => absurd h (Nat.not_lt.2 (Nat.le_add_left _ _))
abbrev spec5 : Fin 4 → Pipeline.WinSpec sig grid5.rank := fun w => (win5 w).toWinSpec

abbrev win6_0 : Pipeline.Window sig grid6 :=
  Pipeline.Window.ofSpec (Memref.whole main_v62) S5000x128.size cc6_transform_0 reads6_0 false false 2 stage6_0 sem6_0
    hrank6 hreads6_0 hinb6_0 nbuf6_0 (Memref.isWhole_whole _) hwx6_0 hstage6_0

abbrev win6_1 : Pipeline.Window sig grid6 :=
  Pipeline.Window.ofSpec (Memref.whole main_v77) S128x128.size cc6_transform_1 reads6_1 false true 1 stage6_1 sem6_1
    hrank6 hreads6_1 hinb6_1 nbuf6_1 (Memref.isWhole_whole _) hwx6_1 hstage6_1

abbrev win6_2 : Pipeline.Window sig grid6 :=
  Pipeline.Window.ofSpec (Memref.whole main_v82) S1x128.size cc6_transform_2 reads6_2 false true 1 stage6_2 sem6_2
    hrank6 hreads6_2 hinb6_2 nbuf6_2 (Memref.isWhole_whole _) hwx6_2 hstage6_2

abbrev win6_3 : Pipeline.Window sig grid6 :=
  Pipeline.Window.ofSpec (Memref.whole main_v75) S5000x128.size cc6_transform_3 reads6_3 false false 2 stage6_3 sem6_3
    hrank6 hreads6_3 hinb6_3 nbuf6_3 (Memref.isWhole_whole _) hwx6_3 hstage6_3

abbrev win6_4 : Pipeline.Window sig grid6 :=
  Pipeline.Window.ofSpec (Memref.whole main_v83) S1x128.size cc6_transform_4 reads6_4 false true 1 stage6_4 sem6_4
    hrank6 hreads6_4 hinb6_4 nbuf6_4 (Memref.isWhole_whole _) hwx6_4 hstage6_4

abbrev win6_5 : Pipeline.Window sig grid6 :=
  Pipeline.Window.ofSpec (Memref.whole main_v16) S5000x1.size cc6_transform_5 reads6_5 false false 2 stage6_5 sem6_5
    hrank6 hreads6_5 hinb6_5 nbuf6_5 (Memref.isWhole_whole _) hwx6_5 hstage6_5

abbrev win6_6 : Pipeline.Window sig grid6 :=
  Pipeline.Window.ofSpec (Memref.whole main_v84) S5000x128.size cc6_transform_6 reads6_6 true false 2 stage6_6 sem6_6
    hrank6 hreads6_6 hinb6_6 nbuf6_6 (Memref.isWhole_whole _) hwx6_6 hstage6_6

abbrev win6 : Fin 7 → Pipeline.Window sig grid6 := fun | 0 => win6_0 | 1 => win6_1 | 2 => win6_2 | 3 => win6_3 | 4 => win6_4 | 5 => win6_5 | 6 => win6_6 | ⟨_ + 7, h⟩ => absurd h (Nat.not_lt.2 (Nat.le_add_left _ _))
abbrev spec6 : Fin 7 → Pipeline.WinSpec sig grid6.rank := fun w => (win6 w).toWinSpec

abbrev win7_0 : Pipeline.Window sig grid7 :=
  Pipeline.Window.ofSpec (Memref.whole main_v84) S5000x128.size cc7_transform_0 reads7_0 false false 2 stage7_0 sem7_0
    hrank7 hreads7_0 hinb7_0 nbuf7_0 (Memref.isWhole_whole _) hwx7_0 hstage7_0

abbrev win7_1 : Pipeline.Window sig grid7 :=
  Pipeline.Window.ofSpec (Memref.whole main_arg8) S128x1.size cc7_transform_1 reads7_1 false true 1 stage7_1 sem7_1
    hrank7 hreads7_1 hinb7_1 nbuf7_1 (Memref.isWhole_whole _) hwx7_1 hstage7_1

abbrev win7_2 : Pipeline.Window sig grid7 :=
  Pipeline.Window.ofSpec (Memref.whole main_v85) S1x1.size cc7_transform_2 reads7_2 false true 1 stage7_2 sem7_2
    hrank7 hreads7_2 hinb7_2 nbuf7_2 (Memref.isWhole_whole _) hwx7_2 hstage7_2

abbrev win7_3 : Pipeline.Window sig grid7 :=
  Pipeline.Window.ofSpec (Memref.whole main_v86) S5000x1.size cc7_transform_3 reads7_3 true false 2 stage7_3 sem7_3
    hrank7 hreads7_3 hinb7_3 nbuf7_3 (Memref.isWhole_whole _) hwx7_3 hstage7_3

abbrev win7 : Fin 4 → Pipeline.Window sig grid7 := fun | 0 => win7_0 | 1 => win7_1 | 2 => win7_2 | 3 => win7_3 | ⟨_ + 4, h⟩ => absurd h (Nat.not_lt.2 (Nat.le_add_left _ _))
abbrev spec7 : Fin 4 → Pipeline.WinSpec sig grid7.rank := fun w => (win7 w).toWinSpec

class Facts : Prop extends Facts₀ where

variable [Facts]
-- ==== ReferenceIdeal.lean ====
abbrev S50000x128 : Shape := ⟨2, ![50000, 128]⟩
abbrev S2x1600000 : Shape := ⟨2, ![2, 1600000]⟩
abbrev S128x128 : Shape := ⟨2, ![128, 128]⟩
abbrev S128 : Shape := ⟨1, ![128]⟩
abbrev S3x128x128 : Shape := ⟨3, ![3, 128, 128]⟩
abbrev S3x128 : Shape := ⟨2, ![3, 128]⟩
abbrev S128x1 : Shape := ⟨2, ![128, 1]⟩
abbrev S1 : Shape := ⟨1, ![1]⟩
abbrev S50000 : Shape := ⟨1, ![50000]⟩
abbrev S1x1600000 : Shape := ⟨2, ![1, 1600000]⟩
abbrev S1600000 : Shape := ⟨1, ![1600000]⟩
abbrev S1650000 : Shape := ⟨1, ![1650000]⟩
abbrev S_ : Shape := ⟨0, ![]⟩
abbrev S1650000x1 : Shape := ⟨2, ![1650000, 1]⟩
abbrev S1x128 : Shape := ⟨2, ![1, 128]⟩
abbrev S1x128x128 : Shape := ⟨3, ![1, 128, 128]⟩
abbrev S1650000x128 : Shape := ⟨2, ![1650000, 128]⟩
abbrev S50000x1 : Shape := ⟨2, ![50000, 1]⟩
abbrev S1x1 : Shape := ⟨2, ![1, 1]⟩

abbrev nBuf : Space → Nat
  | .hbm => 261
  | .vmem => 0
  | .smem => 0
  | _ => 0

abbrev hbmTy0_0 (i : Nat) : BufTy := match i % 128 with
  | 0 => ⟨S50000x128, .f32⟩
  | 1 => ⟨S2x1600000, .i32⟩
  | 2 => ⟨S128x128, .f32⟩
  | 3 => ⟨S128, .f32⟩
  | 4 => ⟨S3x128x128, .f32⟩
  | 5 => ⟨S3x128, .f32⟩
  | 6 => ⟨S3x128x128, .f32⟩
  | 7 => ⟨S3x128, .f32⟩
  | 8 => ⟨S128x1, .f32⟩
  | 9 => ⟨S1, .f32⟩
  | 10 => ⟨S50000, .i32⟩
  | 11 => ⟨S1x1600000, .i32⟩
  | 12 => ⟨S1600000, .i32⟩
  | 13 => ⟨S1650000, .i32⟩
  | 14 => ⟨S1x1600000, .i32⟩
  | 15 => ⟨S1600000, .i32⟩
  | 16 => ⟨S1650000, .i32⟩
  | 17 => ⟨S_, .f32⟩
  | 18 => ⟨S1650000, .f32⟩
  | 19 => ⟨S_, .f32⟩
  | 20 => ⟨S50000, .f32⟩
  | 21 => ⟨S1650000x1, .i32⟩
  | 22 => ⟨S50000, .f32⟩
  | 23 => ⟨S_, .f32⟩
  | 24 => ⟨S50000, .f32⟩
  | 25 => ⟨S50000, .i1⟩
  | 26 => ⟨S_, .f32⟩
  | 27 => ⟨S50000, .f32⟩
  | 28 => ⟨S50000, .f32⟩
  | 29 => ⟨S_, .f32⟩
  | 30 => ⟨S_, .f32⟩
  | 31 => ⟨S50000, .f32⟩
  | 32 => ⟨S50000, .f32⟩
  | 33 => ⟨S50000x128, .f32⟩
  | 34 => ⟨S1x128, .f32⟩
  | 35 => ⟨S50000x128, .f32⟩
  | 36 => ⟨S50000x128, .f32⟩
  | 37 => ⟨S_, .f32⟩
  | 38 => ⟨S50000x128, .f32⟩
  | 39 => ⟨S50000x128, .f32⟩
  | 40 => ⟨S50000x128, .f32⟩
  | 41 => ⟨S50000x128, .f32⟩
  | 42 => ⟨S50000x128, .i1⟩
  | 43 => ⟨S50000x128, .f32⟩
  | 44 => ⟨S50000x128, .f32⟩
  | 45 => ⟨S50000x128, .f32⟩
  | 46 => ⟨S50000x128, .f32⟩
  | 47 => ⟨S50000x128, .f32⟩
  | 48 => ⟨S50000x128, .f32⟩
  | 49 => ⟨S50000x128, .f32⟩
  | 50 => ⟨S50000x128, .f32⟩
  | 51 => ⟨S50000x128, .f32⟩
  | 52 => ⟨S50000x128, .f32⟩
  | 53 => ⟨S1x128x128, .f32⟩
  | 54 => ⟨S128x128, .f32⟩
  | 55 => ⟨S1x128, .f32⟩
  | 56 => ⟨S128, .f32⟩
  | 57 => ⟨S50000x128, .f32⟩
  | 58 => ⟨S_, .i32⟩
  | 59 => ⟨S1650000, .i32⟩
  | 60 => ⟨S1650000, .i1⟩
  | 61 => ⟨S_, .i32⟩
  | 62 => ⟨S1650000, .i32⟩
  | 63 => ⟨S1650000, .i32⟩
  | 64 => ⟨S1650000, .i32⟩
  | 65 => ⟨S1650000x1, .i32⟩
  | 66 => ⟨S1650000, .f32⟩
  | 67 => ⟨S_, .i32⟩
  | 68 => ⟨S1650000, .i32⟩
  | 69 => ⟨S1650000, .i1⟩
  | 70 => ⟨S_, .i32⟩
  | 71 => ⟨S1650000, .i32⟩
  | 72 => ⟨S1650000, .i32⟩
  | 73 => ⟨S1650000, .i32⟩
  | 74 => ⟨S1650000x1, .i32⟩
  | 75 => ⟨S1650000, .f32⟩
  | 76 => ⟨S1650000, .f32⟩
  | 77 => ⟨S_, .i32⟩
  | 78 => ⟨S1650000, .i32⟩
  | 79 => ⟨S1650000, .i1⟩
  | 80 => ⟨S_, .i32⟩
  | 81 => ⟨S1650000, .i32⟩
  | 82 => ⟨S1650000, .i32⟩
  | 83 => ⟨S1650000, .i32⟩
  | 84 => ⟨S1650000x1, .i32⟩
  | 85 => ⟨S1650000x128, .f32⟩
  | 86 => ⟨S1650000x1, .f32⟩
  | 87 => ⟨S1650000x128, .f32⟩
  | 88 => ⟨S1650000x128, .f32⟩
  | 89 => ⟨S_, .f32⟩
  | 90 => ⟨S50000x128, .f32⟩
  | 91 => ⟨S1650000x1, .i32⟩
  | 92 => ⟨S50000x128, .f32⟩
  | 93 => ⟨S1x128, .f32⟩
  | 94 => ⟨S50000x128, .f32⟩
  | 95 => ⟨S50000x128, .f32⟩
  | 96 => ⟨S1x128x128, .f32⟩
  | 97 => ⟨S128x128, .f32⟩
  | 98 => ⟨S50000x128, .f32⟩
  | 99 => ⟨S1x128, .f32⟩
  | 100 => ⟨S128, .f32⟩
  | 101 => ⟨S1x128, .f32⟩
  | 102 => ⟨S50000x128, .f32⟩
  | 103 => ⟨S50000x128, .f32⟩
  | 104 => ⟨S50000x128, .f32⟩
  | 105 => ⟨S_, .f32⟩
  | 106 => ⟨S50000x128, .f32⟩
  | 107 => ⟨S50000x128, .f32⟩
  | 108 => ⟨S50000x128, .f32⟩
  | 109 => ⟨S50000x128, .f32⟩
  | 110 => ⟨S50000x128, .i1⟩
  | 111 => ⟨S50000x128, .f32⟩
  | 112 => ⟨S50000x128, .f32⟩
  | 113 => ⟨S50000x128, .f32⟩
  | 114 => ⟨S50000x128, .f32⟩
  | 115 => ⟨S50000x128, .f32⟩
  | 116 => ⟨S50000x128, .f32⟩
  | 117 => ⟨S50000x128, .f32⟩
  | 118 => ⟨S50000x128, .f32⟩
  | 119 => ⟨S50000x128, .f32⟩
  | 120 => ⟨S50000x128, .f32⟩
  | 121 => ⟨S1x128x128, .f32⟩
  | 122 => ⟨S128x128, .f32⟩
  | 123 => ⟨S1x128, .f32⟩
  | 124 => ⟨S128, .f32⟩
  | 125 => ⟨S50000x128, .f32⟩
  | 126 => ⟨S_, .i32⟩
  | 127 => ⟨S1650000, .i32⟩
  | _ => ⟨S50000x128, .f32⟩

abbrev hbmTy0_1 (i : Nat) : BufTy := match i % 128 with
  | 0 => ⟨S1650000, .i1⟩
  | 1 => ⟨S_, .i32⟩
  | 2 => ⟨S1650000, .i32⟩
  | 3 => ⟨S1650000, .i32⟩
  | 4 => ⟨S1650000, .i32⟩
  | 5 => ⟨S1650000x1, .i32⟩
  | 6 => ⟨S1650000, .f32⟩
  | 7 => ⟨S_, .i32⟩
  | 8 => ⟨S1650000, .i32⟩
  | 9 => ⟨S1650000, .i1⟩
  | 10 => ⟨S_, .i32⟩
  | 11 => ⟨S1650000, .i32⟩
  | 12 => ⟨S1650000, .i32⟩
  | 13 => ⟨S1650000, .i32⟩
  | 14 => ⟨S1650000x1, .i32⟩
  | 15 => ⟨S1650000, .f32⟩
  | 16 => ⟨S1650000, .f32⟩
  | 17 => ⟨S_, .i32⟩
  | 18 => ⟨S1650000, .i32⟩
  | 19 => ⟨S1650000, .i1⟩
  | 20 => ⟨S_, .i32⟩
  | 21 => ⟨S1650000, .i32⟩
  | 22 => ⟨S1650000, .i32⟩
  | 23 => ⟨S1650000, .i32⟩
  | 24 => ⟨S1650000x1, .i32⟩
  | 25 => ⟨S1650000x128, .f32⟩
  | 26 => ⟨S1650000x1, .f32⟩
  | 27 => ⟨S1650000x128, .f32⟩
  | 28 => ⟨S1650000x128, .f32⟩
  | 29 => ⟨S_, .f32⟩
  | 30 => ⟨S50000x128, .f32⟩
  | 31 => ⟨S1650000x1, .i32⟩
  | 32 => ⟨S50000x128, .f32⟩
  | 33 => ⟨S1x128, .f32⟩
  | 34 => ⟨S50000x128, .f32⟩
  | 35 => ⟨S50000x128, .f32⟩
  | 36 => ⟨S1x128x128, .f32⟩
  | 37 => ⟨S128x128, .f32⟩
  | 38 => ⟨S50000x128, .f32⟩
  | 39 => ⟨S1x128, .f32⟩
  | 40 => ⟨S128, .f32⟩
  | 41 => ⟨S1x128, .f32⟩
  | 42 => ⟨S50000x128, .f32⟩
  | 43 => ⟨S50000x128, .f32⟩
  | 44 => ⟨S50000x128, .f32⟩
  | 45 => ⟨S_, .f32⟩
  | 46 => ⟨S50000x128, .f32⟩
  | 47 => ⟨S50000x128, .f32⟩
  | 48 => ⟨S50000x128, .f32⟩
  | 49 => ⟨S50000x128, .f32⟩
  | 50 => ⟨S50000x128, .i1⟩
  | 51 => ⟨S50000x128, .f32⟩
  | 52 => ⟨S50000x128, .f32⟩
  | 53 => ⟨S50000x128, .f32⟩
  | 54 => ⟨S50000x128, .f32⟩
  | 55 => ⟨S50000x128, .f32⟩
  | 56 => ⟨S50000x128, .f32⟩
  | 57 => ⟨S50000x128, .f32⟩
  | 58 => ⟨S50000x128, .f32⟩
  | 59 => ⟨S50000x128, .f32⟩
  | 60 => ⟨S50000x128, .f32⟩
  | 61 => ⟨S1x128x128, .f32⟩
  | 62 => ⟨S128x128, .f32⟩
  | 63 => ⟨S1x128, .f32⟩
  | 64 => ⟨S128, .f32⟩
  | 65 => ⟨S50000x128, .f32⟩
  | 66 => ⟨S_, .i32⟩
  | 67 => ⟨S1650000, .i32⟩
  | 68 => ⟨S1650000, .i1⟩
  | 69 => ⟨S_, .i32⟩
  | 70 => ⟨S1650000, .i32⟩
  | 71 => ⟨S1650000, .i32⟩
  | 72 => ⟨S1650000, .i32⟩
  | 73 => ⟨S1650000x1, .i32⟩
  | 74 => ⟨S1650000, .f32⟩
  | 75 => ⟨S_, .i32⟩
  | 76 => ⟨S1650000, .i32⟩
  | 77 => ⟨S1650000, .i1⟩
  | 78 => ⟨S_, .i32⟩
  | 79 => ⟨S1650000, .i32⟩
  | 80 => ⟨S1650000, .i32⟩
  | 81 => ⟨S1650000, .i32⟩
  | 82 => ⟨S1650000x1, .i32⟩
  | 83 => ⟨S1650000, .f32⟩
  | 84 => ⟨S1650000, .f32⟩
  | 85 => ⟨S_, .i32⟩
  | 86 => ⟨S1650000, .i32⟩
  | 87 => ⟨S1650000, .i1⟩
  | 88 => ⟨S_, .i32⟩
  | 89 => ⟨S1650000, .i32⟩
  | 90 => ⟨S1650000, .i32⟩
  | 91 => ⟨S1650000, .i32⟩
  | 92 => ⟨S1650000x1, .i32⟩
  | 93 => ⟨S1650000x128, .f32⟩
  | 94 => ⟨S1650000x1, .f32⟩
  | 95 => ⟨S1650000x128, .f32⟩
  | 96 => ⟨S1650000x128, .f32⟩
  | 97 => ⟨S_, .f32⟩
  | 98 => ⟨S50000x128, .f32⟩
  | 99 => ⟨S1650000x1, .i32⟩
  | 100 => ⟨S50000x128, .f32⟩
  | 101 => ⟨S1x128, .f32⟩
  | 102 => ⟨S50000x128, .f32⟩
  | 103 => ⟨S50000x128, .f32⟩
  | 104 => ⟨S1x128x128, .f32⟩
  | 105 => ⟨S128x128, .f32⟩
  | 106 => ⟨S50000x128, .f32⟩
  | 107 => ⟨S1x128, .f32⟩
  | 108 => ⟨S128, .f32⟩
  | 109 => ⟨S1x128, .f32⟩
  | 110 => ⟨S50000x128, .f32⟩
  | 111 => ⟨S50000x128, .f32⟩
  | 112 => ⟨S50000x128, .f32⟩
  | 113 => ⟨S_, .f32⟩
  | 114 => ⟨S50000x128, .f32⟩
  | 115 => ⟨S50000x128, .f32⟩
  | 116 => ⟨S50000x128, .f32⟩
  | 117 => ⟨S50000x128, .f32⟩
  | 118 => ⟨S50000x128, .i1⟩
  | 119 => ⟨S50000x128, .f32⟩
  | 120 => ⟨S50000x128, .f32⟩
  | 121 => ⟨S50000x128, .f32⟩
  | 122 => ⟨S50000x128, .f32⟩
  | 123 => ⟨S50000x128, .f32⟩
  | 124 => ⟨S50000x128, .f32⟩
  | 125 => ⟨S50000x128, .f32⟩
  | 126 => ⟨S50000x128, .f32⟩
  | 127 => ⟨S50000x128, .f32⟩
  | _ => ⟨S50000x128, .f32⟩

abbrev hbmTy0_2 (i : Nat) : BufTy := match i % 128 with
  | 0 => ⟨S50000x128, .f32⟩
  | 1 => ⟨S50000x1, .f32⟩
  | 2 => ⟨S1x1, .f32⟩
  | 3 => ⟨S50000x1, .f32⟩
  | 4 => ⟨S50000x1, .f32⟩
  | _ => ⟨S50000x128, .f32⟩

abbrev hbmTy (i : Nat) : BufTy := match i / 128 with
  | 0 => hbmTy0_0 i
  | 1 => hbmTy0_1 i
  | 2 => hbmTy0_2 i
  | _ => ⟨S50000x128, .f32⟩

abbrev bufTy : (tb : Table) → Fin (tcTables nBuf tb) → BufTy
  | .hbm, ⟨i, _⟩ => hbmTy i
  | _, _ => ⟨S50000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_cst : Ref sig .tc := ⟨.hbm, 17, rfl⟩
abbrev main_v7 : Ref sig .tc := ⟨.hbm, 18, rfl⟩
abbrev main_cst_0 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_cst_1 : Ref sig .tc := ⟨.hbm, 23, rfl⟩
abbrev main_v11 : Ref sig .tc := ⟨.hbm, 24, rfl⟩
abbrev main_v12 : Ref sig .tc := ⟨.hbm, 25, rfl⟩
abbrev main_cst_2 : Ref sig .tc := ⟨.hbm, 26, rfl⟩
abbrev main_v13 : Ref sig .tc := ⟨.hbm, 27, rfl⟩
abbrev main_v14 : Ref sig .tc := ⟨.hbm, 28, rfl⟩
abbrev main_cst_3 : Ref sig .tc := ⟨.hbm, 29, rfl⟩
abbrev main_call0_v0 : Ref sig .tc := ⟨.hbm, 30, rfl⟩
abbrev main_call0_v1 : Ref sig .tc := ⟨.hbm, 31, rfl⟩
abbrev main_v15 : Ref sig .tc := ⟨.hbm, 32, rfl⟩
abbrev main_v16 : Ref sig .tc := ⟨.hbm, 33, rfl⟩
abbrev main_v17 : Ref sig .tc := ⟨.hbm, 34, rfl⟩
abbrev main_v18 : Ref sig .tc := ⟨.hbm, 35, rfl⟩
abbrev main_v19 : Ref sig .tc := ⟨.hbm, 36, rfl⟩
abbrev main_call1_cst : Ref sig .tc := ⟨.hbm, 37, rfl⟩
abbrev main_call1_v0 : Ref sig .tc := ⟨.hbm, 38, rfl⟩
abbrev main_call1_v1 : Ref sig .tc := ⟨.hbm, 39, rfl⟩
abbrev main_call1_v2 : Ref sig .tc := ⟨.hbm, 40, rfl⟩
abbrev main_call1_v3 : Ref sig .tc := ⟨.hbm, 41, rfl⟩
abbrev main_call1_v4 : Ref sig .tc := ⟨.hbm, 42, rfl⟩
abbrev main_call1_v5 : Ref sig .tc := ⟨.hbm, 43, rfl⟩
abbrev main_call1_v6 : Ref sig .tc := ⟨.hbm, 44, rfl⟩
abbrev main_call1_v7 : Ref sig .tc := ⟨.hbm, 45, rfl⟩
abbrev main_call1_v8 : Ref sig .tc := ⟨.hbm, 46, rfl⟩
abbrev main_call1_v9 : Ref sig .tc := ⟨.hbm, 47, rfl⟩
abbrev main_call1_v10 : Ref sig .tc := ⟨.hbm, 48, rfl⟩
abbrev main_call1_v11 : Ref sig .tc := ⟨.hbm, 49, rfl⟩
abbrev main_v20 : Ref sig .tc := ⟨.hbm, 50, rfl⟩
abbrev main_v21 : Ref sig .tc := ⟨.hbm, 51, rfl⟩
abbrev main_v22 : Ref sig .tc := ⟨.hbm, 52, rfl⟩
abbrev main_v23 : Ref sig .tc := ⟨.hbm, 53, rfl⟩
abbrev main_v24 : Ref sig .tc := ⟨.hbm, 54, rfl⟩
abbrev main_v25 : Ref sig .tc := ⟨.hbm, 55, rfl⟩
abbrev main_v26 : Ref sig .tc := ⟨.hbm, 56, rfl⟩
abbrev main_v27 : Ref sig .tc := ⟨.hbm, 57, rfl⟩
abbrev main_c : Ref sig .tc := ⟨.hbm, 58, rfl⟩
abbrev main_v28 : Ref sig .tc := ⟨.hbm, 59, rfl⟩
abbrev main_v29 : Ref sig .tc := ⟨.hbm, 60, rfl⟩
abbrev main_c_4 : Ref sig .tc := ⟨.hbm, 61, rfl⟩
abbrev main_v30 : Ref sig .tc := ⟨.hbm, 62, rfl⟩
abbrev main_v31 : Ref sig .tc := ⟨.hbm, 63, rfl⟩
abbrev main_v32 : Ref sig .tc := ⟨.hbm, 64, rfl⟩
abbrev main_v33 : Ref sig .tc := ⟨.hbm, 65, rfl⟩
abbrev main_v34 : Ref sig .tc := ⟨.hbm, 66, rfl⟩
abbrev main_c_5 : Ref sig .tc := ⟨.hbm, 67, rfl⟩
abbrev main_v35 : Ref sig .tc := ⟨.hbm, 68, rfl⟩
abbrev main_v36 : Ref sig .tc := ⟨.hbm, 69, rfl⟩
abbrev main_c_6 : Ref sig .tc := ⟨.hbm, 70, rfl⟩
abbrev main_v37 : Ref sig .tc := ⟨.hbm, 71, rfl⟩
abbrev main_v38 : Ref sig .tc := ⟨.hbm, 72, rfl⟩
abbrev main_v39 : Ref sig .tc := ⟨.hbm, 73, rfl⟩
abbrev main_v40 : Ref sig .tc := ⟨.hbm, 74, rfl⟩
abbrev main_v41 : Ref sig .tc := ⟨.hbm, 75, rfl⟩
abbrev main_v42 : Ref sig .tc := ⟨.hbm, 76, rfl⟩
abbrev main_c_7 : Ref sig .tc := ⟨.hbm, 77, rfl⟩
abbrev main_v43 : Ref sig .tc := ⟨.hbm, 78, rfl⟩
abbrev main_v44 : Ref sig .tc := ⟨.hbm, 79, rfl⟩
abbrev main_c_8 : Ref sig .tc := ⟨.hbm, 80, rfl⟩
abbrev main_v45 : Ref sig .tc := ⟨.hbm, 81, rfl⟩
abbrev main_v46 : Ref sig .tc := ⟨.hbm, 82, rfl⟩
abbrev main_v47 : Ref sig .tc := ⟨.hbm, 83, rfl⟩
abbrev main_v48 : Ref sig .tc := ⟨.hbm, 84, rfl⟩
abbrev main_v49 : Ref sig .tc := ⟨.hbm, 85, rfl⟩
abbrev main_v50 : Ref sig .tc := ⟨.hbm, 86, rfl⟩
abbrev main_v51 : Ref sig .tc := ⟨.hbm, 87, rfl⟩
abbrev main_v52 : Ref sig .tc := ⟨.hbm, 88, rfl⟩
abbrev main_cst_9 : Ref sig .tc := ⟨.hbm, 89, rfl⟩
abbrev main_v53 : Ref sig .tc := ⟨.hbm, 90, rfl⟩
abbrev main_v54 : Ref sig .tc := ⟨.hbm, 91, rfl⟩
abbrev main_v55 : Ref sig .tc := ⟨.hbm, 92, rfl⟩
abbrev main_v56 : Ref sig .tc := ⟨.hbm, 93, rfl⟩
abbrev main_v57 : Ref sig .tc := ⟨.hbm, 94, rfl⟩
abbrev main_v58 : Ref sig .tc := ⟨.hbm, 95, rfl⟩
abbrev main_v59 : Ref sig .tc := ⟨.hbm, 96, rfl⟩
abbrev main_v60 : Ref sig .tc := ⟨.hbm, 97, rfl⟩
abbrev main_v61 : Ref sig .tc := ⟨.hbm, 98, rfl⟩
abbrev main_v62 : Ref sig .tc := ⟨.hbm, 99, rfl⟩
abbrev main_v63 : Ref sig .tc := ⟨.hbm, 100, rfl⟩
abbrev main_v64 : Ref sig .tc := ⟨.hbm, 101, rfl⟩
abbrev main_v65 : Ref sig .tc := ⟨.hbm, 102, rfl⟩
abbrev main_v66 : Ref sig .tc := ⟨.hbm, 103, rfl⟩
abbrev main_v67 : Ref sig .tc := ⟨.hbm, 104, rfl⟩
abbrev main_call2_cst : Ref sig .tc := ⟨.hbm, 105, rfl⟩
abbrev main_call2_v0 : Ref sig .tc := ⟨.hbm, 106, rfl⟩
abbrev main_call2_v1 : Ref sig .tc := ⟨.hbm, 107, rfl⟩
abbrev main_call2_v2 : Ref sig .tc := ⟨.hbm, 108, rfl⟩
abbrev main_call2_v3 : Ref sig .tc := ⟨.hbm, 109, rfl⟩
abbrev main_call2_v4 : Ref sig .tc := ⟨.hbm, 110, rfl⟩
abbrev main_call2_v5 : Ref sig .tc := ⟨.hbm, 111, rfl⟩
abbrev main_call2_v6 : Ref sig .tc := ⟨.hbm, 112, rfl⟩
abbrev main_call2_v7 : Ref sig .tc := ⟨.hbm, 113, rfl⟩
abbrev main_call2_v8 : Ref sig .tc := ⟨.hbm, 114, rfl⟩
abbrev main_call2_v9 : Ref sig .tc := ⟨.hbm, 115, rfl⟩
abbrev main_call2_v10 : Ref sig .tc := ⟨.hbm, 116, rfl⟩
abbrev main_call2_v11 : Ref sig .tc := ⟨.hbm, 117, rfl⟩
abbrev main_v68 : Ref sig .tc := ⟨.hbm, 118, rfl⟩
abbrev main_v69 : Ref sig .tc := ⟨.hbm, 119, rfl⟩
abbrev main_v70 : Ref sig .tc := ⟨.hbm, 120, rfl⟩
abbrev main_v71 : Ref sig .tc := ⟨.hbm, 121, rfl⟩
abbrev main_v72 : Ref sig .tc := ⟨.hbm, 122, rfl⟩
abbrev main_v73 : Ref sig .tc := ⟨.hbm, 123, rfl⟩
abbrev main_v74 : Ref sig .tc := ⟨.hbm, 124, rfl⟩
abbrev main_v75 : Ref sig .tc := ⟨.hbm, 125, rfl⟩
abbrev main_c_10 : Ref sig .tc := ⟨.hbm, 126, rfl⟩
abbrev main_v76 : Ref sig .tc := ⟨.hbm, 127, rfl⟩
abbrev main_v77 : Ref sig .tc := ⟨.hbm, 128, rfl⟩
abbrev main_c_11 : Ref sig .tc := ⟨.hbm, 129, rfl⟩
abbrev main_v78 : Ref sig .tc := ⟨.hbm, 130, rfl⟩
abbrev main_v79 : Ref sig .tc := ⟨.hbm, 131, rfl⟩
abbrev main_v80 : Ref sig .tc := ⟨.hbm, 132, rfl⟩
abbrev main_v81 : Ref sig .tc := ⟨.hbm, 133, rfl⟩
abbrev main_v82 : Ref sig .tc := ⟨.hbm, 134, rfl⟩
abbrev main_c_12 : Ref sig .tc := ⟨.hbm, 135, rfl⟩
abbrev main_v83 : Ref sig .tc := ⟨.hbm, 136, rfl⟩
abbrev main_v84 : Ref sig .tc := ⟨.hbm, 137, rfl⟩
abbrev main_c_13 : Ref sig .tc := ⟨.hbm, 138, rfl⟩
abbrev main_v85 : Ref sig .tc := ⟨.hbm, 139, rfl⟩
abbrev main_v86 : Ref sig .tc := ⟨.hbm, 140, rfl⟩
abbrev main_v87 : Ref sig .tc := ⟨.hbm, 141, rfl⟩
abbrev main_v88 : Ref sig .tc := ⟨.hbm, 142, rfl⟩
abbrev main_v89 : Ref sig .tc := ⟨.hbm, 143, rfl⟩
abbrev main_v90 : Ref sig .tc := ⟨.hbm, 144, rfl⟩
abbrev main_c_14 : Ref sig .tc := ⟨.hbm, 145, rfl⟩
abbrev main_v91 : Ref sig .tc := ⟨.hbm, 146, rfl⟩
abbrev main_v92 : Ref sig .tc := ⟨.hbm, 147, rfl⟩
abbrev main_c_15 : Ref sig .tc := ⟨.hbm, 148, rfl⟩
abbrev main_v93 : Ref sig .tc := ⟨.hbm, 149, rfl⟩
abbrev main_v94 : Ref sig .tc := ⟨.hbm, 150, rfl⟩
abbrev main_v95 : Ref sig .tc := ⟨.hbm, 151, rfl⟩
abbrev main_v96 : Ref sig .tc := ⟨.hbm, 152, rfl⟩
abbrev main_v97 : Ref sig .tc := ⟨.hbm, 153, rfl⟩
abbrev main_v98 : Ref sig .tc := ⟨.hbm, 154, rfl⟩
abbrev main_v99 : Ref sig .tc := ⟨.hbm, 155, rfl⟩
abbrev main_v100 : Ref sig .tc := ⟨.hbm, 156, rfl⟩
abbrev main_cst_16 : Ref sig .tc := ⟨.hbm, 157, rfl⟩
abbrev main_v101 : Ref sig .tc := ⟨.hbm, 158, rfl⟩
abbrev main_v102 : Ref sig .tc := ⟨.hbm, 159, rfl⟩
abbrev main_v103 : Ref sig .tc := ⟨.hbm, 160, rfl⟩
abbrev main_v104 : Ref sig .tc := ⟨.hbm, 161, rfl⟩
abbrev main_v105 : Ref sig .tc := ⟨.hbm, 162, rfl⟩
abbrev main_v106 : Ref sig .tc := ⟨.hbm, 163, rfl⟩
abbrev main_v107 : Ref sig .tc := ⟨.hbm, 164, rfl⟩
abbrev main_v108 : Ref sig .tc := ⟨.hbm, 165, rfl⟩
abbrev main_v109 : Ref sig .tc := ⟨.hbm, 166, rfl⟩
abbrev main_v110 : Ref sig .tc := ⟨.hbm, 167, rfl⟩
abbrev main_v111 : Ref sig .tc := ⟨.hbm, 168, rfl⟩
abbrev main_v112 : Ref sig .tc := ⟨.hbm, 169, rfl⟩
abbrev main_v113 : Ref sig .tc := ⟨.hbm, 170, rfl⟩
abbrev main_v114 : Ref sig .tc := ⟨.hbm, 171, rfl⟩
abbrev main_v115 : Ref sig .tc := ⟨.hbm, 172, rfl⟩
abbrev main_call3_cst : Ref sig .tc := ⟨.hbm, 173, rfl⟩
abbrev main_call3_v0 : Ref sig .tc := ⟨.hbm, 174, rfl⟩
abbrev main_call3_v1 : Ref sig .tc := ⟨.hbm, 175, rfl⟩
abbrev main_call3_v2 : Ref sig .tc := ⟨.hbm, 176, rfl⟩
abbrev main_call3_v3 : Ref sig .tc := ⟨.hbm, 177, rfl⟩
abbrev main_call3_v4 : Ref sig .tc := ⟨.hbm, 178, rfl⟩
abbrev main_call3_v5 : Ref sig .tc := ⟨.hbm, 179, rfl⟩
abbrev main_call3_v6 : Ref sig .tc := ⟨.hbm, 180, rfl⟩
abbrev main_call3_v7 : Ref sig .tc := ⟨.hbm, 181, rfl⟩
abbrev main_call3_v8 : Ref sig .tc := ⟨.hbm, 182, rfl⟩
abbrev main_call3_v9 : Ref sig .tc := ⟨.hbm, 183, rfl⟩
abbrev main_call3_v10 : Ref sig .tc := ⟨.hbm, 184, rfl⟩
abbrev main_call3_v11 : Ref sig .tc := ⟨.hbm, 185, rfl⟩
abbrev main_v116 : Ref sig .tc := ⟨.hbm, 186, rfl⟩
abbrev main_v117 : Ref sig .tc := ⟨.hbm, 187, rfl⟩
abbrev main_v118 : Ref sig .tc := ⟨.hbm, 188, rfl⟩
abbrev main_v119 : Ref sig .tc := ⟨.hbm, 189, rfl⟩
abbrev main_v120 : Ref sig .tc := ⟨.hbm, 190, rfl⟩
abbrev main_v121 : Ref sig .tc := ⟨.hbm, 191, rfl⟩
abbrev main_v122 : Ref sig .tc := ⟨.hbm, 192, rfl⟩
abbrev main_v123 : Ref sig .tc := ⟨.hbm, 193, rfl⟩
abbrev main_c_17 : Ref sig .tc := ⟨.hbm, 194, rfl⟩
abbrev main_v124 : Ref sig .tc := ⟨.hbm, 195, rfl⟩
abbrev main_v125 : Ref sig .tc := ⟨.hbm, 196, rfl⟩
abbrev main_c_18 : Ref sig .tc := ⟨.hbm, 197, rfl⟩
abbrev main_v126 : Ref sig .tc := ⟨.hbm, 198, rfl⟩
abbrev main_v127 : Ref sig .tc := ⟨.hbm, 199, rfl⟩
abbrev main_v128 : Ref sig .tc := ⟨.hbm, 200, rfl⟩
abbrev main_v129 : Ref sig .tc := ⟨.hbm, 201, rfl⟩
abbrev main_v130 : Ref sig .tc := ⟨.hbm, 202, rfl⟩
abbrev main_c_19 : Ref sig .tc := ⟨.hbm, 203, rfl⟩
abbrev main_v131 : Ref sig .tc := ⟨.hbm, 204, rfl⟩
abbrev main_v132 : Ref sig .tc := ⟨.hbm, 205, rfl⟩
abbrev main_c_20 : Ref sig .tc := ⟨.hbm, 206, rfl⟩
abbrev main_v133 : Ref sig .tc := ⟨.hbm, 207, rfl⟩
abbrev main_v134 : Ref sig .tc := ⟨.hbm, 208, rfl⟩
abbrev main_v135 : Ref sig .tc := ⟨.hbm, 209, rfl⟩
abbrev main_v136 : Ref sig .tc := ⟨.hbm, 210, rfl⟩
abbrev main_v137 : Ref sig .tc := ⟨.hbm, 211, rfl⟩
abbrev main_v138 : Ref sig .tc := ⟨.hbm, 212, rfl⟩
abbrev main_c_21 : Ref sig .tc := ⟨.hbm, 213, rfl⟩
abbrev main_v139 : Ref sig .tc := ⟨.hbm, 214, rfl⟩
abbrev main_v140 : Ref sig .tc := ⟨.hbm, 215, rfl⟩
abbrev main_c_22 : Ref sig .tc := ⟨.hbm, 216, rfl⟩
abbrev main_v141 : Ref sig .tc := ⟨.hbm, 217, rfl⟩
abbrev main_v142 : Ref sig .tc := ⟨.hbm, 218, rfl⟩
abbrev main_v143 : Ref sig .tc := ⟨.hbm, 219, rfl⟩
abbrev main_v144 : Ref sig .tc := ⟨.hbm, 220, rfl⟩
abbrev main_v145 : Ref sig .tc := ⟨.hbm, 221, rfl⟩
abbrev main_v146 : Ref sig .tc := ⟨.hbm, 222, rfl⟩
abbrev main_v147 : Ref sig .tc := ⟨.hbm, 223, rfl⟩
abbrev main_v148 : Ref sig .tc := ⟨.hbm, 224, rfl⟩
abbrev main_cst_23 : Ref sig .tc := ⟨.hbm, 225, rfl⟩
abbrev main_v149 : Ref sig .tc := ⟨.hbm, 226, rfl⟩
abbrev main_v150 : Ref sig .tc := ⟨.hbm, 227, rfl⟩
abbrev main_v151 : Ref sig .tc := ⟨.hbm, 228, rfl⟩
abbrev main_v152 : Ref sig .tc := ⟨.hbm, 229, rfl⟩
abbrev main_v153 : Ref sig .tc := ⟨.hbm, 230, rfl⟩
abbrev main_v154 : Ref sig .tc := ⟨.hbm, 231, rfl⟩
abbrev main_v155 : Ref sig .tc := ⟨.hbm, 232, rfl⟩
abbrev main_v156 : Ref sig .tc := ⟨.hbm, 233, rfl⟩
abbrev main_v157 : Ref sig .tc := ⟨.hbm, 234, rfl⟩
abbrev main_v158 : Ref sig .tc := ⟨.hbm, 235, rfl⟩
abbrev main_v159 : Ref sig .tc := ⟨.hbm, 236, rfl⟩
abbrev main_v160 : Ref sig .tc := ⟨.hbm, 237, rfl⟩
abbrev main_v161 : Ref sig .tc := ⟨.hbm, 238, rfl⟩
abbrev main_v162 : Ref sig .tc := ⟨.hbm, 239, rfl⟩
abbrev main_v163 : Ref sig .tc := ⟨.hbm, 240, rfl⟩
abbrev main_call4_cst : Ref sig .tc := ⟨.hbm, 241, rfl⟩
abbrev main_call4_v0 : Ref sig .tc := ⟨.hbm, 242, rfl⟩
abbrev main_call4_v1 : Ref sig .tc := ⟨.hbm, 243, rfl⟩
abbrev main_call4_v2 : Ref sig .tc := ⟨.hbm, 244, rfl⟩
abbrev main_call4_v3 : Ref sig .tc := ⟨.hbm, 245, rfl⟩
abbrev main_call4_v4 : Ref sig .tc := ⟨.hbm, 246, rfl⟩
abbrev main_call4_v5 : Ref sig .tc := ⟨.hbm, 247, rfl⟩
abbrev main_call4_v6 : Ref sig .tc := ⟨.hbm, 248, rfl⟩
abbrev main_call4_v7 : Ref sig .tc := ⟨.hbm, 249, rfl⟩
abbrev main_call4_v8 : Ref sig .tc := ⟨.hbm, 250, rfl⟩
abbrev main_call4_v9 : Ref sig .tc := ⟨.hbm, 251, rfl⟩
abbrev main_call4_v10 : Ref sig .tc := ⟨.hbm, 252, rfl⟩
abbrev main_call4_v11 : Ref sig .tc := ⟨.hbm, 253, rfl⟩
abbrev main_v164 : Ref sig .tc := ⟨.hbm, 254, rfl⟩
abbrev main_v165 : Ref sig .tc := ⟨.hbm, 255, rfl⟩
abbrev main_v166 : Ref sig .tc := ⟨.hbm, 256, rfl⟩
abbrev main_v167 : Ref sig .tc := ⟨.hbm, 257, rfl⟩
abbrev main_v168 : Ref sig .tc := ⟨.hbm, 258, rfl⟩
abbrev main_v169 : Ref sig .tc := ⟨.hbm, 259, rfl⟩
abbrev main_v170 : Ref sig .tc := ⟨.hbm, 260, rfl⟩

abbrev nD : Nat := 1
abbrev τ : Topo := Topo.v7x

variable {F : FTy → Type} [FloatOps F]

class Facts₀ : Prop where
  slices_S2x1600000_S1x1600000_0_0 : S2x1600000.Slices ![0, 0] S1x1600000
  shapeCasts_S1x1600000_S1600000 : S1x1600000.ShapeCasts S1600000
  concatenates_S1600000_S50000_S1650000_d0 : Shape.Concatenates [S1600000, S50000] S1650000 0
  slices_S2x1600000_S1x1600000_1_0 : S2x1600000.Slices ![1, 0] S1x1600000
  bcast_S_S1650000 : S_.BroadcastsInDim S1650000 (![] : Fin 0 → Fin S1650000.rank)
  bcast_S_S50000 : S_.BroadcastsInDim S50000 (![] : Fin 0 → Fin S50000.rank)
  bcast_S1650000_S1650000x1_0 : S1650000.BroadcastsInDim S1650000x1 (![0] : Fin 1 → Fin S1650000x1.rank)
  bcast_S128_S1x128_1 : S128.BroadcastsInDim S1x128 (![1] : Fin 1 → Fin S1x128.rank)
  bcast_S1x128_S50000x128_0_1 : S1x128.BroadcastsInDim S50000x128 (![0, 1] : Fin 2 → Fin S50000x128.rank)
  bcast_S_S50000x128 : S_.BroadcastsInDim S50000x128 (![] : Fin 0 → Fin S50000x128.rank)
  slices_S3x128x128_S1x128x128_0_0_0 : S3x128x128.Slices ![0, 0, 0] S1x128x128
  shapeCasts_S1x128x128_S128x128 : S1x128x128.ShapeCasts S128x128
  slices_S3x128_S1x128_0_0 : S3x128.Slices ![0, 0] S1x128
  shapeCasts_S1x128_S128 : S1x128.ShapeCasts S128
  bcast_S1650000x1_S1650000x128_0_1 : S1650000x1.BroadcastsInDim S1650000x128 (![0, 1] : Fin 2 → Fin S1650000x128.rank)
  slices_S3x128x128_S1x128x128_1_0_0 : S3x128x128.Slices ![1, 0, 0] S1x128x128
  slices_S3x128_S1x128_1_0 : S3x128.Slices ![1, 0] S1x128
  slices_S3x128x128_S1x128x128_2_0_0 : S3x128x128.Slices ![2, 0, 0] S1x128x128
  slices_S3x128_S1x128_2_0 : S3x128.Slices ![2, 0] S1x128
  bcast_S1_S1x1_1 : S1.BroadcastsInDim S1x1 (![1] : Fin 1 → Fin S1x1.rank)
  bcast_S1x1_S50000x1_0_1 : S1x1.BroadcastsInDim S50000x1 (![0, 1] : Fin 2 → Fin S50000x1.rank)
  scatter_S50000_S1650000x1_S1650000_n_0_0_1_wf : ScatterDims.WF S50000 S1650000x1 S1650000 [] [0] [0] 1
  dot_S50000x128_S128x128_S50000x128_1_0_0_1_n_n_wf : DotDims.WF S50000x128 S128x128 S50000x128 [1] [0] [0] [1] [] []
  gather_S50000_S1650000x1_S1650000_n_0_n_n_0_1_1_wf : GatherDims.WF S50000 S1650000x1 S1650000 [] [0] [] [0] [] 1 ![1]
  gather_S50000x128_S1650000x1_S1650000x128_1_0_n_n_0_1_1128_wf : GatherDims.WF S50000x128 S1650000x1 S1650000x128 [1] [0] [] [0] [] 1 ![1, 128]
  scatter_S50000x128_S1650000x1_S1650000x128_1_0_0_1_wf : ScatterDims.WF S50000x128 S1650000x1 S1650000x128 [1] [0] [0] 1
  dot_S50000x128_S128x1_S50000x1_1_0_0_1_n_n_wf : DotDims.WF S50000x128 S128x1 S50000x1 [1] [0] [0] [1] [] []

variable [Facts₀]

def scatter_S50000_S1650000x1_S1650000_n_0_0_1 : ScatterDims S50000 S1650000x1 S1650000 where
  updateWindowDims := []
  insertedWindowDims := [0]
  scatterDimsToOperandDims := [0]
  indexVectorDim := 1
  wf := scatter_S50000_S1650000x1_S1650000_n_0_0_1_wf
def dot_S50000x128_S128x128_S50000x128_1_0_0_1_n_n : DotDims S50000x128 S128x128 S50000x128 where
  lhsContracting := [1]
  rhsContracting := [0]
  lhsNonContracting := [0]
  rhsNonContracting := [1]
  lhsBatch := []
  rhsBatch := []
  wf := dot_S50000x128_S128x128_S50000x128_1_0_0_1_n_n_wf
def gather_S50000_S1650000x1_S1650000_n_0_n_n_0_1_1 : GatherDims S50000 S1650000x1 S1650000 where
  offsetDims := []
  collapsedSliceDims := [0]
  operandBatchingDims := []
  startIndicesBatchingDims := []
  startIndexMap := [0]
  indexVectorDim := 1
  sliceSizes := ![1]
  wf := gather_S50000_S1650000x1_S1650000_n_0_n_n_0_1_1_wf
def gather_S50000x128_S1650000x1_S1650000x128_1_0_n_n_0_1_1128 : GatherDims S50000x128 S1650000x1 S1650000x128 where
  offsetDims := [1]
  collapsedSliceDims := [0]
  operandBatchingDims := []
  startIndicesBatchingDims := []
  startIndexMap := [0]
  indexVectorDim := 1
  sliceSizes := ![1, 128]
  wf := gather_S50000x128_S1650000x1_S1650000x128_1_0_n_n_0_1_1128_wf
def scatter_S50000x128_S1650000x1_S1650000x128_1_0_0_1 : ScatterDims S50000x128 S1650000x1 S1650000x128 where
  updateWindowDims := [1]
  insertedWindowDims := [0]
  scatterDimsToOperandDims := [0]
  indexVectorDim := 1
  wf := scatter_S50000x128_S1650000x1_S1650000x128_1_0_0_1_wf
def dot_S50000x128_S128x1_S50000x1_1_0_0_1_n_n : DotDims S50000x128 S128x1 S50000x1 where
  lhsContracting := [1]
  rhsContracting := [0]
  lhsNonContracting := [0]
  rhsNonContracting := [1]
  lhsBatch := []
  rhsBatch := []
  wf := dot_S50000x128_S128x1_S50000x1_1_0_0_1_n_n_wf

class Facts : Prop extends Facts₀ where

variable [Facts]
-- ==== Proof.KRun.lean ====
/-
  The kernel program's run, with its result named.

  @main is eight kernel regions among stretches of host operations. The buffer contents at each boundary are a fold from the
  launch memory (`W0`, …, `W18`: a stretch applies its operations, a region replaces its output array by what its
  write-backs leave). Every weakly fair execution terminates, nothing faulting, with every unscoped buffer at the last
  boundary's contents; in particular the result buffer holds `W18` at its reference, and the arguments are as launched.
-/
import proofs.«157124_j84301618086373_2_alg».proof.Proof.Gen.KernelIdeal.Frame
import Idealize.ShloMosaic.PureOps.Ideal

set_option maxRecDepth 16384

noncomputable section

namespace Cert.KernelIdeal.RunValue

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

local notation "𝕄" => MT nD τ sig Unit (Elt Ideal) ℕ (UR sig nD τ) ℕ

variable (m : (ℓ : Loc nD τ sig) → Buf (Elt Ideal) ℓ) (ρ : Dev nD → PrngReg)

set_option backward.isDefEq.respectTransparency.types false in
/-- Every weakly fair execution of @main terminates, nothing faulting; the result buffer ends at the last boundary's
    contents and the argument arrays end as launched. -/
theorem run_last : θ_run defs (onTc (τ := τ) (main (F := Ideal))) ⟨m, fun _ => 0, ρ⟩ (fun r => ∀ c : Dev nD,
      r.2.mem ((c.tc : Thread nD τ).loc main_v86) = W18 m ρ c (Proc.devRef .tc main_v86)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)) :=
  Pipeline.θ_run_regions_kit (pcfgs (F := Ideal)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W18 m ρ c b)
    (hfin := fun c s' => by
      iintro ⟨⟨Hh, -⟩, HSI⟩
      unfold StableHlo.held
      imodintro
      iapply (pointsTo_read_all (Pipeline.ucRefs τ sig) (fun b => (((c : Thread nD τ)).1, b)) (W18 m ρ c) s')
      isplitl [Hh] <;> iassumption)
    (hQ := fun s h c =>
      ⟨h c _ (mem_uc main_v86 (by decide)),
       (h c _ (mem_uc main_arg0 (by decide))).trans (W18_main_arg0 m ρ c),
       (h c _ (mem_uc main_arg1 (by decide))).trans (W18_main_arg1 m ρ c),
       (h c _ (mem_uc main_arg2 (by decide))).trans (W18_main_arg2 m ρ c),
       (h c _ (mem_uc main_arg3 (by decide))).trans (W18_main_arg3 m ρ c),
       (h c _ (mem_uc main_arg4 (by decide))).trans (W18_main_arg4 m ρ c),
       (h c _ (mem_uc main_arg5 (by decide))).trans (W18_main_arg5 m ρ c),
       (h c _ (mem_uc main_arg6 (by decide))).trans (W18_main_arg6 m ρ c),
       (h c _ (mem_uc main_arg7 (by decide))).trans (W18_main_arg7 m ρ c),
       (h c _ (mem_uc main_arg8 (by decide))).trans (W18_main_arg8 m ρ c),
       (h c _ (mem_uc main_arg9 (by decide))).trans (W18_main_arg9 m ρ c)⟩)

end Cert.KernelIdeal.RunValue

end
-- ==== Proof.Reals.lean ====
/-
  Facts about the extended reals that the graph-convolution bridge needs.

  * A non-negative REAL factor distributes over a finite sum of extended reals. (For a factor that is
    negative or infinite this fails: the extended reals add `⊤ + ⊥ = ⊥`.)
  * A positive extended real raised to the power `-1/2` is a non-negative real: for a positive real base it is
    the real power, and for `⊤` it is `0`. So the symmetric normalisation factor of a node, `deg ^ (-1/2)`
    where `deg > 0` and `0` otherwise, is a non-negative real whatever the degree is.
-/
import Idealize.ShloMosaic.PureOps.Ideal

noncomputable section

namespace Cert.Gcn

open Idealize.ShloMosaic

/-- The pattern of `-0.5` denotes the real `-1/2`. -/
theorem ofBits_neg_half : Ideal.ofBits .f32 0xBF000000#32 = (((-1/2 : ℝ)) : EReal) := by
  simp [Ideal.ofBits, Ideal.ieee, -EReal.coe_mul, -EReal.coe_neg]; norm_num

/-- The pattern of `+0.0` denotes `0`. -/
theorem ofBits_zero : Ideal.ofBits .f32 0x00000000#32 = 0 := by
  simp [Ideal.ofBits, Ideal.ieee]

/-- A non-negative real factor distributes over a finite sum of extended reals. -/
theorem sum_mul_coe {ι : Type*} (s : Finset ι) (f : ι → EReal) {d : ℝ} (hd : 0 ≤ d) :
    (∑ j ∈ s, f j) * (d : EReal) = ∑ j ∈ s, f j * (d : EReal) := by
  classical
  induction s using Finset.induction_on with
  | empty => simp
  | insert a s ha ih =>
    rw [Finset.sum_insert ha, Finset.sum_insert ha, ← ih]
    exact EReal.right_distrib_of_nonneg_of_ne_top (by exact_mod_cast hd) (EReal.coe_ne_top d) _ _

/-- A positive extended real to the power `-1/2` is a non-negative real. -/
theorem pow_neg_half (x : EReal) (hx : 0 < x) :
    ∃ d : ℝ, 0 ≤ d ∧ Ideal.pow x (Ideal.ofBits .f32 0xBF000000#32) = (d : EReal) := by
  rw [ofBits_neg_half]
  induction x using EReal.rec with
  | bot => exact absurd hx (not_lt_bot)
  | top =>
    refine ⟨0, le_refl _, ?_⟩
    show (if (0 : EReal) < ((-1/2 : ℝ) : EReal) then (⊤ : EReal) else if ((-1/2 : ℝ) : EReal) = 0 then 1 else 0) = _
    rw [if_neg (by norm_num), if_neg (by norm_num)]; rfl
  | coe r =>
    have hr : 0 < r := by exact_mod_cast hx
    exact ⟨Real.rpow r (-1/2), Real.rpow_nonneg hr.le _, rfl⟩

/-- The normalisation factor: `deg ^ (-1/2)` where `deg > 0`, else `0` — always a non-negative real. -/
theorem norm_factor_real (deg : EReal) :
    ∃ d : ℝ, 0 ≤ d ∧ (if 0 < deg then Ideal.pow deg (Ideal.ofBits .f32 0xBF000000#32) else 0) = (d : EReal) := by
  by_cases h : 0 < deg
  · rw [if_pos h]; exact pow_neg_half deg h
  · rw [if_neg h]; exact ⟨0, le_refl _, rfl⟩

end Cert.Gcn

end
-- ==== Proof.Edges.lean ====
/-
  Message passing along the edges, read at an index.

  A graph convolution gathers a row of node features for every edge (`h[src]`), and adds each gathered row into the
  row of the edge's destination (`segment_sum(·, dst)`). Here:

  * a row gather reads, at edge `e` and column `c`, the operand at row `clampRow (idx e)` — the edge's index word read
    signed and clamped into the node range — and column `c`; an element gather reads the operand at that row;
  * an update of the accumulating scatter lands on element `(r, c)` only if the edge's destination word, read signed,
    IS `r` (no clamping: an out-of-range destination is dropped), and its column is `c`;
  * hence the SCALING LAW: scaling every node's features by a per-node factor before the gather, and every aggregated row
    by that row's factor after the scatter-add, equals scaling every gathered row by the product of the two
    factors read at the edge's clamped source and destination — provided the factors are non-negative reals, which is
    what lets the row's factor distribute over the sum of the messages that land on the row.
-/
import Idealize.ShloMosaic.PureOps.Ideal
import Idealize.ShloMosaic.Lib.ValueIdx
import proofs.«157124_j84301618086373_2_alg».proof.Proof.Reals

noncomputable section

namespace Cert.Gcn

open Idealize.ShloMosaic Idealize.ShloMosaic.ValueIdx

/-- Nodes. -/
abbrev SN : Shape := ⟨1, ![50000]⟩
/-- Node features. -/
abbrev SNH : Shape := ⟨2, ![50000, 128]⟩
/-- One index word per edge (self-loops included), as a column. -/
abbrev SE1 : Shape := ⟨2, ![1650000, 1]⟩
/-- Edges. -/
abbrev SE : Shape := ⟨1, ![1650000]⟩
/-- Messages: one feature row per edge. -/
abbrev SEH : Shape := ⟨2, ![1650000, 128]⟩

/-- Gathering whole feature rows: result `(e, c)` is the operand at `(idx e, c)`. -/
abbrev gRows (wf : GatherDims.WF SNH SE1 SEH [1] [0] [] [0] [] 1 ![1, 128]) : GatherDims SNH SE1 SEH where
  offsetDims := [1]
  collapsedSliceDims := [0]
  operandBatchingDims := []
  startIndicesBatchingDims := []
  startIndexMap := [0]
  indexVectorDim := 1
  sliceSizes := ![1, 128]
  wf := wf

/-- Gathering one number per edge: result `e` is the operand at `idx e`. -/
abbrev gElts (wf : GatherDims.WF SN SE1 SE [] [0] [] [0] [] 1 ![1]) : GatherDims SN SE1 SE where
  offsetDims := []
  collapsedSliceDims := [0]
  operandBatchingDims := []
  startIndicesBatchingDims := []
  startIndexMap := [0]
  indexVectorDim := 1
  sliceSizes := ![1]
  wf := wf

/-- Adding message rows into destination rows. -/
abbrev sRows (wf : ScatterDims.WF SNH SE1 SEH [1] [0] [0] 1) : ScatterDims SNH SE1 SEH where
  updateWindowDims := [1]
  insertedWindowDims := [0]
  scatterDimsToOperandDims := [0]
  indexVectorDim := 1
  wf := wf

/-- The node an index word names for a gather: read signed, clamped into `[0, 49999]`. -/
def clampRow (w : BitVec 32) : Fin 50000 := ⟨min w.toInt.toNat 49999, by omega⟩

/-- The column index `[e, 0]` of edge `e`. -/
abbrev edgeIdx (e : Fin 1650000) : SE1.Idx := ix2 e (0 : Fin 1)

theorem gRows_operandIdx (wf) (idx : IVec SE1 32) (j : SEH.Idx) :
    (gRows wf).operandIdx j idx = ix2 (clampRow (idx (edgeIdx (j 0)))) (j 1) := by
  have hsi : (gRows wf).siIdx j ⟨List.idxOf (0 : Fin 2) (gRows wf).startIndexMap,
      List.idxOf_lt_length_iff.2 (List.mem_singleton.mpr rfl)⟩ = edgeIdx (j 0) := by
    funext b; refine Fin.ext ?_
    match b with
    | ⟨0, _⟩ => rfl
    | ⟨1, _⟩ => rfl
  have h0 : ((gRows wf).operandIdx j idx (0 : Fin 2)).val = (clampRow (idx (edgeIdx (j 0)))).val := by
    show (gRows wf).start j idx 0 + (gRows wf).batchCoord j 0 + (gRows wf).offCoord j 0 = _
    rw [GatherDims.batchCoord_eq_zero _ _ _ List.not_mem_nil,
      GatherDims.offCoord_eq_zero _ _ _ (fun h => ((GatherDims.mem_sKept _ _).mp h).1 (List.mem_singleton.mpr rfl))]
    simp only [Nat.add_zero]
    unfold GatherDims.start
    rw [dif_pos (show (0 : Fin 2) ∈ (gRows wf).startIndexMap from List.mem_singleton.mpr rfl), hsi]
    rfl
  have h1 : ((gRows wf).operandIdx j idx (1 : Fin 2)).val = (j 1).val := by
    show (gRows wf).start j idx 1 + (gRows wf).batchCoord j 1 + (gRows wf).offCoord j 1 = _
    rw [GatherDims.batchCoord_eq_zero _ _ _ List.not_mem_nil]
    unfold GatherDims.start
    rw [dif_neg (show ¬ ((1 : Fin 2) ∈ ([0] : List (Fin 2))) by decide)]
    unfold GatherDims.offCoord
    rw [dif_pos (show (1 : Fin 2) ∈ SNH.kept ([0] ++ []) by decide)]
    simp only [Nat.add_zero, Nat.zero_add]
    rfl
  funext a
  match a with
  | ⟨0, _⟩ => exact Fin.ext h0
  | ⟨1, _⟩ => exact Fin.ext h1

theorem gElts_operandIdx (wf) (idx : IVec SE1 32) (j : SE.Idx) :
    (gElts wf).operandIdx j idx = ix1 (clampRow (idx (edgeIdx (j 0)))) := by
  have hsi : (gElts wf).siIdx j ⟨List.idxOf (0 : Fin 1) (gElts wf).startIndexMap,
      List.idxOf_lt_length_iff.2 (List.mem_singleton.mpr rfl)⟩ = edgeIdx (j 0) := by
    funext b; refine Fin.ext ?_
    match b with
    | ⟨0, _⟩ => rfl
    | ⟨1, _⟩ => rfl
  funext a
  obtain rfl : a = 0 := Subsingleton.elim _ _
  refine Fin.ext ?_
  show (gElts wf).start j idx 0 + (gElts wf).batchCoord j 0 + (gElts wf).offCoord j 0 = _
  rw [GatherDims.batchCoord_eq_zero _ _ _ List.not_mem_nil,
    GatherDims.offCoord_eq_zero _ _ _ (fun h => ((GatherDims.mem_sKept _ _).mp h).1 (List.mem_singleton.mpr rfl))]
  simp only [Nat.add_zero]
  unfold GatherDims.start
  rw [dif_pos (show (0 : Fin 1) ∈ (gElts wf).startIndexMap from List.mem_singleton.mpr rfl), hsi]
  rfl

/-- An update that lands on element `i`: its edge's destination word, read signed, is `i`'s row, and its column is `i`'s. -/
theorem sRows_lands (wf) (idx : IVec SE1 32) (j : SEH.Idx) (i : SNH.Idx)
    (h : (sRows wf).resultIdx? j idx = some i) :
    (idx (edgeIdx (j 0))).toInt = ((i 0).val : Int) ∧ j 1 = i 1 := by
  have hsi : (sRows wf).siIdx j ⟨List.idxOf (0 : Fin 2) (sRows wf).scatterDimsToOperandDims,
      List.idxOf_lt_length_iff.2 (List.mem_singleton.mpr rfl)⟩ = edgeIdx (j 0) := by
    funext b; refine Fin.ext ?_
    match b with
    | ⟨0, _⟩ => rfl
    | ⟨1, _⟩ => rfl
  have hs0 : (sRows wf).start j idx 0 = (idx (edgeIdx (j 0))).toInt := by
    unfold ScatterDims.start
    rw [dif_pos (show (0 : Fin 2) ∈ (sRows wf).scatterDimsToOperandDims from List.mem_singleton.mpr rfl), hsi]
  have hw0 : (sRows wf).window j 0 = 0 := by
    unfold ScatterDims.window
    rw [dif_neg (show ¬ ((0 : Fin 2) ∈ SNH.kept [0]) by decide)]
  have hs1 : (sRows wf).start j idx 1 = 0 := by
    unfold ScatterDims.start
    rw [dif_neg (show ¬ ((1 : Fin 2) ∈ ([0] : List (Fin 2))) by decide)]
  have hw1 : (sRows wf).window j 1 = (j 1).val := by
    unfold ScatterDims.window
    rw [dif_pos (show (1 : Fin 2) ∈ SNH.kept [0] by decide)]
    rfl
  unfold ScatterDims.resultIdx? at h
  split at h
  next hall =>
    have hi := Option.some.inj h
    have e0 : ((sRows wf).start j idx 0 + ((sRows wf).window j 0 : Int)).toNat = (i 0).val :=
      congrArg Fin.val (congrFun hi 0)
    have e1 : ((sRows wf).start j idx 1 + ((sRows wf).window j 1 : Int)).toNat = (i 1).val :=
      congrArg Fin.val (congrFun hi 1)
    have b0 := (hall 0).1
    rw [hs0, hw0] at e0 b0
    rw [hs1, hw1] at e1
    refine ⟨by omega, Fin.ext (by omega)⟩
  next => exact absurd h (by simp)

/-- The clamped row of a destination word that lands on row `r` is `r`. -/
theorem clampRow_of_lands (w : BitVec 32) (r : Fin 50000) (h : w.toInt = (r.val : Int)) : clampRow w = r := by
  refine Fin.ext ?_
  show min w.toInt.toNat 49999 = r.val
  have := r.isLt
  omega

/-- THE SCALING LAW. `dis` gives every node a non-negative real factor. Scaling the features of node `p` by `dis p`,
    gathering rows at `src`, adding them into the rows `dst` names, and scaling row `r` of the result by `dis r`
    equals gathering the unscaled rows and scaling the row of edge `e` by `dis (src e) · dis (dstN e)` before adding —
    where `dstN` is any column of words agreeing with `dst` wherever `dst` is non-negative (an update whose destination
    is negative is dropped, so what `dstN` holds there does not matter). Both accumulate onto `zero`, an array of zeros. -/
theorem scatter_scale (wfg wfe wfs) (hW : SNH.Idx → EReal) (dis : SN.Idx → EReal)
    (hdis : ∀ p, ∃ d : ℝ, 0 ≤ d ∧ dis p = (d : EReal))
    (src dst dstN : IVec SE1 32) (hN : ∀ e, 0 ≤ (dst e).toInt → dstN e = dst e)
    (zero : SNH.Idx → EReal) (hz : ∀ i, zero i = 0) (i : SNH.Idx) :
    Ideal.hostScatterAdd (sRows wfs) zero dst
        (Host.gather (gRows wfg) (fun p => hW p * dis (ix1 (p 0))) src) i * dis (ix1 (i 0))
      = Ideal.hostScatterAdd (sRows wfs) zero dst
        (fun j => Host.gather (gRows wfg) hW src j
          * (Host.gather (gElts wfe) dis src (ix1 (j 0)) * Host.gather (gElts wfe) dis dstN (ix1 (j 0)))) i := by
  obtain ⟨d, hd, hdi⟩ := hdis (ix1 (i 0))
  unfold Ideal.hostScatterAdd
  rw [hz, zero_add, zero_add, hdi, sum_mul_coe _ _ hd]
  refine Finset.sum_congr rfl fun j hj => ?_
  obtain ⟨hrow, -⟩ := sRows_lands wfs dst j i (Finset.mem_filter.mp hj).2
  have hdst : dstN (edgeIdx (j 0)) = dst (edgeIdx (j 0)) := hN _ (by rw [hrow]; exact Int.natCast_nonneg _)
  unfold Host.gather
  beta_reduce
  rw [gRows_operandIdx, gElts_operandIdx, gElts_operandIdx]
  show hW _ * dis (ix1 (clampRow (src (edgeIdx (j 0))))) * (d : EReal)
    = hW _ * (dis (ix1 (clampRow (src (edgeIdx (j 0))))) * dis (ix1 (clampRow (dstN (edgeIdx (j 0))))))
  rw [hdst, clampRow_of_lands _ (i 0) hrow, hdi, mul_assoc]

end Cert.Gcn

end
-- ==== Proof.Layers.lean ====
/-
  The network's layers as functions of whole arrays, element by element, on the extended reals.

  `mish y = y · tanh (softplus y)` with `softplus y = max y 0 + log1p (exp (-|y|))`. Both programs spell softplus with a guard
  `if y ≠ y then y + 0 else …` for a not-a-number `y`; on the extended reals `y ≠ y` never holds, so the guard is dead and
  both spellings are `mish`.

  A dense layer multiplies the node features `A : [50000, 128]` by a weight matrix `W : [128, 128]`: element `(r, c)` is
  `∑ k, A (r, k) · W (k, c)`.
-/
import Idealize.ShloMosaic.PureOps.Ideal
import Idealize.ShloMosaic.Lib.ValueIdx
import proofs.«157124_j84301618086373_2_alg».proof.Proof.Edges

noncomputable section

namespace Cert.Gcn

open Idealize.ShloMosaic Idealize.ShloMosaic.ValueIdx

/-- Weights. -/
abbrev SHH : Shape := ⟨2, ![128, 128]⟩
/-- A bias as one row. -/
abbrev S1H : Shape := ⟨2, ![1, 128]⟩
/-- One number per node, as a column. -/
abbrev SN1 : Shape := ⟨2, ![50000, 1]⟩
/-- The last layer's weights: one output column. -/
abbrev SH1 : Shape := ⟨2, ![128, 1]⟩
/-- The last layer's bias. -/
abbrev S11 : Shape := ⟨2, ![1, 1]⟩

/-- `mish y = y · tanh (max y 0 + log1p (exp (-|y|)))`. -/
def mish (y : EReal) : EReal := y * Ideal.tanh (max y 0 + Ideal.log1p (Ideal.exp (-(max y (-y)))))

/-- Mish as a kernel body spells it: the zero a pattern, `-|y|` as `0 - |y|`, the guard an ordered `≠`. -/
def mishK (y : EReal) : EReal :=
  y * Ideal.tanh (Scalar.select (Ideal.cmp .one (y - Ideal.ofBits .f32 0x00000000#32) (y - Ideal.ofBits .f32 0x00000000#32))
    (y + Ideal.ofBits .f32 0x00000000#32)
    (max y (Ideal.ofBits .f32 0x00000000#32) + Ideal.log1p (Ideal.exp (Ideal.ofBits .f32 0x00000000#32
      - max (y - Ideal.ofBits .f32 0x00000000#32) (-(y - Ideal.ofBits .f32 0x00000000#32))))))

/-- Mish as the reference spells it: `-|y|` as a negation, the guard an unordered `≠`. -/
def mishR (y : EReal) : EReal :=
  y * Ideal.tanh (Scalar.select (Ideal.cmp .une (y - Ideal.ofBits .f32 0x00000000#32) (y - Ideal.ofBits .f32 0x00000000#32))
    (y + Ideal.ofBits .f32 0x00000000#32)
    (max y (Ideal.ofBits .f32 0x00000000#32) + Ideal.log1p (Ideal.exp
      (-(max (y - Ideal.ofBits .f32 0x00000000#32) (-(y - Ideal.ofBits .f32 0x00000000#32)))))))

theorem cmp_one_self (a : EReal) : Ideal.cmp .one a a = 0#1 := by simp [Ideal.cmp]
theorem cmp_une_self (a : EReal) : Ideal.cmp .une a a = 0#1 := by simp [Ideal.cmp]

theorem mishK_eq (y : EReal) : mishK y = mish y := by
  unfold mishK mish
  rw [cmp_one_self, select_zero, ofBits_zero, sub_zero, zero_sub]

theorem mishR_eq (y : EReal) : mishR y = mish y := by
  unfold mishR mish
  rw [cmp_une_self, select_zero, ofBits_zero, sub_zero]

/-- A node's factor as the programs compute it — `deg ^ (-1/2)` where `deg > 0`, else `0` — is a non-negative real. -/
theorem factor_real (deg : EReal) :
    ∃ d : ℝ, 0 ≤ d ∧ Scalar.select (Ideal.cmp .ogt deg (Ideal.ofBits .f32 0x00000000#32))
      (Ideal.pow deg (Ideal.ofBits .f32 0xBF000000#32)) (Ideal.ofBits .f32 0x00000000#32) = (d : EReal) := by
  rw [ofBits_zero]
  by_cases h : 0 < deg
  · have hc : Ideal.cmp .ogt deg 0 = 1#1 := by simp [Ideal.cmp, h]
    rw [hc, select_one]; exact pow_neg_half deg h
  · have hc : Ideal.cmp .ogt deg 0 = 0#1 := by simp [Ideal.cmp, h]
    rw [hc, select_zero]; exact ⟨0, le_refl _, rfl⟩

/-- The wrap-around of a negative index word does nothing to a non-negative word. -/
theorem select_nonneg (w a : BitVec 32) (h : 0 ≤ w.toInt) : Scalar.select (IntOp.cmpi .slt w 0#32) a w = w := by
  have hs : w.slt 0#32 = false := by
    rw [BitVec.slt]
    simp only [decide_eq_false_iff_not, not_lt]
    simpa using h
  unfold IntOp.cmpi
  simp only [hs]
  rfl

/-- Rows times weights. -/
def mm (A : SNH.Idx → EReal) (W : SHH.Idx → EReal) : SNH.Idx → EReal :=
  fun i => ∑ k : Fin 128, A (ix2 (i 0) k) * W (ix2 k (i 1))

/-- The input layer: `mish (x W + b)`. -/
def linMish (A : SNH.Idx → EReal) (W : SHH.Idx → EReal) (b : S1H.Idx → EReal) : SNH.Idx → EReal :=
  fun i => mish (mm A W i + b (ix2 (0 : Fin 1) (i 1)))

/-- The convolution's dense half with every node's row scaled by the node's factor. -/
def gcnLin (A : SNH.Idx → EReal) (W : SHH.Idx → EReal) (dcol : SN1.Idx → EReal) : SNH.Idx → EReal :=
  fun i => mm A W i * dcol (ix2 (i 0) (0 : Fin 1))

/-- The layer's fusion: the aggregated messages, scaled per row, plus the convolution's bias, plus the skip path, through mish. -/
def fuse (A : SNH.Idx → EReal) (W : SHH.Idx → EReal) (sb : S1H.Idx → EReal) (agg : SNH.Idx → EReal)
    (gb : S1H.Idx → EReal) (dcol : SN1.Idx → EReal) : SNH.Idx → EReal :=
  fun i => mish ((agg i * dcol (ix2 (i 0) (0 : Fin 1)) + gb (ix2 (0 : Fin 1) (i 1)))
    + (mm A W i + sb (ix2 (0 : Fin 1) (i 1))))

/-- The output layer: `h W + b`, one column. -/
def linOut (A : SNH.Idx → EReal) (W : SH1.Idx → EReal) (b : S11.Idx → EReal) : SN1.Idx → EReal :=
  fun i => (∑ k : Fin 128, A (ix2 (i 0) k) * W (ix2 k (i 1))) + b (ix2 (0 : Fin 1) (0 : Fin 1))

end Cert.Gcn

end
-- ==== Proof.KLayer.lean ====
/-
  One layer of the network as the kernel program computes it, as a function of arrays.

  The kernels read a bias as a one-row array and the nodes' factors as a one-column array (reshapes of the vectors). A layer is
  the fusion of: the features; the skip weights and bias; the messages aggregated along the edges from the dense half's result
  (the features times the convolution's weights, row `p` scaled by node `p`'s factor); the convolution's bias; the factors.
-/
import proofs.«157124_j84301618086373_2_alg».proof.Proof.Gen.KernelIdeal
import proofs.«157124_j84301618086373_2_alg».proof.Proof.Layers

noncomputable section

namespace Cert.KernelIdeal.Chain

open Cert.KernelIdeal Cert.KernelIdeal.Gen Idealize.ShloMosaic Cert.Gcn

/-- A bias vector as the one-row array the kernels read. -/
def rowOf (b : S128.Idx → EReal) : S1x128.Idx → EReal := shapeCast S1x128 b shapeCasts_S128_S1x128
/-- The nodes' factors as the one-column array the kernels read. -/
def colOf (d : S50000.Idx → EReal) : S50000x1.Idx → EReal := shapeCast S50000x1 d shapeCasts_S50000_S50000x1
/-- The output bias as the one-element array the output kernel reads. -/
def oneOf (b : S1.Idx → EReal) : S1x1.Idx → EReal := shapeCast S1x1 b shapeCasts_S1_S1x1

/-- The aggregated messages: the rows of `hws` gathered at the edges' sources `S`, added onto `Z` at the edges' destinations `D`. -/
def aggK (hws : S50000x128.Idx → EReal) (Z : S50000x128.Idx → EReal) (D S : IVec S1650000x1 32) : S50000x128.Idx → EReal :=
  Host.scatterAdd (F := Ideal) (φ := .f32) scatter_S50000x128_S1650000x1_S1650000x128_1_0_0_1 Z D
    (Host.gather gather_S50000x128_S1650000x1_S1650000x128_1_0_n_n_0_1_1128 hws S)

/-- One layer as the kernel program computes it: the dense half scaled per node, aggregated along the edges, fused. -/
def layerK (H : S50000x128.Idx → EReal) (gW sW : S128x128.Idx → EReal) (sb gb : S128.Idx → EReal)
    (dis : S50000.Idx → EReal) (Z : S50000x128.Idx → EReal) (D S : IVec S1650000x1 32) : S50000x128.Idx → EReal :=
  fuse H sW (rowOf sb) (aggK (gcnLin H gW (colOf dis)) Z D S) (rowOf gb) (colOf dis)

end Cert.KernelIdeal.Chain

end
-- ==== Proof.KBody.lean ====
/-
  What one grid step of each kernel computes, element by element, on the extended reals.

  Every kernel works on a block of 5000 node rows. Changing the float format (to bf16 and back) is the identity here, and a
  matrix product onto a zero accumulator is the plain sum over the contracted axis, so at row `p` of the block and
  column `q`:
    * the input layer's step is `mish (∑ k, x (p, k) · w (k, q) + b (0, q))`;
    * the convolution's dense step is `(∑ k, h (p, k) · w (k, q)) · dis (p, 0)`;
    * the fusion step is `mish ((agg (p, q) · dis (p, 0) + gb (0, q)) + (∑ k, h (p, k) · w (k, q) + sb (0, q)))`;
    * the output layer's step is `∑ k, h (p, k) · w (k, 0) + b (0, 0)`.
-/
import proofs.«157124_j84301618086373_2_alg».proof.Proof.Gen.KernelIdeal.Skeleton
import proofs.«157124_j84301618086373_2_alg».proof.Proof.Layers
import Idealize.ShloMosaic.Lib.Pipeline.Value
import Idealize.ShloMosaic.Lib.ValueIdx
import Idealize.ShloMosaic.Lib.ValueLayout
import Idealize.ShloMosaic.PureOps.Ideal.Laws

noncomputable section

namespace Cert.KernelIdeal.Body

open Cert.KernelIdeal Cert.KernelIdeal.Gen Idealize.ShloMosaic Idealize.ShloMosaic.ValueIdx Cert.Gcn

/-! ## Layout operations of the bodies, read at an element -/

/-- A bias row broadcast over the block's rows. -/
theorem row_bcast {α : Type} (x : (⟨2, ![1, 128]⟩ : Shape).Idx → α) (h') (p : Fin 5000) (q : Fin 128) :
    broadcastTo ⟨2, ![5000, 128]⟩ x h' (ix2 p q) = x (ix2 (0 : Fin 1) q) :=
  broadcastTo_1b_ab_apply x _ p q

/-- The output layer's one bias broadcast over the block's rows. -/
theorem one_bcast {α : Type} (x : (⟨2, ![1, 1]⟩ : Shape).Idx → α) (h') (p : Fin 5000) (q : Fin 1) :
    broadcastTo ⟨2, ![5000, 1]⟩ x h' (ix2 p q) = x (ix2 (0 : Fin 1) (0 : Fin 1)) := by
  obtain rfl : q = 0 := Subsingleton.elim _ _
  exact broadcastTo_1b_ab_apply x _ p 0

/-- A column of per-row factors broadcast over the block's columns. -/
theorem col_bcast {α : Type} (x : (⟨2, ![5000, 1]⟩ : Shape).Idx → α) (h') (p : Fin 5000) (q : Fin 128) :
    broadcastTo ⟨2, ![5000, 128]⟩ x h' (ix2 p q) = x (ix2 p (0 : Fin 1)) := by
  refine broadcastTo_apply x h' (ix2 p q) (ix2 p (0 : Fin 1)) fun ax => ?_
  match ax with
  | ⟨0, _⟩ => show p.val = if (5000 : Nat) = 1 then 0 else p.val; rw [if_neg (by decide)]
  | ⟨1, _⟩ => show 0 = if (1 : Nat) = 1 then 0 else q.val; rw [if_pos rfl]

/-! ## The matrix products -/

local notation "D₁" => dot_S5000x128_S128x128_S5000x128_1_0_0_1_n_n
local notation "D₂" => dot_S5000x128_S128x1_S5000x1_1_0_0_1_n_n

theorem lhs₁_0 (i : S5000x128.Idx) (q : (dot_S5000x128_S128x128_S5000x128_1_0_0_1_n_n).contr.Idx) :
    ((dot_S5000x128_S128x128_S5000x128_1_0_0_1_n_n).lhsIdx i q 0).val = (i 0).val := by
  unfold DotDims.lhsIdx
  rw [dif_neg (show ¬(0 : Fin S5000x128.rank) ∈ (dot_S5000x128_S128x128_S5000x128_1_0_0_1_n_n).lhsBatch by decide),
    dif_pos (show (0 : Fin S5000x128.rank) ∈ (dot_S5000x128_S128x128_S5000x128_1_0_0_1_n_n).lhsNonContracting by decide)]
  rfl
theorem rhs₁_1 (i : S5000x128.Idx) (q : (dot_S5000x128_S128x128_S5000x128_1_0_0_1_n_n).contr.Idx) :
    ((dot_S5000x128_S128x128_S5000x128_1_0_0_1_n_n).rhsIdx i q 1).val = (i 1).val := by
  unfold DotDims.rhsIdx
  rw [dif_neg (show ¬(1 : Fin S128x128.rank) ∈ (dot_S5000x128_S128x128_S5000x128_1_0_0_1_n_n).rhsBatch by decide),
    dif_pos (show (1 : Fin S128x128.rank) ∈ (dot_S5000x128_S128x128_S5000x128_1_0_0_1_n_n).rhsNonContracting by decide)]
  rfl

/-- A block of rows times a weight matrix, onto zeros: the sum over the contracted axis. -/
theorem matmul_block (x0 : Vec Ideal S5000x128 .f32) (x1 : Vec Ideal S128x128 .f32) (h0 h1 : FTy.bits .bf16 < FTy.bits .f32) (p : Fin 5000) (q : Fin 128) :
    matmul (F := Ideal) dot_S5000x128_S128x128_S5000x128_1_0_0_1_n_n none (truncf (F := Ideal) (φ := .f32) .bf16 x0 h0) (truncf (F := Ideal) (φ := .f32) .bf16 x1 h1)
      (constant (F := Ideal) S5000x128 .f32 0x00000000#32) (ix2 p q) = ∑ k : Fin 128, x0 (ix2 p k) * x1 (ix2 k q) := by
  simp only [matmul]
  rw [Ideal.matmul_constant_zero_apply,
    ← Equiv.sum_comp (contrEquiv1 dot_S5000x128_S128x128_S5000x128_1_0_0_1_n_n 128 rfl rfl).symm]
  refine Finset.sum_congr rfl fun k _ => ?_
  have hk := contrEquiv1_symm_val dot_S5000x128_S128x128_S5000x128_1_0_0_1_n_n 128 rfl rfl k
  have el : (dot_S5000x128_S128x128_S5000x128_1_0_0_1_n_n).lhsIdx (ix2 p q)
      ((contrEquiv1 dot_S5000x128_S128x128_S5000x128_1_0_0_1_n_n 128 rfl rfl).symm k) = ix2 p k :=
    funext fun a => Fin.ext (by
      match a with
      | ⟨0, _⟩ => exact lhs₁_0 _ _
      | ⟨1, _⟩ => exact ((dot_S5000x128_S128x128_S5000x128_1_0_0_1_n_n).lhsIdx_val_of_single rfl _ _).trans hk)
  have er : (dot_S5000x128_S128x128_S5000x128_1_0_0_1_n_n).rhsIdx (ix2 p q)
      ((contrEquiv1 dot_S5000x128_S128x128_S5000x128_1_0_0_1_n_n 128 rfl rfl).symm k) = ix2 k q :=
    funext fun a => Fin.ext (by
      match a with
      | ⟨0, _⟩ => exact ((dot_S5000x128_S128x128_S5000x128_1_0_0_1_n_n).rhsIdx_val_of_single rfl _ _).trans hk
      | ⟨1, _⟩ => exact rhs₁_1 _ _)
  show x0 _ * x1 _ = _
  rw [el, er]

theorem lhs₂_0 (i : S5000x1.Idx) (q : (dot_S5000x128_S128x1_S5000x1_1_0_0_1_n_n).contr.Idx) :
    ((dot_S5000x128_S128x1_S5000x1_1_0_0_1_n_n).lhsIdx i q 0).val = (i 0).val := by
  unfold DotDims.lhsIdx
  rw [dif_neg (show ¬(0 : Fin S5000x128.rank) ∈ (dot_S5000x128_S128x1_S5000x1_1_0_0_1_n_n).lhsBatch by decide),
    dif_pos (show (0 : Fin S5000x128.rank) ∈ (dot_S5000x128_S128x1_S5000x1_1_0_0_1_n_n).lhsNonContracting by decide)]
  rfl
theorem rhs₂_1 (i : S5000x1.Idx) (q : (dot_S5000x128_S128x1_S5000x1_1_0_0_1_n_n).contr.Idx) :
    ((dot_S5000x128_S128x1_S5000x1_1_0_0_1_n_n).rhsIdx i q 1).val = (i 1).val := by
  unfold DotDims.rhsIdx
  rw [dif_neg (show ¬(1 : Fin S128x1.rank) ∈ (dot_S5000x128_S128x1_S5000x1_1_0_0_1_n_n).rhsBatch by decide),
    dif_pos (show (1 : Fin S128x1.rank) ∈ (dot_S5000x128_S128x1_S5000x1_1_0_0_1_n_n).rhsNonContracting by decide)]
  rfl

/-- A block of rows times the output layer's one column of weights. -/
theorem matmul_block_out (x0 : Vec Ideal S5000x128 .f32) (x1 : Vec Ideal S128x1 .f32) (h0 h1 : FTy.bits .bf16 < FTy.bits .f32) (p : Fin 5000) (q : Fin 1) :
    matmul (F := Ideal) dot_S5000x128_S128x1_S5000x1_1_0_0_1_n_n none (truncf (F := Ideal) (φ := .f32) .bf16 x0 h0) (truncf (F := Ideal) (φ := .f32) .bf16 x1 h1)
      (constant (F := Ideal) S5000x1 .f32 0x00000000#32) (ix2 p q) = ∑ k : Fin 128, x0 (ix2 p k) * x1 (ix2 k q) := by
  simp only [matmul]
  rw [Ideal.matmul_constant_zero_apply,
    ← Equiv.sum_comp (contrEquiv1 dot_S5000x128_S128x1_S5000x1_1_0_0_1_n_n 128 rfl rfl).symm]
  refine Finset.sum_congr rfl fun k _ => ?_
  have hk := contrEquiv1_symm_val dot_S5000x128_S128x1_S5000x1_1_0_0_1_n_n 128 rfl rfl k
  have el : (dot_S5000x128_S128x1_S5000x1_1_0_0_1_n_n).lhsIdx (ix2 p q)
      ((contrEquiv1 dot_S5000x128_S128x1_S5000x1_1_0_0_1_n_n 128 rfl rfl).symm k) = ix2 p k :=
    funext fun a => Fin.ext (by
      match a with
      | ⟨0, _⟩ => exact lhs₂_0 _ _
      | ⟨1, _⟩ => exact ((dot_S5000x128_S128x1_S5000x1_1_0_0_1_n_n).lhsIdx_val_of_single rfl _ _).trans hk)
  have er : (dot_S5000x128_S128x1_S5000x1_1_0_0_1_n_n).rhsIdx (ix2 p q)
      ((contrEquiv1 dot_S5000x128_S128x1_S5000x1_1_0_0_1_n_n 128 rfl rfl).symm k) = ix2 k q :=
    funext fun a => Fin.ext (by
      match a with
      | ⟨0, _⟩ => exact ((dot_S5000x128_S128x1_S5000x1_1_0_0_1_n_n).rhsIdx_val_of_single rfl _ _).trans hk
      | ⟨1, _⟩ => exact rhs₂_1 _ _)
  show x0 _ * x1 _ = _
  rw [el, er]

/-! ## The four bodies -/

/-- The input layer's step. -/
theorem inputStep (x0 : Vec Ideal S5000x128 .f32) (x1 : Vec Ideal S128x128 .f32) (x2 : Vec Ideal S1x128 .f32)
    (p : Fin 5000) (q : Fin 128) :
    k0_pay1 (F := Ideal) x0 x1 x2 (ix2 p q) = mish ((∑ k : Fin 128, x0 (ix2 p k) * x1 (ix2 k q)) + x2 (ix2 (0 : Fin 1) q)) := by
  refine Eq.trans ?_ (mishK_eq _)
  unfold k0_pay1
  simp only [shapeCast_self]
  show mishK (matmul (F := Ideal) dot_S5000x128_S128x128_S5000x128_1_0_0_1_n_n none (truncf (F := Ideal) (φ := .f32) .bf16 x0 _) (truncf (F := Ideal) (φ := .f32) .bf16 x1 _)
      (constant (F := Ideal) S5000x128 .f32 0x00000000#32) (ix2 p q)
    + broadcastTo S5000x128 x2 _ (ix2 p q)) = _
  rw [matmul_block, row_bcast]

/-- The convolution's dense step: the product, each row scaled by its node's factor. -/
theorem denseStep (x0 : Vec Ideal S5000x128 .f32) (x1 : Vec Ideal S128x128 .f32) (x2 : Vec Ideal S5000x1 .f32)
    (p : Fin 5000) (q : Fin 128) :
    k1_pay1 (F := Ideal) x0 x1 x2 (ix2 p q) = (∑ k : Fin 128, x0 (ix2 p k) * x1 (ix2 k q)) * x2 (ix2 p (0 : Fin 1)) := by
  unfold k1_pay1
  simp only [shapeCast_self]
  show matmul (F := Ideal) dot_S5000x128_S128x128_S5000x128_1_0_0_1_n_n none (truncf (F := Ideal) (φ := .f32) .bf16 x0 _) (truncf (F := Ideal) (φ := .f32) .bf16 x1 _)
      (constant (F := Ideal) S5000x128 .f32 0x00000000#32) (ix2 p q)
    * broadcastTo S5000x128 x2 _ (ix2 p q) = _
  rw [matmul_block, col_bcast]

/-- The fusion step, of the block's features `x0`, the skip weights `x1` and bias `x2`, the aggregated messages `x3`, the
    nodes' factors `x4` and the convolution's bias `x5`. -/
theorem fuseStep (x0 : Vec Ideal S5000x128 .f32) (x1 : Vec Ideal S128x128 .f32) (x2 : Vec Ideal S1x128 .f32)
    (x3 : Vec Ideal S5000x128 .f32) (x4 : Vec Ideal S5000x1 .f32) (x5 : Vec Ideal S1x128 .f32) (p : Fin 5000) (q : Fin 128) :
    k2_pay1 (F := Ideal) x0 x1 x2 x3 x4 x5 (ix2 p q)
      = mish ((x3 (ix2 p q) * x4 (ix2 p (0 : Fin 1)) + x5 (ix2 (0 : Fin 1) q))
        + ((∑ k : Fin 128, x0 (ix2 p k) * x1 (ix2 k q)) + x2 (ix2 (0 : Fin 1) q))) := by
  refine Eq.trans ?_ (mishK_eq _)
  unfold k2_pay1
  simp only [shapeCast_self]
  show mishK ((x3 (ix2 p q) * broadcastTo S5000x128 x4 _ (ix2 p q) + broadcastTo S5000x128 x5 _ (ix2 p q))
    + (matmul (F := Ideal) dot_S5000x128_S128x128_S5000x128_1_0_0_1_n_n none (truncf (F := Ideal) (φ := .f32) .bf16 x0 _) (truncf (F := Ideal) (φ := .f32) .bf16 x1 _)
        (constant (F := Ideal) S5000x128 .f32 0x00000000#32) (ix2 p q)
      + broadcastTo S5000x128 x2 _ (ix2 p q))) = _
  rw [matmul_block, col_bcast, row_bcast, row_bcast]

/-- The output layer's step. -/
theorem outStep (x0 : Vec Ideal S5000x128 .f32) (x1 : Vec Ideal S128x1 .f32) (x2 : Vec Ideal S1x1 .f32)
    (p : Fin 5000) (q : Fin 1) :
    k7_pay1 (F := Ideal) x0 x1 x2 (ix2 p q)
      = (∑ k : Fin 128, x0 (ix2 p k) * x1 (ix2 k q)) + x2 (ix2 (0 : Fin 1) (0 : Fin 1)) := by
  unfold k7_pay1
  simp only [shapeCast_self]
  show matmul (F := Ideal) dot_S5000x128_S128x1_S5000x1_1_0_0_1_n_n none (truncf (F := Ideal) (φ := .f32) .bf16 x0 _) (truncf (F := Ideal) (φ := .f32) .bf16 x1 _)
      (constant (F := Ideal) S5000x1 .f32 0x00000000#32) (ix2 p q)
    + broadcastTo S5000x1 x2 _ (ix2 p q) = _
  rw [matmul_block_out, one_bcast]

/-! The convolution runs three times: the later layers' kernels are the first layer's, term for term. -/

theorem dense3 : k3_pay1 (F := Ideal) = k1_pay1 := rfl
theorem dense5 : k5_pay1 (F := Ideal) = k1_pay1 := rfl
theorem fuse4 : k4_pay1 (F := Ideal) = k2_pay1 := rfl
theorem fuse6 : k6_pay1 (F := Ideal) = k2_pay1 := rfl

end Cert.KernelIdeal.Body

end
-- ==== Proof.RegionIn.lean ====
/-
  The input layer's kernel region: its result array as one function of the arrays it reads.
-/
import proofs.«157124_j84301618086373_2_alg».proof.Proof.Gen.KernelIdeal.Frame
import proofs.«157124_j84301618086373_2_alg».proof.Proof.KBody

set_option maxRecDepth 16384

noncomputable section

namespace Cert.KernelIdeal.RegionIn

open Cert.KernelIdeal Cert.KernelIdeal.Gen Cert.KernelIdeal.Body Idealize.ShloMosaic Idealize.ShloMosaic.TcCoe
  Idealize.ShloMosaic.ValueIdx Idealize.SL.Sem Cert.Gcn
open Idealize.ShloMosaic.Pipeline (Dat Cfg Window)

variable (V : (c : Dev nD) → (b : Ref sig .tc) → Buf (Elt Ideal) ((c : Thread nD τ).loc b))

theorem zeroOffsets : (![0, 0] : Fin 2 → Nat) = fun _ => 0 := funext fun a => by fin_cases a <;> rfl

/-! ## The input layer: region 0

The grid has ten points; point `t` reads rows `[5000 t, 5000 t + 5000)` of the features, the whole weight matrix and the whole
bias row, and writes the same rows of the result. So the result array is `linMish` of the three arrays as the region finds them. -/

/-- The printed index maps, decided over the grid: the feature and result blocks are block row `t` at point `t`; the weights
    and the bias stay at block (0, 0). -/
theorem idx0 : ∀ t : Fin cfg0.N, win0_0.index t (0 : Fin 2) = t.val
    ∧ win0_0.index t (1 : Fin 2) = 0
    ∧ win0_1.index t (0 : Fin 2) = 0
    ∧ win0_1.index t (1 : Fin 2) = 0
    ∧ win0_2.index t (0 : Fin 2) = 0
    ∧ win0_2.index t (1 : Fin 2) = 0
    ∧ win0_3.index t (0 : Fin 2) = t.val
    ∧ win0_3.index t (1 : Fin 2) = 0 :=
  (by decide +kernel : ∀ t : Fin grid0.N, _)

/-- What point `t` writes back is block `t` of the region's result. -/
theorem flushed0 (c : Dev nD) (t : Fin cfg0.N) :
    (dat0 V c).flushed 3 t = ((cfg0.win 3).blk t).view.read (Elt Ideal)
      (linMish (V c main_arg0) (V c main_arg2) (V c main_v17)) := by
  show (cfg0.win 3).cut (grid0.coords t) ((dat0 V c).after 3 t) = _
  rw [after0_3]
  unfold out0_3
  rw [View.canon_unit_zero zeroOffsets]
  simp only [View.ld_unit_zero (S := S5000x128) zeroOffsets, View.ld_unit_zero (S := S128x128) zeroOffsets, View.ld_unit_zero (S := S1x128) zeroOffsets]
  obtain ⟨e0, e1, e2, e3, e4, e5, e6, e7⟩ := idx0 t
  funext y
  obtain ⟨p, q, rfl⟩ : ∃ (p : Fin 5000) (q : Fin 128), y = ix2 p q := ⟨y 0, y 1, eq_ix2 y⟩
  refine (inputStep (iblk0 V c 0 t) (iblk0 V c 1 t) (iblk0 V c 2 t) p q).trans ?_
  have hrow : ∀ k : Fin 128, ((cfg0.win 0).blk t).view.emb (ix2 p k)
      = ix2 ((((cfg0.win 3).blk t).view.emb (ix2 p q)) 0) k := fun k => by
    funext a; apply Fin.ext
    match a with
    | ⟨0, _⟩ => show win0_0.index t (0 : Fin 2) * 5000 + 1 * p.val = win0_3.index t (0 : Fin 2) * 5000 + 1 * p.val; omega
    | ⟨1, _⟩ => show win0_0.index t (1 : Fin 2) * 128 + 1 * k.val = k.val; omega
  have hw : ∀ k : Fin 128, ((cfg0.win 1).blk t).view.emb (ix2 k q)
      = ix2 k ((((cfg0.win 3).blk t).view.emb (ix2 p q)) 1) := fun k => by
    funext a; apply Fin.ext
    match a with
    | ⟨0, _⟩ => show win0_1.index t (0 : Fin 2) * 128 + 1 * k.val = k.val; omega
    | ⟨1, _⟩ => show win0_1.index t (1 : Fin 2) * 128 + 1 * q.val = win0_3.index t (1 : Fin 2) * 128 + 1 * q.val; omega
  have hb : ((cfg0.win 2).blk t).view.emb (ix2 (0 : Fin 1) q)
      = ix2 (0 : Fin 1) ((((cfg0.win 3).blk t).view.emb (ix2 p q)) 1) := by
    funext a; apply Fin.ext
    match a with
    | ⟨0, _⟩ => show win0_2.index t (0 : Fin 2) * 1 + 1 * 0 = 0; omega
    | ⟨1, _⟩ => show win0_2.index t (1 : Fin 2) * 128 + 1 * q.val = win0_3.index t (1 : Fin 2) * 128 + 1 * q.val; omega
  rw [View.read_apply]
  unfold linMish mm
  refine congrArg mish (congr (congrArg HAdd.hAdd (Finset.sum_congr rfl fun k _ => ?_)) ?_)
  · exact congr (congrArg HMul.hMul (congrArg (V c main_arg0) (hrow k))) (congrArg (V c main_arg2) (hw k))
  · exact congrArg (V c main_v17) hb

/-- The result array after the region. -/
theorem region0 (c : Dev nD) :
    (dat0 V c).arrAt 3 cfg0.N = linMish (V c main_arg0) (V c main_arg2) (V c main_v17) := by
  have hN : cfg0.N = 10 := N_0
  refine (dat0 V c).arrAt_eq_of_cover 3 _ (fun t _ => flushed0 V c t) fun i => ?_
  have hi0 : (i 0).val < 50000 := (i 0).isLt
  have hi1 : (i 1).val < 128 := (i 1).isLt
  have ht : (i 0).val / 5000 < cfg0.N := by rw [hN]; omega
  obtain ⟨e0, e1, e2, e3, e4, e5, e6, e7⟩ := idx0 ⟨(i 0).val / 5000, ht⟩
  refine ⟨⟨(i 0).val / 5000, ht⟩, flush0_3 _, ?_⟩
  show i ∈ ((View.whole main_v18).slice (win0_3.rect ⟨(i 0).val / 5000, ht⟩)).set
  rw [View.set_slice_whole, Rect.mem_set_unit]
  intro a
  match a with
  | ⟨0, _⟩ =>
    show win0_3.index ⟨(i 0).val / 5000, ht⟩ (0 : Fin 2) * 5000 ≤ (i 0).val
      ∧ (i 0).val < win0_3.index ⟨(i 0).val / 5000, ht⟩ (0 : Fin 2) * 5000 + 5000
    rw [e6]; show (i 0).val / 5000 * 5000 ≤ (i 0).val ∧ (i 0).val < (i 0).val / 5000 * 5000 + 5000; omega
  | ⟨1, _⟩ =>
    show win0_3.index ⟨(i 0).val / 5000, ht⟩ (1 : Fin 2) * 128 ≤ (i 1).val
      ∧ (i 1).val < win0_3.index ⟨(i 0).val / 5000, ht⟩ (1 : Fin 2) * 128 + 128
    rw [e7]; omega

end Cert.KernelIdeal.RegionIn

end
-- ==== Proof.RegionDense.lean ====
/-
  The three dense regions of the convolutions: each result array as one function of the arrays the region reads.
-/
import proofs.«157124_j84301618086373_2_alg».proof.Proof.Gen.KernelIdeal.Frame
import proofs.«157124_j84301618086373_2_alg».proof.Proof.KBody

set_option maxRecDepth 16384

noncomputable section

namespace Cert.KernelIdeal.RegionDense

open Cert.KernelIdeal Cert.KernelIdeal.Gen Cert.KernelIdeal.Body Idealize.ShloMosaic Idealize.ShloMosaic.TcCoe
  Idealize.ShloMosaic.ValueIdx Idealize.SL.Sem Cert.Gcn
open Idealize.ShloMosaic.Pipeline (Dat Cfg Window)

variable (V : (c : Dev nD) → (b : Ref sig .tc) → Buf (Elt Ideal) ((c : Thread nD τ).loc b))

theorem zeroOffsets : (![0, 0] : Fin 2 → Nat) = fun _ => 0 := funext fun a => by fin_cases a <;> rfl

/-! ## The convolution's dense half: region 1 -/

/-- The index maps over the grid: features, factors and result at block row `t`; the weights at block (0, 0). -/
theorem idx1 : ∀ t : Fin cfg1.N, win1_0.index t (0 : Fin 2) = t.val
    ∧ win1_0.index t (1 : Fin 2) = 0
    ∧ win1_1.index t (0 : Fin 2) = 0
    ∧ win1_1.index t (1 : Fin 2) = 0
    ∧ win1_2.index t (0 : Fin 2) = t.val
    ∧ win1_2.index t (1 : Fin 2) = 0
    ∧ win1_3.index t (0 : Fin 2) = t.val
    ∧ win1_3.index t (1 : Fin 2) = 0 :=
  (by decide +kernel : ∀ t : Fin grid1.N, _)

set_option maxHeartbeats 2000000 in
/-- What point `t` writes back is block `t` of the region's result. -/
theorem flushed1 (c : Dev nD) (t : Fin cfg1.N) :
    (dat1 V c).flushed 3 t = ((cfg1.win 3).blk t).view.read (Elt Ideal)
      (gcnLin (V c main_v18) (V c main_v20) (V c main_v16)) := by
  show (cfg1.win 3).cut (grid1.coords t) ((dat1 V c).after 3 t) = _
  rw [after1_3]
  unfold out1_3
  rw [View.canon_unit_zero zeroOffsets]
  simp only [View.ld_unit_zero (S := S5000x128) zeroOffsets, View.ld_unit_zero (S := S128x128) zeroOffsets, View.ld_unit_zero (S := S5000x1) zeroOffsets]
  obtain ⟨e0, e1, e2, e3, e4, e5, e6, e7⟩ := idx1 t
  funext y
  obtain ⟨p, q, rfl⟩ : ∃ (p : Fin 5000) (q : Fin 128), y = ix2 p q := ⟨y 0, y 1, eq_ix2 y⟩
  refine (denseStep (iblk1 V c 0 t) (iblk1 V c 1 t) (iblk1 V c 2 t) p q).trans ?_
  have hrow : ∀ k : Fin 128, ((cfg1.win 0).blk t).view.emb (ix2 p k)
      = ix2 ((((cfg1.win 3).blk t).view.emb (ix2 p q)) 0) k := fun k => by
    funext a; apply Fin.ext
    match a with
    | ⟨0, _⟩ => show win1_0.index t (0 : Fin 2) * 5000 + 1 * p.val = win1_3.index t (0 : Fin 2) * 5000 + 1 * p.val; omega
    | ⟨1, _⟩ => show win1_0.index t (1 : Fin 2) * 128 + 1 * k.val = k.val; omega
  have hw : ∀ k : Fin 128, ((cfg1.win 1).blk t).view.emb (ix2 k q)
      = ix2 k ((((cfg1.win 3).blk t).view.emb (ix2 p q)) 1) := fun k => by
    funext a; apply Fin.ext
    match a with
    | ⟨0, _⟩ => show win1_1.index t (0 : Fin 2) * 128 + 1 * k.val = k.val; omega
    | ⟨1, _⟩ => show win1_1.index t (1 : Fin 2) * 128 + 1 * q.val = win1_3.index t (1 : Fin 2) * 128 + 1 * q.val; omega
  have hd : ((cfg1.win 2).blk t).view.emb (ix2 p (0 : Fin 1))
      = ix2 ((((cfg1.win 3).blk t).view.emb (ix2 p q)) 0) (0 : Fin 1) := by
    funext a; apply Fin.ext
    match a with
    | ⟨0, _⟩ => show win1_2.index t (0 : Fin 2) * 5000 + 1 * p.val = win1_3.index t (0 : Fin 2) * 5000 + 1 * p.val; omega
    | ⟨1, _⟩ => show win1_2.index t (1 : Fin 2) * 1 + 1 * 0 = 0; omega
  show _ = gcnLin (V c main_v18) (V c main_v20) (V c main_v16) (((cfg1.win 3).blk t).view.emb (ix2 p q))
  unfold gcnLin mm
  refine congr (congrArg HMul.hMul (Finset.sum_congr rfl fun k _ => ?_)) ?_
  · exact congr (congrArg HMul.hMul (congrArg (V c main_v18) (hrow k))) (congrArg (V c main_v20) (hw k))
  · exact congrArg (V c main_v16) hd

/-- The result array after the region. -/
theorem region1 (c : Dev nD) :
    (dat1 V c).arrAt 3 cfg1.N = gcnLin (V c main_v18) (V c main_v20) (V c main_v16) := by
  have hN : cfg1.N = 10 := N_1
  refine (dat1 V c).arrAt_eq_of_cover 3 _ (fun t _ => flushed1 V c t) fun i => ?_
  have hi0 : (i 0).val < 50000 := (i 0).isLt
  have hi1 : (i 1).val < 128 := (i 1).isLt
  have ht : (i 0).val / 5000 < cfg1.N := by rw [hN]; omega
  obtain ⟨e0, e1, e2, e3, e4, e5, e6, e7⟩ := idx1 ⟨(i 0).val / 5000, ht⟩
  refine ⟨⟨(i 0).val / 5000, ht⟩, flush1_3 _, ?_⟩
  show i ∈ ((View.whole main_v21).slice (win1_3.rect ⟨(i 0).val / 5000, ht⟩)).set
  rw [View.set_slice_whole, Rect.mem_set_unit]
  intro a
  match a with
  | ⟨0, _⟩ =>
    show win1_3.index ⟨(i 0).val / 5000, ht⟩ (0 : Fin 2) * 5000 ≤ (i 0).val
      ∧ (i 0).val < win1_3.index ⟨(i 0).val / 5000, ht⟩ (0 : Fin 2) * 5000 + 5000
    rw [e6]; show (i 0).val / 5000 * 5000 ≤ (i 0).val ∧ (i 0).val < (i 0).val / 5000 * 5000 + 5000; omega
  | ⟨1, _⟩ =>
    show win1_3.index ⟨(i 0).val / 5000, ht⟩ (1 : Fin 2) * 128 ≤ (i 1).val
      ∧ (i 1).val < win1_3.index ⟨(i 0).val / 5000, ht⟩ (1 : Fin 2) * 128 + 128
    rw [e7]; omega

/-! ## The convolution's dense half: region 3 -/

/-- The index maps over the grid: features, factors and result at block row `t`; the weights at block (0, 0). -/
theorem idx3 : ∀ t : Fin cfg3.N, win3_0.index t (0 : Fin 2) = t.val
    ∧ win3_0.index t (1 : Fin 2) = 0
    ∧ win3_1.index t (0 : Fin 2) = 0
    ∧ win3_1.index t (1 : Fin 2) = 0
    ∧ win3_2.index t (0 : Fin 2) = t.val
    ∧ win3_2.index t (1 : Fin 2) = 0
    ∧ win3_3.index t (0 : Fin 2) = t.val
    ∧ win3_3.index t (1 : Fin 2) = 0 :=
  (by decide +kernel : ∀ t : Fin grid3.N, _)

set_option maxHeartbeats 2000000 in
/-- What point `t` writes back is block `t` of the region's result. -/
theorem flushed3 (c : Dev nD) (t : Fin cfg3.N) :
    (dat3 V c).flushed 3 t = ((cfg3.win 3).blk t).view.read (Elt Ideal)
      (gcnLin (V c main_v40) (V c main_v42) (V c main_v16)) := by
  show (cfg3.win 3).cut (grid3.coords t) ((dat3 V c).after 3 t) = _
  rw [after3_3]
  unfold out3_3
  rw [dense3]
  rw [View.canon_unit_zero zeroOffsets]
  simp only [View.ld_unit_zero (S := S5000x128) zeroOffsets, View.ld_unit_zero (S := S128x128) zeroOffsets, View.ld_unit_zero (S := S5000x1) zeroOffsets]
  obtain ⟨e0, e1, e2, e3, e4, e5, e6, e7⟩ := idx3 t
  funext y
  obtain ⟨p, q, rfl⟩ : ∃ (p : Fin 5000) (q : Fin 128), y = ix2 p q := ⟨y 0, y 1, eq_ix2 y⟩
  refine (denseStep (iblk3 V c 0 t) (iblk3 V c 1 t) (iblk3 V c 2 t) p q).trans ?_
  have hrow : ∀ k : Fin 128, ((cfg3.win 0).blk t).view.emb (ix2 p k)
      = ix2 ((((cfg3.win 3).blk t).view.emb (ix2 p q)) 0) k := fun k => by
    funext a; apply Fin.ext
    match a with
    | ⟨0, _⟩ => show win3_0.index t (0 : Fin 2) * 5000 + 1 * p.val = win3_3.index t (0 : Fin 2) * 5000 + 1 * p.val; omega
    | ⟨1, _⟩ => show win3_0.index t (1 : Fin 2) * 128 + 1 * k.val = k.val; omega
  have hw : ∀ k : Fin 128, ((cfg3.win 1).blk t).view.emb (ix2 k q)
      = ix2 k ((((cfg3.win 3).blk t).view.emb (ix2 p q)) 1) := fun k => by
    funext a; apply Fin.ext
    match a with
    | ⟨0, _⟩ => show win3_1.index t (0 : Fin 2) * 128 + 1 * k.val = k.val; omega
    | ⟨1, _⟩ => show win3_1.index t (1 : Fin 2) * 128 + 1 * q.val = win3_3.index t (1 : Fin 2) * 128 + 1 * q.val; omega
  have hd : ((cfg3.win 2).blk t).view.emb (ix2 p (0 : Fin 1))
      = ix2 ((((cfg3.win 3).blk t).view.emb (ix2 p q)) 0) (0 : Fin 1) := by
    funext a; apply Fin.ext
    match a with
    | ⟨0, _⟩ => show win3_2.index t (0 : Fin 2) * 5000 + 1 * p.val = win3_3.index t (0 : Fin 2) * 5000 + 1 * p.val; omega
    | ⟨1, _⟩ => show win3_2.index t (1 : Fin 2) * 1 + 1 * 0 = 0; omega
  show _ = gcnLin (V c main_v40) (V c main_v42) (V c main_v16) (((cfg3.win 3).blk t).view.emb (ix2 p q))
  unfold gcnLin mm
  refine congr (congrArg HMul.hMul (Finset.sum_congr rfl fun k _ => ?_)) ?_
  · exact congr (congrArg HMul.hMul (congrArg (V c main_v40) (hrow k))) (congrArg (V c main_v42) (hw k))
  · exact congrArg (V c main_v16) hd

/-- The result array after the region. -/
theorem region3 (c : Dev nD) :
    (dat3 V c).arrAt 3 cfg3.N = gcnLin (V c main_v40) (V c main_v42) (V c main_v16) := by
  have hN : cfg3.N = 10 := N_3
  refine (dat3 V c).arrAt_eq_of_cover 3 _ (fun t _ => flushed3 V c t) fun i => ?_
  have hi0 : (i 0).val < 50000 := (i 0).isLt
  have hi1 : (i 1).val < 128 := (i 1).isLt
  have ht : (i 0).val / 5000 < cfg3.N := by rw [hN]; omega
  obtain ⟨e0, e1, e2, e3, e4, e5, e6, e7⟩ := idx3 ⟨(i 0).val / 5000, ht⟩
  refine ⟨⟨(i 0).val / 5000, ht⟩, flush3_3 _, ?_⟩
  show i ∈ ((View.whole main_v43).slice (win3_3.rect ⟨(i 0).val / 5000, ht⟩)).set
  rw [View.set_slice_whole, Rect.mem_set_unit]
  intro a
  match a with
  | ⟨0, _⟩ =>
    show win3_3.index ⟨(i 0).val / 5000, ht⟩ (0 : Fin 2) * 5000 ≤ (i 0).val
      ∧ (i 0).val < win3_3.index ⟨(i 0).val / 5000, ht⟩ (0 : Fin 2) * 5000 + 5000
    rw [e6]; show (i 0).val / 5000 * 5000 ≤ (i 0).val ∧ (i 0).val < (i 0).val / 5000 * 5000 + 5000; omega
  | ⟨1, _⟩ =>
    show win3_3.index ⟨(i 0).val / 5000, ht⟩ (1 : Fin 2) * 128 ≤ (i 1).val
      ∧ (i 1).val < win3_3.index ⟨(i 0).val / 5000, ht⟩ (1 : Fin 2) * 128 + 128
    rw [e7]; omega

/-! ## The convolution's dense half: region 5 -/

/-- The index maps over the grid: features, factors and result at block row `t`; the weights at block (0, 0). -/
theorem idx5 : ∀ t : Fin cfg5.N, win5_0.index t (0 : Fin 2) = t.val
    ∧ win5_0.index t (1 : Fin 2) = 0
    ∧ win5_1.index t (0 : Fin 2) = 0
    ∧ win5_1.index t (1 : Fin 2) = 0
    ∧ win5_2.index t (0 : Fin 2) = t.val
    ∧ win5_2.index t (1 : Fin 2) = 0
    ∧ win5_3.index t (0 : Fin 2) = t.val
    ∧ win5_3.index t (1 : Fin 2) = 0 :=
  (by decide +kernel : ∀ t : Fin grid5.N, _)

set_option maxHeartbeats 2000000 in
/-- What point `t` writes back is block `t` of the region's result. -/
theorem flushed5 (c : Dev nD) (t : Fin cfg5.N) :
    (dat5 V c).flushed 3 t = ((cfg5.win 3).blk t).view.read (Elt Ideal)
      (gcnLin (V c main_v62) (V c main_v64) (V c main_v16)) := by
  show (cfg5.win 3).cut (grid5.coords t) ((dat5 V c).after 3 t) = _
  rw [after5_3]
  unfold out5_3
  rw [dense5]
  rw [View.canon_unit_zero zeroOffsets]
  simp only [View.ld_unit_zero (S := S5000x128) zeroOffsets, View.ld_unit_zero (S := S128x128) zeroOffsets, View.ld_unit_zero (S := S5000x1) zeroOffsets]
  obtain ⟨e0, e1, e2, e3, e4, e5, e6, e7⟩ := idx5 t
  funext y
  obtain ⟨p, q, rfl⟩ : ∃ (p : Fin 5000) (q : Fin 128), y = ix2 p q := ⟨y 0, y 1, eq_ix2 y⟩
  refine (denseStep (iblk5 V c 0 t) (iblk5 V c 1 t) (iblk5 V c 2 t) p q).trans ?_
  have hrow : ∀ k : Fin 128, ((cfg5.win 0).blk t).view.emb (ix2 p k)
      = ix2 ((((cfg5.win 3).blk t).view.emb (ix2 p q)) 0) k := fun k => by
    funext a; apply Fin.ext
    match a with
    | ⟨0, _⟩ => show win5_0.index t (0 : Fin 2) * 5000 + 1 * p.val = win5_3.index t (0 : Fin 2) * 5000 + 1 * p.val; omega
    | ⟨1, _⟩ => show win5_0.index t (1 : Fin 2) * 128 + 1 * k.val = k.val; omega
  have hw : ∀ k : Fin 128, ((cfg5.win 1).blk t).view.emb (ix2 k q)
      = ix2 k ((((cfg5.win 3).blk t).view.emb (ix2 p q)) 1) := fun k => by
    funext a; apply Fin.ext
    match a with
    | ⟨0, _⟩ => show win5_1.index t (0 : Fin 2) * 128 + 1 * k.val = k.val; omega
    | ⟨1, _⟩ => show win5_1.index t (1 : Fin 2) * 128 + 1 * q.val = win5_3.index t (1 : Fin 2) * 128 + 1 * q.val; omega
  have hd : ((cfg5.win 2).blk t).view.emb (ix2 p (0 : Fin 1))
      = ix2 ((((cfg5.win 3).blk t).view.emb (ix2 p q)) 0) (0 : Fin 1) := by
    funext a; apply Fin.ext
    match a with
    | ⟨0, _⟩ => show win5_2.index t (0 : Fin 2) * 5000 + 1 * p.val = win5_3.index t (0 : Fin 2) * 5000 + 1 * p.val; omega
    | ⟨1, _⟩ => show win5_2.index t (1 : Fin 2) * 1 + 1 * 0 = 0; omega
  show _ = gcnLin (V c main_v62) (V c main_v64) (V c main_v16) (((cfg5.win 3).blk t).view.emb (ix2 p q))
  unfold gcnLin mm
  refine congr (congrArg HMul.hMul (Finset.sum_congr rfl fun k _ => ?_)) ?_
  · exact congr (congrArg HMul.hMul (congrArg (V c main_v62) (hrow k))) (congrArg (V c main_v64) (hw k))
  · exact congrArg (V c main_v16) hd

/-- The result array after the region. -/
theorem region5 (c : Dev nD) :
    (dat5 V c).arrAt 3 cfg5.N = gcnLin (V c main_v62) (V c main_v64) (V c main_v16) := by
  have hN : cfg5.N = 10 := N_5
  refine (dat5 V c).arrAt_eq_of_cover 3 _ (fun t _ => flushed5 V c t) fun i => ?_
  have hi0 : (i 0).val < 50000 := (i 0).isLt
  have hi1 : (i 1).val < 128 := (i 1).isLt
  have ht : (i 0).val / 5000 < cfg5.N := by rw [hN]; omega
  obtain ⟨e0, e1, e2, e3, e4, e5, e6, e7⟩ := idx5 ⟨(i 0).val / 5000, ht⟩
  refine ⟨⟨(i 0).val / 5000, ht⟩, flush5_3 _, ?_⟩
  show i ∈ ((View.whole main_v65).slice (win5_3.rect ⟨(i 0).val / 5000, ht⟩)).set
  rw [View.set_slice_whole, Rect.mem_set_unit]
  intro a
  match a with
  | ⟨0, _⟩ =>
    show win5_3.index ⟨(i 0).val / 5000, ht⟩ (0 : Fin 2) * 5000 ≤ (i 0).val
      ∧ (i 0).val < win5_3.index ⟨(i 0).val / 5000, ht⟩ (0 : Fin 2) * 5000 + 5000
    rw [e6]; show (i 0).val / 5000 * 5000 ≤ (i 0).val ∧ (i 0).val < (i 0).val / 5000 * 5000 + 5000; omega
  | ⟨1, _⟩ =>
    show win5_3.index ⟨(i 0).val / 5000, ht⟩ (1 : Fin 2) * 128 ≤ (i 1).val
      ∧ (i 1).val < win5_3.index ⟨(i 0).val / 5000, ht⟩ (1 : Fin 2) * 128 + 128
    rw [e7]; omega

end Cert.KernelIdeal.RegionDense

end
-- ==== Proof.RegionFuse.lean ====
/-
  The three fusion regions: each result array as one function of the arrays the region reads.
-/
import proofs.«157124_j84301618086373_2_alg».proof.Proof.Gen.KernelIdeal.Frame
import proofs.«157124_j84301618086373_2_alg».proof.Proof.KBody

set_option maxRecDepth 16384

noncomputable section

namespace Cert.KernelIdeal.RegionFuse

open Cert.KernelIdeal Cert.KernelIdeal.Gen Cert.KernelIdeal.Body Idealize.ShloMosaic Idealize.ShloMosaic.TcCoe
  Idealize.ShloMosaic.ValueIdx Idealize.SL.Sem Cert.Gcn
open Idealize.ShloMosaic.Pipeline (Dat Cfg Window)

variable (V : (c : Dev nD) → (b : Ref sig .tc) → Buf (Elt Ideal) ((c : Thread nD τ).loc b))

theorem zeroOffsets : (![0, 0] : Fin 2 → Nat) = fun _ => 0 := funext fun a => by fin_cases a <;> rfl

/-! ## The layer's fusion: region 2 -/

/-- The index maps over the grid: features, aggregated messages, factors and result at block row `t`; the weights and the two
    bias rows at block (0, 0). -/
theorem idx2 : ∀ t : Fin cfg2.N, win2_0.index t (0 : Fin 2) = t.val
    ∧ win2_0.index t (1 : Fin 2) = 0
    ∧ win2_1.index t (0 : Fin 2) = 0
    ∧ win2_1.index t (1 : Fin 2) = 0
    ∧ win2_2.index t (0 : Fin 2) = 0
    ∧ win2_2.index t (1 : Fin 2) = 0
    ∧ win2_3.index t (0 : Fin 2) = t.val
    ∧ win2_3.index t (1 : Fin 2) = 0
    ∧ win2_4.index t (0 : Fin 2) = 0
    ∧ win2_4.index t (1 : Fin 2) = 0
    ∧ win2_5.index t (0 : Fin 2) = t.val
    ∧ win2_5.index t (1 : Fin 2) = 0
    ∧ win2_6.index t (0 : Fin 2) = t.val
    ∧ win2_6.index t (1 : Fin 2) = 0 :=
  (by decide +kernel : ∀ t : Fin grid2.N, _)

set_option maxHeartbeats 2000000 in
/-- What point `t` writes back is block `t` of the region's result. -/
theorem flushed2 (c : Dev nD) (t : Fin cfg2.N) :
    (dat2 V c).flushed 6 t = ((cfg2.win 6).blk t).view.read (Elt Ideal)
      (fuse (V c main_v18) (V c main_v33) (V c main_v38) (V c main_v31) (V c main_v39) (V c main_v16)) := by
  show (cfg2.win 6).cut (grid2.coords t) ((dat2 V c).after 6 t) = _
  rw [after2_6]
  unfold out2_6
  rw [View.canon_unit_zero zeroOffsets]
  simp only [View.ld_unit_zero (S := S5000x128) zeroOffsets, View.ld_unit_zero (S := S128x128) zeroOffsets, View.ld_unit_zero (S := S1x128) zeroOffsets, View.ld_unit_zero (S := S5000x1) zeroOffsets]
  obtain ⟨e0, e1, e2, e3, e4, e5, e6, e7, e8, e9, e10, e11, e12, e13⟩ := idx2 t
  funext y
  obtain ⟨p, q, rfl⟩ : ∃ (p : Fin 5000) (q : Fin 128), y = ix2 p q := ⟨y 0, y 1, eq_ix2 y⟩
  refine (fuseStep (iblk2 V c 0 t) (iblk2 V c 1 t) (iblk2 V c 2 t) (iblk2 V c 3 t) (iblk2 V c 5 t) (iblk2 V c 4 t) p q).trans ?_
  have hrow : ∀ k : Fin 128, ((cfg2.win 0).blk t).view.emb (ix2 p k)
      = ix2 ((((cfg2.win 6).blk t).view.emb (ix2 p q)) 0) k := fun k => by
    funext a; apply Fin.ext
    match a with
    | ⟨0, _⟩ => show win2_0.index t (0 : Fin 2) * 5000 + 1 * p.val = win2_6.index t (0 : Fin 2) * 5000 + 1 * p.val; omega
    | ⟨1, _⟩ => show win2_0.index t (1 : Fin 2) * 128 + 1 * k.val = k.val; omega
  have hw : ∀ k : Fin 128, ((cfg2.win 1).blk t).view.emb (ix2 k q)
      = ix2 k ((((cfg2.win 6).blk t).view.emb (ix2 p q)) 1) := fun k => by
    funext a; apply Fin.ext
    match a with
    | ⟨0, _⟩ => show win2_1.index t (0 : Fin 2) * 128 + 1 * k.val = k.val; omega
    | ⟨1, _⟩ => show win2_1.index t (1 : Fin 2) * 128 + 1 * q.val = win2_6.index t (1 : Fin 2) * 128 + 1 * q.val; omega
  have hsb : ((cfg2.win 2).blk t).view.emb (ix2 (0 : Fin 1) q)
      = ix2 (0 : Fin 1) ((((cfg2.win 6).blk t).view.emb (ix2 p q)) 1) := by
    funext a; apply Fin.ext
    match a with
    | ⟨0, _⟩ => show win2_2.index t (0 : Fin 2) * 1 + 1 * 0 = 0; omega
    | ⟨1, _⟩ => show win2_2.index t (1 : Fin 2) * 128 + 1 * q.val = win2_6.index t (1 : Fin 2) * 128 + 1 * q.val; omega
  have hagg : ((cfg2.win 3).blk t).view.emb (ix2 p q) = ((cfg2.win 6).blk t).view.emb (ix2 p q) := by
    funext a; apply Fin.ext
    match a with
    | ⟨0, _⟩ => show win2_3.index t (0 : Fin 2) * 5000 + 1 * p.val = win2_6.index t (0 : Fin 2) * 5000 + 1 * p.val; omega
    | ⟨1, _⟩ => show win2_3.index t (1 : Fin 2) * 128 + 1 * q.val = win2_6.index t (1 : Fin 2) * 128 + 1 * q.val; omega
  have hgb : ((cfg2.win 4).blk t).view.emb (ix2 (0 : Fin 1) q)
      = ix2 (0 : Fin 1) ((((cfg2.win 6).blk t).view.emb (ix2 p q)) 1) := by
    funext a; apply Fin.ext
    match a with
    | ⟨0, _⟩ => show win2_4.index t (0 : Fin 2) * 1 + 1 * 0 = 0; omega
    | ⟨1, _⟩ => show win2_4.index t (1 : Fin 2) * 128 + 1 * q.val = win2_6.index t (1 : Fin 2) * 128 + 1 * q.val; omega
  have hd : ((cfg2.win 5).blk t).view.emb (ix2 p (0 : Fin 1))
      = ix2 ((((cfg2.win 6).blk t).view.emb (ix2 p q)) 0) (0 : Fin 1) := by
    funext a; apply Fin.ext
    match a with
    | ⟨0, _⟩ => show win2_5.index t (0 : Fin 2) * 5000 + 1 * p.val = win2_6.index t (0 : Fin 2) * 5000 + 1 * p.val; omega
    | ⟨1, _⟩ => show win2_5.index t (1 : Fin 2) * 1 + 1 * 0 = 0; omega
  show _ = fuse (V c main_v18) (V c main_v33) (V c main_v38) (V c main_v31) (V c main_v39) (V c main_v16) (((cfg2.win 6).blk t).view.emb (ix2 p q))
  unfold fuse mm
  refine congrArg mish (congr (congrArg HAdd.hAdd (congr (congrArg HAdd.hAdd (congr (congrArg HMul.hMul ?_) ?_)) ?_))
    (congr (congrArg HAdd.hAdd (Finset.sum_congr rfl fun k _ => ?_)) ?_))
  · exact congrArg (V c main_v31) hagg
  · exact congrArg (V c main_v16) hd
  · exact congrArg (V c main_v39) hgb
  · exact congr (congrArg HMul.hMul (congrArg (V c main_v18) (hrow k))) (congrArg (V c main_v33) (hw k))
  · exact congrArg (V c main_v38) hsb

/-- The result array after the region. -/
theorem region2 (c : Dev nD) :
    (dat2 V c).arrAt 6 cfg2.N
      = fuse (V c main_v18) (V c main_v33) (V c main_v38) (V c main_v31) (V c main_v39) (V c main_v16) := by
  have hN : cfg2.N = 10 := N_2
  refine (dat2 V c).arrAt_eq_of_cover 6 _ (fun t _ => flushed2 V c t) fun i => ?_
  have hi0 : (i 0).val < 50000 := (i 0).isLt
  have hi1 : (i 1).val < 128 := (i 1).isLt
  have ht : (i 0).val / 5000 < cfg2.N := by rw [hN]; omega
  obtain ⟨e0, e1, e2, e3, e4, e5, e6, e7, e8, e9, e10, e11, e12, e13⟩ := idx2 ⟨(i 0).val / 5000, ht⟩
  refine ⟨⟨(i 0).val / 5000, ht⟩, flush2_6 _, ?_⟩
  show i ∈ ((View.whole main_v40).slice (win2_6.rect ⟨(i 0).val / 5000, ht⟩)).set
  rw [View.set_slice_whole, Rect.mem_set_unit]
  intro a
  match a with
  | ⟨0, _⟩ =>
    show win2_6.index ⟨(i 0).val / 5000, ht⟩ (0 : Fin 2) * 5000 ≤ (i 0).val
      ∧ (i 0).val < win2_6.index ⟨(i 0).val / 5000, ht⟩ (0 : Fin 2) * 5000 + 5000
    rw [e12]; show (i 0).val / 5000 * 5000 ≤ (i 0).val ∧ (i 0).val < (i 0).val / 5000 * 5000 + 5000; omega
  | ⟨1, _⟩ =>
    show win2_6.index ⟨(i 0).val / 5000, ht⟩ (1 : Fin 2) * 128 ≤ (i 1).val
      ∧ (i 1).val < win2_6.index ⟨(i 0).val / 5000, ht⟩ (1 : Fin 2) * 128 + 128
    rw [e13]; omega

/-! ## The layer's fusion: region 4 -/

/-- The index maps over the grid: features, aggregated messages, factors and result at block row `t`; the weights and the two
    bias rows at block (0, 0). -/
theorem idx4 : ∀ t : Fin cfg4.N, win4_0.index t (0 : Fin 2) = t.val
    ∧ win4_0.index t (1 : Fin 2) = 0
    ∧ win4_1.index t (0 : Fin 2) = 0
    ∧ win4_1.index t (1 : Fin 2) = 0
    ∧ win4_2.index t (0 : Fin 2) = 0
    ∧ win4_2.index t (1 : Fin 2) = 0
    ∧ win4_3.index t (0 : Fin 2) = t.val
    ∧ win4_3.index t (1 : Fin 2) = 0
    ∧ win4_4.index t (0 : Fin 2) = 0
    ∧ win4_4.index t (1 : Fin 2) = 0
    ∧ win4_5.index t (0 : Fin 2) = t.val
    ∧ win4_5.index t (1 : Fin 2) = 0
    ∧ win4_6.index t (0 : Fin 2) = t.val
    ∧ win4_6.index t (1 : Fin 2) = 0 :=
  (by decide +kernel : ∀ t : Fin grid4.N, _)

set_option maxHeartbeats 2000000 in
/-- What point `t` writes back is block `t` of the region's result. -/
theorem flushed4 (c : Dev nD) (t : Fin cfg4.N) :
    (dat4 V c).flushed 6 t = ((cfg4.win 6).blk t).view.read (Elt Ideal)
      (fuse (V c main_v40) (V c main_v55) (V c main_v60) (V c main_v53) (V c main_v61) (V c main_v16)) := by
  show (cfg4.win 6).cut (grid4.coords t) ((dat4 V c).after 6 t) = _
  rw [after4_6]
  unfold out4_6
  rw [fuse4]
  rw [View.canon_unit_zero zeroOffsets]
  simp only [View.ld_unit_zero (S := S5000x128) zeroOffsets, View.ld_unit_zero (S := S128x128) zeroOffsets, View.ld_unit_zero (S := S1x128) zeroOffsets, View.ld_unit_zero (S := S5000x1) zeroOffsets]
  obtain ⟨e0, e1, e2, e3, e4, e5, e6, e7, e8, e9, e10, e11, e12, e13⟩ := idx4 t
  funext y
  obtain ⟨p, q, rfl⟩ : ∃ (p : Fin 5000) (q : Fin 128), y = ix2 p q := ⟨y 0, y 1, eq_ix2 y⟩
  refine (fuseStep (iblk4 V c 0 t) (iblk4 V c 1 t) (iblk4 V c 2 t) (iblk4 V c 3 t) (iblk4 V c 5 t) (iblk4 V c 4 t) p q).trans ?_
  have hrow : ∀ k : Fin 128, ((cfg4.win 0).blk t).view.emb (ix2 p k)
      = ix2 ((((cfg4.win 6).blk t).view.emb (ix2 p q)) 0) k := fun k => by
    funext a; apply Fin.ext
    match a with
    | ⟨0, _⟩ => show win4_0.index t (0 : Fin 2) * 5000 + 1 * p.val = win4_6.index t (0 : Fin 2) * 5000 + 1 * p.val; omega
    | ⟨1, _⟩ => show win4_0.index t (1 : Fin 2) * 128 + 1 * k.val = k.val; omega
  have hw : ∀ k : Fin 128, ((cfg4.win 1).blk t).view.emb (ix2 k q)
      = ix2 k ((((cfg4.win 6).blk t).view.emb (ix2 p q)) 1) := fun k => by
    funext a; apply Fin.ext
    match a with
    | ⟨0, _⟩ => show win4_1.index t (0 : Fin 2) * 128 + 1 * k.val = k.val; omega
    | ⟨1, _⟩ => show win4_1.index t (1 : Fin 2) * 128 + 1 * q.val = win4_6.index t (1 : Fin 2) * 128 + 1 * q.val; omega
  have hsb : ((cfg4.win 2).blk t).view.emb (ix2 (0 : Fin 1) q)
      = ix2 (0 : Fin 1) ((((cfg4.win 6).blk t).view.emb (ix2 p q)) 1) := by
    funext a; apply Fin.ext
    match a with
    | ⟨0, _⟩ => show win4_2.index t (0 : Fin 2) * 1 + 1 * 0 = 0; omega
    | ⟨1, _⟩ => show win4_2.index t (1 : Fin 2) * 128 + 1 * q.val = win4_6.index t (1 : Fin 2) * 128 + 1 * q.val; omega
  have hagg : ((cfg4.win 3).blk t).view.emb (ix2 p q) = ((cfg4.win 6).blk t).view.emb (ix2 p q) := by
    funext a; apply Fin.ext
    match a with
    | ⟨0, _⟩ => show win4_3.index t (0 : Fin 2) * 5000 + 1 * p.val = win4_6.index t (0 : Fin 2) * 5000 + 1 * p.val; omega
    | ⟨1, _⟩ => show win4_3.index t (1 : Fin 2) * 128 + 1 * q.val = win4_6.index t (1 : Fin 2) * 128 + 1 * q.val; omega
  have hgb : ((cfg4.win 4).blk t).view.emb (ix2 (0 : Fin 1) q)
      = ix2 (0 : Fin 1) ((((cfg4.win 6).blk t).view.emb (ix2 p q)) 1) := by
    funext a; apply Fin.ext
    match a with
    | ⟨0, _⟩ => show win4_4.index t (0 : Fin 2) * 1 + 1 * 0 = 0; omega
    | ⟨1, _⟩ => show win4_4.index t (1 : Fin 2) * 128 + 1 * q.val = win4_6.index t (1 : Fin 2) * 128 + 1 * q.val; omega
  have hd : ((cfg4.win 5).blk t).view.emb (ix2 p (0 : Fin 1))
      = ix2 ((((cfg4.win 6).blk t).view.emb (ix2 p q)) 0) (0 : Fin 1) := by
    funext a; apply Fin.ext
    match a with
    | ⟨0, _⟩ => show win4_5.index t (0 : Fin 2) * 5000 + 1 * p.val = win4_6.index t (0 : Fin 2) * 5000 + 1 * p.val; omega
    | ⟨1, _⟩ => show win4_5.index t (1 : Fin 2) * 1 + 1 * 0 = 0; omega
  show _ = fuse (V c main_v40) (V c main_v55) (V c main_v60) (V c main_v53) (V c main_v61) (V c main_v16) (((cfg4.win 6).blk t).view.emb (ix2 p q))
  unfold fuse mm
  refine congrArg mish (congr (congrArg HAdd.hAdd (congr (congrArg HAdd.hAdd (congr (congrArg HMul.hMul ?_) ?_)) ?_))
    (congr (congrArg HAdd.hAdd (Finset.sum_congr rfl fun k _ => ?_)) ?_))
  · exact congrArg (V c main_v53) hagg
  · exact congrArg (V c main_v16) hd
  · exact congrArg (V c main_v61) hgb
  · exact congr (congrArg HMul.hMul (congrArg (V c main_v40) (hrow k))) (congrArg (V c main_v55) (hw k))
  · exact congrArg (V c main_v60) hsb

/-- The result array after the region. -/
theorem region4 (c : Dev nD) :
    (dat4 V c).arrAt 6 cfg4.N
      = fuse (V c main_v40) (V c main_v55) (V c main_v60) (V c main_v53) (V c main_v61) (V c main_v16) := by
  have hN : cfg4.N = 10 := N_4
  refine (dat4 V c).arrAt_eq_of_cover 6 _ (fun t _ => flushed4 V c t) fun i => ?_
  have hi0 : (i 0).val < 50000 := (i 0).isLt
  have hi1 : (i 1).val < 128 := (i 1).isLt
  have ht : (i 0).val / 5000 < cfg4.N := by rw [hN]; omega
  obtain ⟨e0, e1, e2, e3, e4, e5, e6, e7, e8, e9, e10, e11, e12, e13⟩ := idx4 ⟨(i 0).val / 5000, ht⟩
  refine ⟨⟨(i 0).val / 5000, ht⟩, flush4_6 _, ?_⟩
  show i ∈ ((View.whole main_v62).slice (win4_6.rect ⟨(i 0).val / 5000, ht⟩)).set
  rw [View.set_slice_whole, Rect.mem_set_unit]
  intro a
  match a with
  | ⟨0, _⟩ =>
    show win4_6.index ⟨(i 0).val / 5000, ht⟩ (0 : Fin 2) * 5000 ≤ (i 0).val
      ∧ (i 0).val < win4_6.index ⟨(i 0).val / 5000, ht⟩ (0 : Fin 2) * 5000 + 5000
    rw [e12]; show (i 0).val / 5000 * 5000 ≤ (i 0).val ∧ (i 0).val < (i 0).val / 5000 * 5000 + 5000; omega
  | ⟨1, _⟩ =>
    show win4_6.index ⟨(i 0).val / 5000, ht⟩ (1 : Fin 2) * 128 ≤ (i 1).val
      ∧ (i 1).val < win4_6.index ⟨(i 0).val / 5000, ht⟩ (1 : Fin 2) * 128 + 128
    rw [e13]; omega

/-! ## The layer's fusion: region 6 -/

/-- The index maps over the grid: features, aggregated messages, factors and result at block row `t`; the weights and the two
    bias rows at block (0, 0). -/
theorem idx6 : ∀ t : Fin cfg6.N, win6_0.index t (0 : Fin 2) = t.val
    ∧ win6_0.index t (1 : Fin 2) = 0
    ∧ win6_1.index t (0 : Fin 2) = 0
    ∧ win6_1.index t (1 : Fin 2) = 0
    ∧ win6_2.index t (0 : Fin 2) = 0
    ∧ win6_2.index t (1 : Fin 2) = 0
    ∧ win6_3.index t (0 : Fin 2) = t.val
    ∧ win6_3.index t (1 : Fin 2) = 0
    ∧ win6_4.index t (0 : Fin 2) = 0
    ∧ win6_4.index t (1 : Fin 2) = 0
    ∧ win6_5.index t (0 : Fin 2) = t.val
    ∧ win6_5.index t (1 : Fin 2) = 0
    ∧ win6_6.index t (0 : Fin 2) = t.val
    ∧ win6_6.index t (1 : Fin 2) = 0 :=
  (by decide +kernel : ∀ t : Fin grid6.N, _)

set_option maxHeartbeats 2000000 in
/-- What point `t` writes back is block `t` of the region's result. -/
theorem flushed6 (c : Dev nD) (t : Fin cfg6.N) :
    (dat6 V c).flushed 6 t = ((cfg6.win 6).blk t).view.read (Elt Ideal)
      (fuse (V c main_v62) (V c main_v77) (V c main_v82) (V c main_v75) (V c main_v83) (V c main_v16)) := by
  show (cfg6.win 6).cut (grid6.coords t) ((dat6 V c).after 6 t) = _
  rw [after6_6]
  unfold out6_6
  rw [fuse6]
  rw [View.canon_unit_zero zeroOffsets]
  simp only [View.ld_unit_zero (S := S5000x128) zeroOffsets, View.ld_unit_zero (S := S128x128) zeroOffsets, View.ld_unit_zero (S := S1x128) zeroOffsets, View.ld_unit_zero (S := S5000x1) zeroOffsets]
  obtain ⟨e0, e1, e2, e3, e4, e5, e6, e7, e8, e9, e10, e11, e12, e13⟩ := idx6 t
  funext y
  obtain ⟨p, q, rfl⟩ : ∃ (p : Fin 5000) (q : Fin 128), y = ix2 p q := ⟨y 0, y 1, eq_ix2 y⟩
  refine (fuseStep (iblk6 V c 0 t) (iblk6 V c 1 t) (iblk6 V c 2 t) (iblk6 V c 3 t) (iblk6 V c 5 t) (iblk6 V c 4 t) p q).trans ?_
  have hrow : ∀ k : Fin 128, ((cfg6.win 0).blk t).view.emb (ix2 p k)
      = ix2 ((((cfg6.win 6).blk t).view.emb (ix2 p q)) 0) k := fun k => by
    funext a; apply Fin.ext
    match a with
    | ⟨0, _⟩ => show win6_0.index t (0 : Fin 2) * 5000 + 1 * p.val = win6_6.index t (0 : Fin 2) * 5000 + 1 * p.val; omega
    | ⟨1, _⟩ => show win6_0.index t (1 : Fin 2) * 128 + 1 * k.val = k.val; omega
  have hw : ∀ k : Fin 128, ((cfg6.win 1).blk t).view.emb (ix2 k q)
      = ix2 k ((((cfg6.win 6).blk t).view.emb (ix2 p q)) 1) := fun k => by
    funext a; apply Fin.ext
    match a with
    | ⟨0, _⟩ => show win6_1.index t (0 : Fin 2) * 128 + 1 * k.val = k.val; omega
    | ⟨1, _⟩ => show win6_1.index t (1 : Fin 2) * 128 + 1 * q.val = win6_6.index t (1 : Fin 2) * 128 + 1 * q.val; omega
  have hsb : ((cfg6.win 2).blk t).view.emb (ix2 (0 : Fin 1) q)
      = ix2 (0 : Fin 1) ((((cfg6.win 6).blk t).view.emb (ix2 p q)) 1) := by
    funext a; apply Fin.ext
    match a with
    | ⟨0, _⟩ => show win6_2.index t (0 : Fin 2) * 1 + 1 * 0 = 0; omega
    | ⟨1, _⟩ => show win6_2.index t (1 : Fin 2) * 128 + 1 * q.val = win6_6.index t (1 : Fin 2) * 128 + 1 * q.val; omega
  have hagg : ((cfg6.win 3).blk t).view.emb (ix2 p q) = ((cfg6.win 6).blk t).view.emb (ix2 p q) := by
    funext a; apply Fin.ext
    match a with
    | ⟨0, _⟩ => show win6_3.index t (0 : Fin 2) * 5000 + 1 * p.val = win6_6.index t (0 : Fin 2) * 5000 + 1 * p.val; omega
    | ⟨1, _⟩ => show win6_3.index t (1 : Fin 2) * 128 + 1 * q.val = win6_6.index t (1 : Fin 2) * 128 + 1 * q.val; omega
  have hgb : ((cfg6.win 4).blk t).view.emb (ix2 (0 : Fin 1) q)
      = ix2 (0 : Fin 1) ((((cfg6.win 6).blk t).view.emb (ix2 p q)) 1) := by
    funext a; apply Fin.ext
    match a with
    | ⟨0, _⟩ => show win6_4.index t (0 : Fin 2) * 1 + 1 * 0 = 0; omega
    | ⟨1, _⟩ => show win6_4.index t (1 : Fin 2) * 128 + 1 * q.val = win6_6.index t (1 : Fin 2) * 128 + 1 * q.val; omega
  have hd : ((cfg6.win 5).blk t).view.emb (ix2 p (0 : Fin 1))
      = ix2 ((((cfg6.win 6).blk t).view.emb (ix2 p q)) 0) (0 : Fin 1) := by
    funext a; apply Fin.ext
    match a with
    | ⟨0, _⟩ => show win6_5.index t (0 : Fin 2) * 5000 + 1 * p.val = win6_6.index t (0 : Fin 2) * 5000 + 1 * p.val; omega
    | ⟨1, _⟩ => show win6_5.index t (1 : Fin 2) * 1 + 1 * 0 = 0; omega
  show _ = fuse (V c main_v62) (V c main_v77) (V c main_v82) (V c main_v75) (V c main_v83) (V c main_v16) (((cfg6.win 6).blk t).view.emb (ix2 p q))
  unfold fuse mm
  refine congrArg mish (congr (congrArg HAdd.hAdd (congr (congrArg HAdd.hAdd (congr (congrArg HMul.hMul ?_) ?_)) ?_))
    (congr (congrArg HAdd.hAdd (Finset.sum_congr rfl fun k _ => ?_)) ?_))
  · exact congrArg (V c main_v75) hagg
  · exact congrArg (V c main_v16) hd
  · exact congrArg (V c main_v83) hgb
  · exact congr (congrArg HMul.hMul (congrArg (V c main_v62) (hrow k))) (congrArg (V c main_v77) (hw k))
  · exact congrArg (V c main_v82) hsb

/-- The result array after the region. -/
theorem region6 (c : Dev nD) :
    (dat6 V c).arrAt 6 cfg6.N
      = fuse (V c main_v62) (V c main_v77) (V c main_v82) (V c main_v75) (V c main_v83) (V c main_v16) := by
  have hN : cfg6.N = 10 := N_6
  refine (dat6 V c).arrAt_eq_of_cover 6 _ (fun t _ => flushed6 V c t) fun i => ?_
  have hi0 : (i 0).val < 50000 := (i 0).isLt
  have hi1 : (i 1).val < 128 := (i 1).isLt
  have ht : (i 0).val / 5000 < cfg6.N := by rw [hN]; omega
  obtain ⟨e0, e1, e2, e3, e4, e5, e6, e7, e8, e9, e10, e11, e12, e13⟩ := idx6 ⟨(i 0).val / 5000, ht⟩
  refine ⟨⟨(i 0).val / 5000, ht⟩, flush6_6 _, ?_⟩
  show i ∈ ((View.whole main_v84).slice (win6_6.rect ⟨(i 0).val / 5000, ht⟩)).set
  rw [View.set_slice_whole, Rect.mem_set_unit]
  intro a
  match a with
  | ⟨0, _⟩ =>
    show win6_6.index ⟨(i 0).val / 5000, ht⟩ (0 : Fin 2) * 5000 ≤ (i 0).val
      ∧ (i 0).val < win6_6.index ⟨(i 0).val / 5000, ht⟩ (0 : Fin 2) * 5000 + 5000
    rw [e12]; show (i 0).val / 5000 * 5000 ≤ (i 0).val ∧ (i 0).val < (i 0).val / 5000 * 5000 + 5000; omega
  | ⟨1, _⟩ =>
    show win6_6.index ⟨(i 0).val / 5000, ht⟩ (1 : Fin 2) * 128 ≤ (i 1).val
      ∧ (i 1).val < win6_6.index ⟨(i 0).val / 5000, ht⟩ (1 : Fin 2) * 128 + 128
    rw [e13]; omega

end Cert.KernelIdeal.RegionFuse

end
-- ==== Proof.RegionOut.lean ====
/-
  The output layer's region: its result array as one function of the arrays it reads.
-/
import proofs.«157124_j84301618086373_2_alg».proof.Proof.Gen.KernelIdeal.Frame
import proofs.«157124_j84301618086373_2_alg».proof.Proof.KBody

set_option maxRecDepth 16384

noncomputable section

namespace Cert.KernelIdeal.RegionOut

open Cert.KernelIdeal Cert.KernelIdeal.Gen Cert.KernelIdeal.Body Idealize.ShloMosaic Idealize.ShloMosaic.TcCoe
  Idealize.ShloMosaic.ValueIdx Idealize.SL.Sem Cert.Gcn
open Idealize.ShloMosaic.Pipeline (Dat Cfg Window)

variable (V : (c : Dev nD) → (b : Ref sig .tc) → Buf (Elt Ideal) ((c : Thread nD τ).loc b))

theorem zeroOffsets : (![0, 0] : Fin 2 → Nat) = fun _ => 0 := funext fun a => by fin_cases a <;> rfl

/-! ## The output layer: region 7 -/

/-- The index maps over the grid: features and result at block row `t`; the weight column and the bias at block (0, 0). -/
theorem idx7 : ∀ t : Fin cfg7.N, win7_0.index t (0 : Fin 2) = t.val
    ∧ win7_0.index t (1 : Fin 2) = 0
    ∧ win7_1.index t (0 : Fin 2) = 0
    ∧ win7_1.index t (1 : Fin 2) = 0
    ∧ win7_2.index t (0 : Fin 2) = 0
    ∧ win7_2.index t (1 : Fin 2) = 0
    ∧ win7_3.index t (0 : Fin 2) = t.val
    ∧ win7_3.index t (1 : Fin 2) = 0 :=
  (by decide +kernel : ∀ t : Fin grid7.N, _)

set_option maxHeartbeats 2000000 in
/-- What point `t` writes back is block `t` of the region's result. -/
theorem flushed7 (c : Dev nD) (t : Fin cfg7.N) :
    (dat7 V c).flushed 3 t = ((cfg7.win 3).blk t).view.read (Elt Ideal)
      (linOut (V c main_v84) (V c main_arg8) (V c main_v85)) := by
  show (cfg7.win 3).cut (grid7.coords t) ((dat7 V c).after 3 t) = _
  rw [after7_3]
  unfold out7_3
  rw [View.canon_unit_zero zeroOffsets]
  simp only [View.ld_unit_zero (S := S5000x128) zeroOffsets, View.ld_unit_zero (S := S128x1) zeroOffsets, View.ld_unit_zero (S := S1x1) zeroOffsets]
  obtain ⟨e0, e1, e2, e3, e4, e5, e6, e7⟩ := idx7 t
  funext y
  obtain ⟨p, q, rfl⟩ : ∃ (p : Fin 5000) (q : Fin 1), y = ix2 p q := ⟨y 0, y 1, eq_ix2 y⟩
  refine (outStep (iblk7 V c 0 t) (iblk7 V c 1 t) (iblk7 V c 2 t) p q).trans ?_
  have hrow : ∀ k : Fin 128, ((cfg7.win 0).blk t).view.emb (ix2 p k)
      = ix2 ((((cfg7.win 3).blk t).view.emb (ix2 p q)) 0) k := fun k => by
    funext a; apply Fin.ext
    match a with
    | ⟨0, _⟩ => show win7_0.index t (0 : Fin 2) * 5000 + 1 * p.val = win7_3.index t (0 : Fin 2) * 5000 + 1 * p.val; omega
    | ⟨1, _⟩ => show win7_0.index t (1 : Fin 2) * 128 + 1 * k.val = k.val; omega
  have hw : ∀ k : Fin 128, ((cfg7.win 1).blk t).view.emb (ix2 k q)
      = ix2 k ((((cfg7.win 3).blk t).view.emb (ix2 p q)) 1) := fun k => by
    funext a; apply Fin.ext
    match a with
    | ⟨0, _⟩ => show win7_1.index t (0 : Fin 2) * 128 + 1 * k.val = k.val; omega
    | ⟨1, _⟩ => show win7_1.index t (1 : Fin 2) * 1 + 1 * q.val = win7_3.index t (1 : Fin 2) * 1 + 1 * q.val; omega
  have hb : ((cfg7.win 2).blk t).view.emb (ix2 (0 : Fin 1) (0 : Fin 1)) = ix2 (0 : Fin 1) (0 : Fin 1) := by
    funext a; apply Fin.ext
    match a with
    | ⟨0, _⟩ => show win7_2.index t (0 : Fin 2) * 1 + 1 * 0 = 0; omega
    | ⟨1, _⟩ => show win7_2.index t (1 : Fin 2) * 1 + 1 * 0 = 0; omega
  show _ = linOut (V c main_v84) (V c main_arg8) (V c main_v85) (((cfg7.win 3).blk t).view.emb (ix2 p q))
  unfold linOut
  refine congr (congrArg HAdd.hAdd (Finset.sum_congr rfl fun k _ => ?_)) ?_
  · exact congr (congrArg HMul.hMul (congrArg (V c main_v84) (hrow k))) (congrArg (V c main_arg8) (hw k))
  · exact congrArg (V c main_v85) hb

/-- The result array after the region. -/
theorem region7 (c : Dev nD) :
    (dat7 V c).arrAt 3 cfg7.N = linOut (V c main_v84) (V c main_arg8) (V c main_v85) := by
  have hN : cfg7.N = 10 := N_7
  refine (dat7 V c).arrAt_eq_of_cover 3 _ (fun t _ => flushed7 V c t) fun i => ?_
  have hi0 : (i 0).val < 50000 := (i 0).isLt
  have hi1 : (i 1).val < 1 := (i 1).isLt
  have ht : (i 0).val / 5000 < cfg7.N := by rw [hN]; omega
  obtain ⟨e0, e1, e2, e3, e4, e5, e6, e7⟩ := idx7 ⟨(i 0).val / 5000, ht⟩
  refine ⟨⟨(i 0).val / 5000, ht⟩, flush7_3 _, ?_⟩
  show i ∈ ((View.whole main_v86).slice (win7_3.rect ⟨(i 0).val / 5000, ht⟩)).set
  rw [View.set_slice_whole, Rect.mem_set_unit]
  intro a
  match a with
  | ⟨0, _⟩ =>
    show win7_3.index ⟨(i 0).val / 5000, ht⟩ (0 : Fin 2) * 5000 ≤ (i 0).val
      ∧ (i 0).val < win7_3.index ⟨(i 0).val / 5000, ht⟩ (0 : Fin 2) * 5000 + 5000
    rw [e6]; show (i 0).val / 5000 * 5000 ≤ (i 0).val ∧ (i 0).val < (i 0).val / 5000 * 5000 + 5000; omega
  | ⟨1, _⟩ =>
    show win7_3.index ⟨(i 0).val / 5000, ht⟩ (1 : Fin 2) * 1 ≤ (i 1).val
      ∧ (i 1).val < win7_3.index ⟨(i 0).val / 5000, ht⟩ (1 : Fin 2) * 1 + 1
    rw [e7]; omega

end Cert.KernelIdeal.RegionOut

end
-- ==== Proof.KChain.lean ====
/-
  The kernel program's result as a function of its arguments.

  The buffer contents at @main's boundaries are a fold from the launch memory. Read backwards from the result:
  the output layer's region leaves `linOut` of the last hidden features; each layer's fusion region leaves `fuse` of the
  previous features, the aggregated messages and the per-node factors; the aggregated messages are the host's scatter-add of
  the rows gathered from the dense region's result; the per-node factors, the edge lists and the slices of the stacked
  weights are host operations on the arguments, which no operation and no region overwrites. The host operations on the edge
  list and on the stacked weights are, operation for operation, those of the reference program, so their values are named by
  the reference's stages.
-/
import proofs.«157124_j84301618086373_2_alg».proof.Proof.Gen.KernelIdeal.Frame
import proofs.«157124_j84301618086373_2_alg».proof.Proof.RefRead
import proofs.«157124_j84301618086373_2_alg».proof.Proof.KLayer
import proofs.«157124_j84301618086373_2_alg».proof.Proof.RegionIn
import proofs.«157124_j84301618086373_2_alg».proof.Proof.RegionDense
import proofs.«157124_j84301618086373_2_alg».proof.Proof.RegionFuse
import proofs.«157124_j84301618086373_2_alg».proof.Proof.RegionOut
import Idealize.ShloMosaic.Lib.StableHlo.Run

set_option maxRecDepth 16384

noncomputable section

namespace Cert.KernelIdeal.Chain

open Cert.KernelIdeal Cert.KernelIdeal.Gen Idealize.ShloMosaic Idealize.ShloMosaic.TcCoe Idealize.ShloMosaic.ValueIdx
  Idealize.SL.Sem Idealize.ShloMosaic.StableHlo Cert.Gcn
open Idealize.ShloMosaic.Pipeline (Dat Cfg Window)

variable (m : (ℓ : Loc nD τ sig) → Buf (Elt Ideal) ℓ) (ρ : Dev nD → PrngReg) (c : Dev nD)

/-- A host stretch leaves a buffer it does not write as it found it. -/
macro "host_keep" : tactic => `(tactic| exact StableHlo.after_of_forall_not_mem _ _ (List.forall_iff_forall_mem.mp (by
  simp only [hostOps0, hostOps0_1, hostOps0_2, hostOps1, hostOps2, hostOps3, hostOps4, hostOps5, hostOps6, hostOps7,
    List.flatten_cons, List.flatten_nil, List.append_nil, List.cons_append, List.nil_append, List.Forall,
    StableHlo.nullary_writes, StableHlo.unary_writes, StableHlo.binary_writes, StableHlo.ternary_writes,
    StableHlo.quaternary_writes, StableHlo.reshape_writes, StableHlo.binaryIndexed_writes, Finset.mem_singleton]
  repeat' apply And.intro
  all_goals exact StableHlo.devRef_ne_of_ne (by decide))))

/-! ## Buffers that stay as they were -/

theorem keep_arg0_3_0 : W3 m ρ c (Proc.devRef .tc main_arg0) = W0 m ρ c (Proc.devRef .tc main_arg0) :=
  calc W3 m ρ c (Proc.devRef .tc main_arg0)
    _ = W2 m ρ c (Proc.devRef .tc main_arg0) := by host_keep
    _ = W1 m ρ c (Proc.devRef .tc main_arg0) := by host_keep
    _ = W0 m ρ c (Proc.devRef .tc main_arg0) := by host_keep

theorem keep_arg2_3_0 : W3 m ρ c (Proc.devRef .tc main_arg2) = W0 m ρ c (Proc.devRef .tc main_arg2) :=
  calc W3 m ρ c (Proc.devRef .tc main_arg2)
    _ = W2 m ρ c (Proc.devRef .tc main_arg2) := by host_keep
    _ = W1 m ρ c (Proc.devRef .tc main_arg2) := by host_keep
    _ = W0 m ρ c (Proc.devRef .tc main_arg2) := by host_keep

theorem keep_arg3_2_0 : W2 m ρ c (Proc.devRef .tc main_arg3) = W0 m ρ c (Proc.devRef .tc main_arg3) :=
  calc W2 m ρ c (Proc.devRef .tc main_arg3)
    _ = W1 m ρ c (Proc.devRef .tc main_arg3) := by host_keep
    _ = W0 m ρ c (Proc.devRef .tc main_arg3) := by host_keep

theorem keep_arg4_4_0 : W4 m ρ c (Proc.devRef .tc main_arg4) = W0 m ρ c (Proc.devRef .tc main_arg4) :=
  calc W4 m ρ c (Proc.devRef .tc main_arg4)
    _ = W3 m ρ c (Proc.devRef .tc main_arg4) := W4_of_ne m ρ c main_arg4 (by decide)
    _ = W2 m ρ c (Proc.devRef .tc main_arg4) := by host_keep
    _ = W1 m ρ c (Proc.devRef .tc main_arg4) := by host_keep
    _ = W0 m ρ c (Proc.devRef .tc main_arg4) := by host_keep

theorem keep_arg4_8_0 : W8 m ρ c (Proc.devRef .tc main_arg4) = W0 m ρ c (Proc.devRef .tc main_arg4) :=
  calc W8 m ρ c (Proc.devRef .tc main_arg4)
    _ = W7 m ρ c (Proc.devRef .tc main_arg4) := W8_of_ne m ρ c main_arg4 (by decide)
    _ = W6 m ρ c (Proc.devRef .tc main_arg4) := by host_keep
    _ = W5 m ρ c (Proc.devRef .tc main_arg4) := W6_of_ne m ρ c main_arg4 (by decide)
    _ = W4 m ρ c (Proc.devRef .tc main_arg4) := by host_keep
    _ = W3 m ρ c (Proc.devRef .tc main_arg4) := W4_of_ne m ρ c main_arg4 (by decide)
    _ = W2 m ρ c (Proc.devRef .tc main_arg4) := by host_keep
    _ = W1 m ρ c (Proc.devRef .tc main_arg4) := by host_keep
    _ = W0 m ρ c (Proc.devRef .tc main_arg4) := by host_keep

theorem keep_arg4_12_0 : W12 m ρ c (Proc.devRef .tc main_arg4) = W0 m ρ c (Proc.devRef .tc main_arg4) :=
  calc W12 m ρ c (Proc.devRef .tc main_arg4)
    _ = W11 m ρ c (Proc.devRef .tc main_arg4) := W12_of_ne m ρ c main_arg4 (by decide)
    _ = W10 m ρ c (Proc.devRef .tc main_arg4) := by host_keep
    _ = W9 m ρ c (Proc.devRef .tc main_arg4) := W10_of_ne m ρ c main_arg4 (by decide)
    _ = W8 m ρ c (Proc.devRef .tc main_arg4) := by host_keep
    _ = W7 m ρ c (Proc.devRef .tc main_arg4) := W8_of_ne m ρ c main_arg4 (by decide)
    _ = W6 m ρ c (Proc.devRef .tc main_arg4) := by host_keep
    _ = W5 m ρ c (Proc.devRef .tc main_arg4) := W6_of_ne m ρ c main_arg4 (by decide)
    _ = W4 m ρ c (Proc.devRef .tc main_arg4) := by host_keep
    _ = W3 m ρ c (Proc.devRef .tc main_arg4) := W4_of_ne m ρ c main_arg4 (by decide)
    _ = W2 m ρ c (Proc.devRef .tc main_arg4) := by host_keep
    _ = W1 m ρ c (Proc.devRef .tc main_arg4) := by host_keep
    _ = W0 m ρ c (Proc.devRef .tc main_arg4) := by host_keep

theorem keep_arg5_6_0 : W6 m ρ c (Proc.devRef .tc main_arg5) = W0 m ρ c (Proc.devRef .tc main_arg5) :=
  calc W6 m ρ c (Proc.devRef .tc main_arg5)
    _ = W5 m ρ c (Proc.devRef .tc main_arg5) := W6_of_ne m ρ c main_arg5 (by decide)
    _ = W4 m ρ c (Proc.devRef .tc main_arg5) := by host_keep
    _ = W3 m ρ c (Proc.devRef .tc main_arg5) := W4_of_ne m ρ c main_arg5 (by decide)
    _ = W2 m ρ c (Proc.devRef .tc main_arg5) := by host_keep
    _ = W1 m ρ c (Proc.devRef .tc main_arg5) := by host_keep
    _ = W0 m ρ c (Proc.devRef .tc main_arg5) := by host_keep

theorem keep_arg5_10_0 : W10 m ρ c (Proc.devRef .tc main_arg5) = W0 m ρ c (Proc.devRef .tc main_arg5) :=
  calc W10 m ρ c (Proc.devRef .tc main_arg5)
    _ = W9 m ρ c (Proc.devRef .tc main_arg5) := W10_of_ne m ρ c main_arg5 (by decide)
    _ = W8 m ρ c (Proc.devRef .tc main_arg5) := by host_keep
    _ = W7 m ρ c (Proc.devRef .tc main_arg5) := W8_of_ne m ρ c main_arg5 (by decide)
    _ = W6 m ρ c (Proc.devRef .tc main_arg5) := by host_keep
    _ = W5 m ρ c (Proc.devRef .tc main_arg5) := W6_of_ne m ρ c main_arg5 (by decide)
    _ = W4 m ρ c (Proc.devRef .tc main_arg5) := by host_keep
    _ = W3 m ρ c (Proc.devRef .tc main_arg5) := W4_of_ne m ρ c main_arg5 (by decide)
    _ = W2 m ρ c (Proc.devRef .tc main_arg5) := by host_keep
    _ = W1 m ρ c (Proc.devRef .tc main_arg5) := by host_keep
    _ = W0 m ρ c (Proc.devRef .tc main_arg5) := by host_keep

theorem keep_arg5_14_0 : W14 m ρ c (Proc.devRef .tc main_arg5) = W0 m ρ c (Proc.devRef .tc main_arg5) :=
  calc W14 m ρ c (Proc.devRef .tc main_arg5)
    _ = W13 m ρ c (Proc.devRef .tc main_arg5) := W14_of_ne m ρ c main_arg5 (by decide)
    _ = W12 m ρ c (Proc.devRef .tc main_arg5) := by host_keep
    _ = W11 m ρ c (Proc.devRef .tc main_arg5) := W12_of_ne m ρ c main_arg5 (by decide)
    _ = W10 m ρ c (Proc.devRef .tc main_arg5) := by host_keep
    _ = W9 m ρ c (Proc.devRef .tc main_arg5) := W10_of_ne m ρ c main_arg5 (by decide)
    _ = W8 m ρ c (Proc.devRef .tc main_arg5) := by host_keep
    _ = W7 m ρ c (Proc.devRef .tc main_arg5) := W8_of_ne m ρ c main_arg5 (by decide)
    _ = W6 m ρ c (Proc.devRef .tc main_arg5) := by host_keep
    _ = W5 m ρ c (Proc.devRef .tc main_arg5) := W6_of_ne m ρ c main_arg5 (by decide)
    _ = W4 m ρ c (Proc.devRef .tc main_arg5) := by host_keep
    _ = W3 m ρ c (Proc.devRef .tc main_arg5) := W4_of_ne m ρ c main_arg5 (by decide)
    _ = W2 m ρ c (Proc.devRef .tc main_arg5) := by host_keep
    _ = W1 m ρ c (Proc.devRef .tc main_arg5) := by host_keep
    _ = W0 m ρ c (Proc.devRef .tc main_arg5) := by host_keep

theorem keep_arg6_6_0 : W6 m ρ c (Proc.devRef .tc main_arg6) = W0 m ρ c (Proc.devRef .tc main_arg6) :=
  calc W6 m ρ c (Proc.devRef .tc main_arg6)
    _ = W5 m ρ c (Proc.devRef .tc main_arg6) := W6_of_ne m ρ c main_arg6 (by decide)
    _ = W4 m ρ c (Proc.devRef .tc main_arg6) := by host_keep
    _ = W3 m ρ c (Proc.devRef .tc main_arg6) := W4_of_ne m ρ c main_arg6 (by decide)
    _ = W2 m ρ c (Proc.devRef .tc main_arg6) := by host_keep
    _ = W1 m ρ c (Proc.devRef .tc main_arg6) := by host_keep
    _ = W0 m ρ c (Proc.devRef .tc main_arg6) := by host_keep

theorem keep_arg6_10_0 : W10 m ρ c (Proc.devRef .tc main_arg6) = W0 m ρ c (Proc.devRef .tc main_arg6) :=
  calc W10 m ρ c (Proc.devRef .tc main_arg6)
    _ = W9 m ρ c (Proc.devRef .tc main_arg6) := W10_of_ne m ρ c main_arg6 (by decide)
    _ = W8 m ρ c (Proc.devRef .tc main_arg6) := by host_keep
    _ = W7 m ρ c (Proc.devRef .tc main_arg6) := W8_of_ne m ρ c main_arg6 (by decide)
    _ = W6 m ρ c (Proc.devRef .tc main_arg6) := by host_keep
    _ = W5 m ρ c (Proc.devRef .tc main_arg6) := W6_of_ne m ρ c main_arg6 (by decide)
    _ = W4 m ρ c (Proc.devRef .tc main_arg6) := by host_keep
    _ = W3 m ρ c (Proc.devRef .tc main_arg6) := W4_of_ne m ρ c main_arg6 (by decide)
    _ = W2 m ρ c (Proc.devRef .tc main_arg6) := by host_keep
    _ = W1 m ρ c (Proc.devRef .tc main_arg6) := by host_keep
    _ = W0 m ρ c (Proc.devRef .tc main_arg6) := by host_keep

theorem keep_arg6_14_0 : W14 m ρ c (Proc.devRef .tc main_arg6) = W0 m ρ c (Proc.devRef .tc main_arg6) :=
  calc W14 m ρ c (Proc.devRef .tc main_arg6)
    _ = W13 m ρ c (Proc.devRef .tc main_arg6) := W14_of_ne m ρ c main_arg6 (by decide)
    _ = W12 m ρ c (Proc.devRef .tc main_arg6) := by host_keep
    _ = W11 m ρ c (Proc.devRef .tc main_arg6) := W12_of_ne m ρ c main_arg6 (by decide)
    _ = W10 m ρ c (Proc.devRef .tc main_arg6) := by host_keep
    _ = W9 m ρ c (Proc.devRef .tc main_arg6) := W10_of_ne m ρ c main_arg6 (by decide)
    _ = W8 m ρ c (Proc.devRef .tc main_arg6) := by host_keep
    _ = W7 m ρ c (Proc.devRef .tc main_arg6) := W8_of_ne m ρ c main_arg6 (by decide)
    _ = W6 m ρ c (Proc.devRef .tc main_arg6) := by host_keep
    _ = W5 m ρ c (Proc.devRef .tc main_arg6) := W6_of_ne m ρ c main_arg6 (by decide)
    _ = W4 m ρ c (Proc.devRef .tc main_arg6) := by host_keep
    _ = W3 m ρ c (Proc.devRef .tc main_arg6) := W4_of_ne m ρ c main_arg6 (by decide)
    _ = W2 m ρ c (Proc.devRef .tc main_arg6) := by host_keep
    _ = W1 m ρ c (Proc.devRef .tc main_arg6) := by host_keep
    _ = W0 m ρ c (Proc.devRef .tc main_arg6) := by host_keep

theorem keep_arg7_6_0 : W6 m ρ c (Proc.devRef .tc main_arg7) = W0 m ρ c (Proc.devRef .tc main_arg7) :=
  calc W6 m ρ c (Proc.devRef .tc main_arg7)
    _ = W5 m ρ c (Proc.devRef .tc main_arg7) := W6_of_ne m ρ c main_arg7 (by decide)
    _ = W4 m ρ c (Proc.devRef .tc main_arg7) := by host_keep
    _ = W3 m ρ c (Proc.devRef .tc main_arg7) := W4_of_ne m ρ c main_arg7 (by decide)
    _ = W2 m ρ c (Proc.devRef .tc main_arg7) := by host_keep
    _ = W1 m ρ c (Proc.devRef .tc main_arg7) := by host_keep
    _ = W0 m ρ c (Proc.devRef .tc main_arg7) := by host_keep

theorem keep_arg7_10_0 : W10 m ρ c (Proc.devRef .tc main_arg7) = W0 m ρ c (Proc.devRef .tc main_arg7) :=
  calc W10 m ρ c (Proc.devRef .tc main_arg7)
    _ = W9 m ρ c (Proc.devRef .tc main_arg7) := W10_of_ne m ρ c main_arg7 (by decide)
    _ = W8 m ρ c (Proc.devRef .tc main_arg7) := by host_keep
    _ = W7 m ρ c (Proc.devRef .tc main_arg7) := W8_of_ne m ρ c main_arg7 (by decide)
    _ = W6 m ρ c (Proc.devRef .tc main_arg7) := by host_keep
    _ = W5 m ρ c (Proc.devRef .tc main_arg7) := W6_of_ne m ρ c main_arg7 (by decide)
    _ = W4 m ρ c (Proc.devRef .tc main_arg7) := by host_keep
    _ = W3 m ρ c (Proc.devRef .tc main_arg7) := W4_of_ne m ρ c main_arg7 (by decide)
    _ = W2 m ρ c (Proc.devRef .tc main_arg7) := by host_keep
    _ = W1 m ρ c (Proc.devRef .tc main_arg7) := by host_keep
    _ = W0 m ρ c (Proc.devRef .tc main_arg7) := by host_keep

theorem keep_arg7_14_0 : W14 m ρ c (Proc.devRef .tc main_arg7) = W0 m ρ c (Proc.devRef .tc main_arg7) :=
  calc W14 m ρ c (Proc.devRef .tc main_arg7)
    _ = W13 m ρ c (Proc.devRef .tc main_arg7) := W14_of_ne m ρ c main_arg7 (by decide)
    _ = W12 m ρ c (Proc.devRef .tc main_arg7) := by host_keep
    _ = W11 m ρ c (Proc.devRef .tc main_arg7) := W12_of_ne m ρ c main_arg7 (by decide)
    _ = W10 m ρ c (Proc.devRef .tc main_arg7) := by host_keep
    _ = W9 m ρ c (Proc.devRef .tc main_arg7) := W10_of_ne m ρ c main_arg7 (by decide)
    _ = W8 m ρ c (Proc.devRef .tc main_arg7) := by host_keep
    _ = W7 m ρ c (Proc.devRef .tc main_arg7) := W8_of_ne m ρ c main_arg7 (by decide)
    _ = W6 m ρ c (Proc.devRef .tc main_arg7) := by host_keep
    _ = W5 m ρ c (Proc.devRef .tc main_arg7) := W6_of_ne m ρ c main_arg7 (by decide)
    _ = W4 m ρ c (Proc.devRef .tc main_arg7) := by host_keep
    _ = W3 m ρ c (Proc.devRef .tc main_arg7) := W4_of_ne m ρ c main_arg7 (by decide)
    _ = W2 m ρ c (Proc.devRef .tc main_arg7) := by host_keep
    _ = W1 m ρ c (Proc.devRef .tc main_arg7) := by host_keep
    _ = W0 m ρ c (Proc.devRef .tc main_arg7) := by host_keep

theorem keep_arg8_17_0 : W17 m ρ c (Proc.devRef .tc main_arg8) = W0 m ρ c (Proc.devRef .tc main_arg8) :=
  calc W17 m ρ c (Proc.devRef .tc main_arg8)
    _ = W16 m ρ c (Proc.devRef .tc main_arg8) := by host_keep
    _ = W15 m ρ c (Proc.devRef .tc main_arg8) := W16_of_ne m ρ c main_arg8 (by decide)
    _ = W14 m ρ c (Proc.devRef .tc main_arg8) := by host_keep
    _ = W13 m ρ c (Proc.devRef .tc main_arg8) := W14_of_ne m ρ c main_arg8 (by decide)
    _ = W12 m ρ c (Proc.devRef .tc main_arg8) := by host_keep
    _ = W11 m ρ c (Proc.devRef .tc main_arg8) := W12_of_ne m ρ c main_arg8 (by decide)
    _ = W10 m ρ c (Proc.devRef .tc main_arg8) := by host_keep
    _ = W9 m ρ c (Proc.devRef .tc main_arg8) := W10_of_ne m ρ c main_arg8 (by decide)
    _ = W8 m ρ c (Proc.devRef .tc main_arg8) := by host_keep
    _ = W7 m ρ c (Proc.devRef .tc main_arg8) := W8_of_ne m ρ c main_arg8 (by decide)
    _ = W6 m ρ c (Proc.devRef .tc main_arg8) := by host_keep
    _ = W5 m ρ c (Proc.devRef .tc main_arg8) := W6_of_ne m ρ c main_arg8 (by decide)
    _ = W4 m ρ c (Proc.devRef .tc main_arg8) := by host_keep
    _ = W3 m ρ c (Proc.devRef .tc main_arg8) := W4_of_ne m ρ c main_arg8 (by decide)
    _ = W2 m ρ c (Proc.devRef .tc main_arg8) := by host_keep
    _ = W1 m ρ c (Proc.devRef .tc main_arg8) := by host_keep
    _ = W0 m ρ c (Proc.devRef .tc main_arg8) := by host_keep

theorem keep_arg9_16_0 : W16 m ρ c (Proc.devRef .tc main_arg9) = W0 m ρ c (Proc.devRef .tc main_arg9) :=
  calc W16 m ρ c (Proc.devRef .tc main_arg9)
    _ = W15 m ρ c (Proc.devRef .tc main_arg9) := W16_of_ne m ρ c main_arg9 (by decide)
    _ = W14 m ρ c (Proc.devRef .tc main_arg9) := by host_keep
    _ = W13 m ρ c (Proc.devRef .tc main_arg9) := W14_of_ne m ρ c main_arg9 (by decide)
    _ = W12 m ρ c (Proc.devRef .tc main_arg9) := by host_keep
    _ = W11 m ρ c (Proc.devRef .tc main_arg9) := W12_of_ne m ρ c main_arg9 (by decide)
    _ = W10 m ρ c (Proc.devRef .tc main_arg9) := by host_keep
    _ = W9 m ρ c (Proc.devRef .tc main_arg9) := W10_of_ne m ρ c main_arg9 (by decide)
    _ = W8 m ρ c (Proc.devRef .tc main_arg9) := by host_keep
    _ = W7 m ρ c (Proc.devRef .tc main_arg9) := W8_of_ne m ρ c main_arg9 (by decide)
    _ = W6 m ρ c (Proc.devRef .tc main_arg9) := by host_keep
    _ = W5 m ρ c (Proc.devRef .tc main_arg9) := W6_of_ne m ρ c main_arg9 (by decide)
    _ = W4 m ρ c (Proc.devRef .tc main_arg9) := by host_keep
    _ = W3 m ρ c (Proc.devRef .tc main_arg9) := W4_of_ne m ρ c main_arg9 (by decide)
    _ = W2 m ρ c (Proc.devRef .tc main_arg9) := by host_keep
    _ = W1 m ρ c (Proc.devRef .tc main_arg9) := by host_keep
    _ = W0 m ρ c (Proc.devRef .tc main_arg9) := by host_keep

theorem keep_v3_6_1 : W6 m ρ c (Proc.devRef .tc main_v3) = W1 m ρ c (Proc.devRef .tc main_v3) :=
  calc W6 m ρ c (Proc.devRef .tc main_v3)
    _ = W5 m ρ c (Proc.devRef .tc main_v3) := W6_of_ne m ρ c main_v3 (by decide)
    _ = W4 m ρ c (Proc.devRef .tc main_v3) := by host_keep
    _ = W3 m ρ c (Proc.devRef .tc main_v3) := W4_of_ne m ρ c main_v3 (by decide)
    _ = W2 m ρ c (Proc.devRef .tc main_v3) := by host_keep
    _ = W1 m ρ c (Proc.devRef .tc main_v3) := by host_keep

theorem keep_v3_10_1 : W10 m ρ c (Proc.devRef .tc main_v3) = W1 m ρ c (Proc.devRef .tc main_v3) :=
  calc W10 m ρ c (Proc.devRef .tc main_v3)
    _ = W9 m ρ c (Proc.devRef .tc main_v3) := W10_of_ne m ρ c main_v3 (by decide)
    _ = W8 m ρ c (Proc.devRef .tc main_v3) := by host_keep
    _ = W7 m ρ c (Proc.devRef .tc main_v3) := W8_of_ne m ρ c main_v3 (by decide)
    _ = W6 m ρ c (Proc.devRef .tc main_v3) := by host_keep
    _ = W5 m ρ c (Proc.devRef .tc main_v3) := W6_of_ne m ρ c main_v3 (by decide)
    _ = W4 m ρ c (Proc.devRef .tc main_v3) := by host_keep
    _ = W3 m ρ c (Proc.devRef .tc main_v3) := W4_of_ne m ρ c main_v3 (by decide)
    _ = W2 m ρ c (Proc.devRef .tc main_v3) := by host_keep
    _ = W1 m ρ c (Proc.devRef .tc main_v3) := by host_keep

theorem keep_v3_14_1 : W14 m ρ c (Proc.devRef .tc main_v3) = W1 m ρ c (Proc.devRef .tc main_v3) :=
  calc W14 m ρ c (Proc.devRef .tc main_v3)
    _ = W13 m ρ c (Proc.devRef .tc main_v3) := W14_of_ne m ρ c main_v3 (by decide)
    _ = W12 m ρ c (Proc.devRef .tc main_v3) := by host_keep
    _ = W11 m ρ c (Proc.devRef .tc main_v3) := W12_of_ne m ρ c main_v3 (by decide)
    _ = W10 m ρ c (Proc.devRef .tc main_v3) := by host_keep
    _ = W9 m ρ c (Proc.devRef .tc main_v3) := W10_of_ne m ρ c main_v3 (by decide)
    _ = W8 m ρ c (Proc.devRef .tc main_v3) := by host_keep
    _ = W7 m ρ c (Proc.devRef .tc main_v3) := W8_of_ne m ρ c main_v3 (by decide)
    _ = W6 m ρ c (Proc.devRef .tc main_v3) := by host_keep
    _ = W5 m ρ c (Proc.devRef .tc main_v3) := W6_of_ne m ρ c main_v3 (by decide)
    _ = W4 m ρ c (Proc.devRef .tc main_v3) := by host_keep
    _ = W3 m ρ c (Proc.devRef .tc main_v3) := W4_of_ne m ρ c main_v3 (by decide)
    _ = W2 m ρ c (Proc.devRef .tc main_v3) := by host_keep
    _ = W1 m ρ c (Proc.devRef .tc main_v3) := by host_keep

theorem keep_v6_6_1 : W6 m ρ c (Proc.devRef .tc main_v6) = W1 m ρ c (Proc.devRef .tc main_v6) :=
  calc W6 m ρ c (Proc.devRef .tc main_v6)
    _ = W5 m ρ c (Proc.devRef .tc main_v6) := W6_of_ne m ρ c main_v6 (by decide)
    _ = W4 m ρ c (Proc.devRef .tc main_v6) := by host_keep
    _ = W3 m ρ c (Proc.devRef .tc main_v6) := W4_of_ne m ρ c main_v6 (by decide)
    _ = W2 m ρ c (Proc.devRef .tc main_v6) := by host_keep
    _ = W1 m ρ c (Proc.devRef .tc main_v6) := by host_keep

theorem keep_v6_10_1 : W10 m ρ c (Proc.devRef .tc main_v6) = W1 m ρ c (Proc.devRef .tc main_v6) :=
  calc W10 m ρ c (Proc.devRef .tc main_v6)
    _ = W9 m ρ c (Proc.devRef .tc main_v6) := W10_of_ne m ρ c main_v6 (by decide)
    _ = W8 m ρ c (Proc.devRef .tc main_v6) := by host_keep
    _ = W7 m ρ c (Proc.devRef .tc main_v6) := W8_of_ne m ρ c main_v6 (by decide)
    _ = W6 m ρ c (Proc.devRef .tc main_v6) := by host_keep
    _ = W5 m ρ c (Proc.devRef .tc main_v6) := W6_of_ne m ρ c main_v6 (by decide)
    _ = W4 m ρ c (Proc.devRef .tc main_v6) := by host_keep
    _ = W3 m ρ c (Proc.devRef .tc main_v6) := W4_of_ne m ρ c main_v6 (by decide)
    _ = W2 m ρ c (Proc.devRef .tc main_v6) := by host_keep
    _ = W1 m ρ c (Proc.devRef .tc main_v6) := by host_keep

theorem keep_v6_14_1 : W14 m ρ c (Proc.devRef .tc main_v6) = W1 m ρ c (Proc.devRef .tc main_v6) :=
  calc W14 m ρ c (Proc.devRef .tc main_v6)
    _ = W13 m ρ c (Proc.devRef .tc main_v6) := W14_of_ne m ρ c main_v6 (by decide)
    _ = W12 m ρ c (Proc.devRef .tc main_v6) := by host_keep
    _ = W11 m ρ c (Proc.devRef .tc main_v6) := W12_of_ne m ρ c main_v6 (by decide)
    _ = W10 m ρ c (Proc.devRef .tc main_v6) := by host_keep
    _ = W9 m ρ c (Proc.devRef .tc main_v6) := W10_of_ne m ρ c main_v6 (by decide)
    _ = W8 m ρ c (Proc.devRef .tc main_v6) := by host_keep
    _ = W7 m ρ c (Proc.devRef .tc main_v6) := W8_of_ne m ρ c main_v6 (by decide)
    _ = W6 m ρ c (Proc.devRef .tc main_v6) := by host_keep
    _ = W5 m ρ c (Proc.devRef .tc main_v6) := W6_of_ne m ρ c main_v6 (by decide)
    _ = W4 m ρ c (Proc.devRef .tc main_v6) := by host_keep
    _ = W3 m ρ c (Proc.devRef .tc main_v6) := W4_of_ne m ρ c main_v6 (by decide)
    _ = W2 m ρ c (Proc.devRef .tc main_v6) := by host_keep
    _ = W1 m ρ c (Proc.devRef .tc main_v6) := by host_keep

theorem keep_v16_5_3 : W5 m ρ c (Proc.devRef .tc main_v16) = W3 m ρ c (Proc.devRef .tc main_v16) :=
  calc W5 m ρ c (Proc.devRef .tc main_v16)
    _ = W4 m ρ c (Proc.devRef .tc main_v16) := by host_keep
    _ = W3 m ρ c (Proc.devRef .tc main_v16) := W4_of_ne m ρ c main_v16 (by decide)

theorem keep_v16_7_3 : W7 m ρ c (Proc.devRef .tc main_v16) = W3 m ρ c (Proc.devRef .tc main_v16) :=
  calc W7 m ρ c (Proc.devRef .tc main_v16)
    _ = W6 m ρ c (Proc.devRef .tc main_v16) := by host_keep
    _ = W5 m ρ c (Proc.devRef .tc main_v16) := (W6_arr m ρ c 2).trans (((dat1 (V5 m ρ) c).arrAt_in 2 rfl _).trans (A_eq1 (V5 m ρ) c 2))
    _ = W4 m ρ c (Proc.devRef .tc main_v16) := by host_keep
    _ = W3 m ρ c (Proc.devRef .tc main_v16) := W4_of_ne m ρ c main_v16 (by decide)

theorem keep_v16_9_3 : W9 m ρ c (Proc.devRef .tc main_v16) = W3 m ρ c (Proc.devRef .tc main_v16) :=
  calc W9 m ρ c (Proc.devRef .tc main_v16)
    _ = W8 m ρ c (Proc.devRef .tc main_v16) := by host_keep
    _ = W7 m ρ c (Proc.devRef .tc main_v16) := (W8_arr m ρ c 5).trans (((dat2 (V7 m ρ) c).arrAt_in 5 rfl _).trans (A_eq2 (V7 m ρ) c 5))
    _ = W6 m ρ c (Proc.devRef .tc main_v16) := by host_keep
    _ = W5 m ρ c (Proc.devRef .tc main_v16) := (W6_arr m ρ c 2).trans (((dat1 (V5 m ρ) c).arrAt_in 2 rfl _).trans (A_eq1 (V5 m ρ) c 2))
    _ = W4 m ρ c (Proc.devRef .tc main_v16) := by host_keep
    _ = W3 m ρ c (Proc.devRef .tc main_v16) := W4_of_ne m ρ c main_v16 (by decide)

theorem keep_v16_11_3 : W11 m ρ c (Proc.devRef .tc main_v16) = W3 m ρ c (Proc.devRef .tc main_v16) :=
  calc W11 m ρ c (Proc.devRef .tc main_v16)
    _ = W10 m ρ c (Proc.devRef .tc main_v16) := by host_keep
    _ = W9 m ρ c (Proc.devRef .tc main_v16) := (W10_arr m ρ c 2).trans (((dat3 (V9 m ρ) c).arrAt_in 2 rfl _).trans (A_eq3 (V9 m ρ) c 2))
    _ = W8 m ρ c (Proc.devRef .tc main_v16) := by host_keep
    _ = W7 m ρ c (Proc.devRef .tc main_v16) := (W8_arr m ρ c 5).trans (((dat2 (V7 m ρ) c).arrAt_in 5 rfl _).trans (A_eq2 (V7 m ρ) c 5))
    _ = W6 m ρ c (Proc.devRef .tc main_v16) := by host_keep
    _ = W5 m ρ c (Proc.devRef .tc main_v16) := (W6_arr m ρ c 2).trans (((dat1 (V5 m ρ) c).arrAt_in 2 rfl _).trans (A_eq1 (V5 m ρ) c 2))
    _ = W4 m ρ c (Proc.devRef .tc main_v16) := by host_keep
    _ = W3 m ρ c (Proc.devRef .tc main_v16) := W4_of_ne m ρ c main_v16 (by decide)

theorem keep_v16_13_3 : W13 m ρ c (Proc.devRef .tc main_v16) = W3 m ρ c (Proc.devRef .tc main_v16) :=
  calc W13 m ρ c (Proc.devRef .tc main_v16)
    _ = W12 m ρ c (Proc.devRef .tc main_v16) := by host_keep
    _ = W11 m ρ c (Proc.devRef .tc main_v16) := (W12_arr m ρ c 5).trans (((dat4 (V11 m ρ) c).arrAt_in 5 rfl _).trans (A_eq4 (V11 m ρ) c 5))
    _ = W10 m ρ c (Proc.devRef .tc main_v16) := by host_keep
    _ = W9 m ρ c (Proc.devRef .tc main_v16) := (W10_arr m ρ c 2).trans (((dat3 (V9 m ρ) c).arrAt_in 2 rfl _).trans (A_eq3 (V9 m ρ) c 2))
    _ = W8 m ρ c (Proc.devRef .tc main_v16) := by host_keep
    _ = W7 m ρ c (Proc.devRef .tc main_v16) := (W8_arr m ρ c 5).trans (((dat2 (V7 m ρ) c).arrAt_in 5 rfl _).trans (A_eq2 (V7 m ρ) c 5))
    _ = W6 m ρ c (Proc.devRef .tc main_v16) := by host_keep
    _ = W5 m ρ c (Proc.devRef .tc main_v16) := (W6_arr m ρ c 2).trans (((dat1 (V5 m ρ) c).arrAt_in 2 rfl _).trans (A_eq1 (V5 m ρ) c 2))
    _ = W4 m ρ c (Proc.devRef .tc main_v16) := by host_keep
    _ = W3 m ρ c (Proc.devRef .tc main_v16) := W4_of_ne m ρ c main_v16 (by decide)

theorem keep_v16_15_3 : W15 m ρ c (Proc.devRef .tc main_v16) = W3 m ρ c (Proc.devRef .tc main_v16) :=
  calc W15 m ρ c (Proc.devRef .tc main_v16)
    _ = W14 m ρ c (Proc.devRef .tc main_v16) := by host_keep
    _ = W13 m ρ c (Proc.devRef .tc main_v16) := (W14_arr m ρ c 2).trans (((dat5 (V13 m ρ) c).arrAt_in 2 rfl _).trans (A_eq5 (V13 m ρ) c 2))
    _ = W12 m ρ c (Proc.devRef .tc main_v16) := by host_keep
    _ = W11 m ρ c (Proc.devRef .tc main_v16) := (W12_arr m ρ c 5).trans (((dat4 (V11 m ρ) c).arrAt_in 5 rfl _).trans (A_eq4 (V11 m ρ) c 5))
    _ = W10 m ρ c (Proc.devRef .tc main_v16) := by host_keep
    _ = W9 m ρ c (Proc.devRef .tc main_v16) := (W10_arr m ρ c 2).trans (((dat3 (V9 m ρ) c).arrAt_in 2 rfl _).trans (A_eq3 (V9 m ρ) c 2))
    _ = W8 m ρ c (Proc.devRef .tc main_v16) := by host_keep
    _ = W7 m ρ c (Proc.devRef .tc main_v16) := (W8_arr m ρ c 5).trans (((dat2 (V7 m ρ) c).arrAt_in 5 rfl _).trans (A_eq2 (V7 m ρ) c 5))
    _ = W6 m ρ c (Proc.devRef .tc main_v16) := by host_keep
    _ = W5 m ρ c (Proc.devRef .tc main_v16) := (W6_arr m ρ c 2).trans (((dat1 (V5 m ρ) c).arrAt_in 2 rfl _).trans (A_eq1 (V5 m ρ) c 2))
    _ = W4 m ρ c (Proc.devRef .tc main_v16) := by host_keep
    _ = W3 m ρ c (Proc.devRef .tc main_v16) := W4_of_ne m ρ c main_v16 (by decide)

theorem keep_v18_5_4 : W5 m ρ c (Proc.devRef .tc main_v18) = W4 m ρ c (Proc.devRef .tc main_v18) :=
  calc W5 m ρ c (Proc.devRef .tc main_v18)
    _ = W4 m ρ c (Proc.devRef .tc main_v18) := by host_keep

theorem keep_v18_7_4 : W7 m ρ c (Proc.devRef .tc main_v18) = W4 m ρ c (Proc.devRef .tc main_v18) :=
  calc W7 m ρ c (Proc.devRef .tc main_v18)
    _ = W6 m ρ c (Proc.devRef .tc main_v18) := by host_keep
    _ = W5 m ρ c (Proc.devRef .tc main_v18) := (W6_arr m ρ c 0).trans (((dat1 (V5 m ρ) c).arrAt_in 0 rfl _).trans (A_eq1 (V5 m ρ) c 0))
    _ = W4 m ρ c (Proc.devRef .tc main_v18) := by host_keep

theorem keep_v40_9_8 : W9 m ρ c (Proc.devRef .tc main_v40) = W8 m ρ c (Proc.devRef .tc main_v40) :=
  calc W9 m ρ c (Proc.devRef .tc main_v40)
    _ = W8 m ρ c (Proc.devRef .tc main_v40) := by host_keep

theorem keep_v40_11_8 : W11 m ρ c (Proc.devRef .tc main_v40) = W8 m ρ c (Proc.devRef .tc main_v40) :=
  calc W11 m ρ c (Proc.devRef .tc main_v40)
    _ = W10 m ρ c (Proc.devRef .tc main_v40) := by host_keep
    _ = W9 m ρ c (Proc.devRef .tc main_v40) := (W10_arr m ρ c 0).trans (((dat3 (V9 m ρ) c).arrAt_in 0 rfl _).trans (A_eq3 (V9 m ρ) c 0))
    _ = W8 m ρ c (Proc.devRef .tc main_v40) := by host_keep

theorem keep_v62_13_12 : W13 m ρ c (Proc.devRef .tc main_v62) = W12 m ρ c (Proc.devRef .tc main_v62) :=
  calc W13 m ρ c (Proc.devRef .tc main_v62)
    _ = W12 m ρ c (Proc.devRef .tc main_v62) := by host_keep

theorem keep_v62_15_12 : W15 m ρ c (Proc.devRef .tc main_v62) = W12 m ρ c (Proc.devRef .tc main_v62) :=
  calc W15 m ρ c (Proc.devRef .tc main_v62)
    _ = W14 m ρ c (Proc.devRef .tc main_v62) := by host_keep
    _ = W13 m ρ c (Proc.devRef .tc main_v62) := (W14_arr m ρ c 0).trans (((dat5 (V13 m ρ) c).arrAt_in 0 rfl _).trans (A_eq5 (V13 m ρ) c 0))
    _ = W12 m ρ c (Proc.devRef .tc main_v62) := by host_keep

theorem keep_v84_17_16 : W17 m ρ c (Proc.devRef .tc main_v84) = W16 m ρ c (Proc.devRef .tc main_v84) :=
  calc W17 m ρ c (Proc.devRef .tc main_v84)
    _ = W16 m ρ c (Proc.devRef .tc main_v84) := by host_keep

/-! ## The host's preamble: the edge lists with self-loops, and the nodes' factors -/

/-- The edges' sources (self-loops appended). -/
theorem src_1 : W1 m ρ c (Proc.devRef .tc main_v3) = Cert.ReferenceIdeal.ReadP.val_main_v3 (F := Ideal) (m ((c : Thread nD τ).loc main_arg1)) := by
  show StableHlo.after hostOps0 (W0 m ρ c) (Proc.devRef .tc main_v3) = _
  simp only [hostOps0]
  after_results
  rfl

/-- The edges' destinations (self-loops appended). -/
theorem dst_1 : W1 m ρ c (Proc.devRef .tc main_v6) = Cert.ReferenceIdeal.ReadP.val_main_v6 (F := Ideal) (m ((c : Thread nD τ).loc main_arg1)) := by
  show StableHlo.after hostOps0 (W0 m ρ c) (Proc.devRef .tc main_v6) = _
  simp only [hostOps0]
  after_results
  rfl

set_option maxHeartbeats 1000000 in
/-- The nodes' in-degrees, self-loops counted: ones added at the edges' destinations. -/
theorem deg_1 : W1 m ρ c (Proc.devRef .tc main_v10) = Cert.ReferenceIdeal.ReadP.val_main_v10 (F := Ideal) (m ((c : Thread nD τ).loc main_arg1)) := by
  show StableHlo.after hostOps0 (W0 m ρ c) (Proc.devRef .tc main_v10) = _
  simp only [hostOps0]
  after_results
  rfl

set_option maxHeartbeats 1000000 in
/-- Where the degree is positive. -/
theorem pos_1 : W1 m ρ c (Proc.devRef .tc main_v12) = Cert.ReferenceIdeal.ReadP.val_main_v12 (F := Ideal) (m ((c : Thread nD τ).loc main_arg1)) := by
  show StableHlo.after hostOps0 (W0 m ρ c) (Proc.devRef .tc main_v12) = _
  simp only [hostOps0]
  after_results
  rfl

set_option maxHeartbeats 1000000 in
/-- The degrees to the power `-1/2`. -/
theorem pow_1 : W1 m ρ c (Proc.devRef .tc main_v14) = Cert.ReferenceIdeal.ReadP.val_main_v14 (F := Ideal) (m ((c : Thread nD τ).loc main_arg1)) := by
  show StableHlo.after hostOps0 (W0 m ρ c) (Proc.devRef .tc main_v14) = _
  simp only [hostOps0]
  after_results
  rfl

set_option maxHeartbeats 1000000 in
/-- The zero the factors default to. -/
theorem zero_1 : W1 m ρ c (Proc.devRef .tc main_cst_3) = constant (F := Ideal) S_ .f32 0x00000000#32 := by
  show StableHlo.after hostOps0 (W0 m ρ c) (Proc.devRef .tc main_cst_3) = _
  simp only [hostOps0]
  after_results

set_option maxHeartbeats 1000000 in
/-- The selection of the factors, from any contents before it. -/
theorem select_of (F : Valuation τ sig (Elt Ideal)) : StableHlo.after hostOps0_1 F (Proc.devRef .tc main_v15)
    = select (F (Proc.devRef .tc main_v12)) (F (Proc.devRef .tc main_v14))
        (broadcastInDim S50000 ![] bcast_S_S50000 (F (Proc.devRef .tc main_cst_3))) := by
  simp only [hostOps0_1]
  after_results
  rfl

/-- The nodes' factors `deg ^ (-1/2)`, zero where the degree is not positive. -/
theorem dis_2 : W2 m ρ c (Proc.devRef .tc main_v15) = Cert.ReferenceIdeal.ReadP.val_main_v15 (F := Ideal) (m ((c : Thread nD τ).loc main_arg1)) := by
  show StableHlo.after hostOps0_1 (W1 m ρ c) (Proc.devRef .tc main_v15) = _
  rw [select_of (W1 m ρ c), pos_1 m ρ c, pow_1 m ρ c, zero_1 m ρ c]
  rfl

set_option maxHeartbeats 1000000 in
/-- The factors reshaped to a column, from any contents before the reshape. -/
theorem column_of (F : Valuation τ sig (Elt Ideal)) : StableHlo.after hostOps0_2 F (Proc.devRef .tc main_v16)
    = colOf (F (Proc.devRef .tc main_v15)) := by
  simp only [hostOps0_2]
  after_results
  rfl

/-- The factors as a column. -/
theorem dcol_3 : W3 m ρ c (Proc.devRef .tc main_v16) = colOf (Cert.ReferenceIdeal.ReadP.val_main_v15 (F := Ideal) (m ((c : Thread nD τ).loc main_arg1))) := by
  show StableHlo.after hostOps0_2 (W2 m ρ c) (Proc.devRef .tc main_v16) = _
  rw [column_of (W2 m ρ c), dis_2 m ρ c]

/-- The input layer's bias as a row. -/
theorem brow_3 : W3 m ρ c (Proc.devRef .tc main_v17) = rowOf (m ((c : Thread nD τ).loc main_arg3)) := by
  show StableHlo.after hostOps0_2 (W2 m ρ c) (Proc.devRef .tc main_v17) = _
  simp only [hostOps0_2]
  after_results
  rfl

/-! ## The input layer -/

/-- The hidden features after the input layer. -/
def H0 : S50000x128.Idx → EReal := linMish (m ((c : Thread nD τ).loc main_arg0)) (m ((c : Thread nD τ).loc main_arg2)) (rowOf (m ((c : Thread nD τ).loc main_arg3)))

theorem h0_4 : W4 m ρ c (Proc.devRef .tc main_v18) = H0 m c :=
  (W4_arr m ρ c 3).trans ((RegionIn.region0 (V3 m ρ) c).trans (by
    show linMish (W3 m ρ c (Proc.devRef .tc main_arg0)) (W3 m ρ c (Proc.devRef .tc main_arg2)) (W3 m ρ c (Proc.devRef .tc main_v17)) = _
    rw [keep_arg0_3_0 m ρ c, keep_arg2_3_0 m ρ c, brow_3 m ρ c]
    rfl))

/-! ## Layer 0 -/

set_option maxHeartbeats 4000000 in
theorem gW_5 : W5 m ρ c (Proc.devRef .tc main_v20) = Cert.ReferenceIdeal.ReadP.val_main_v24 (F := Ideal) (m ((c : Thread nD τ).loc main_arg4)) := by
  show StableHlo.after hostOps1 (W4 m ρ c) (Proc.devRef .tc main_v20) = _
  simp only [hostOps1]
  after_results
  rw [keep_arg4_4_0 m ρ c]
  rfl

theorem hin_5 : W5 m ρ c (Proc.devRef .tc main_v18) = H0 m c := (keep_v18_5_4 m ρ c).trans (h0_4 m ρ c)

theorem dcol_5 : W5 m ρ c (Proc.devRef .tc main_v16) = colOf (Cert.ReferenceIdeal.ReadP.val_main_v15 (F := Ideal) (m ((c : Thread nD τ).loc main_arg1))) := (keep_v16_5_3 m ρ c).trans (dcol_3 m ρ c)

/-- The dense half's result: the features times the convolution's weights, each node's row scaled by its factor. -/
theorem hws_6 : W6 m ρ c (Proc.devRef .tc main_v21) = gcnLin (H0 m c) (Cert.ReferenceIdeal.ReadP.val_main_v24 (F := Ideal) (m ((c : Thread nD τ).loc main_arg4))) (colOf (Cert.ReferenceIdeal.ReadP.val_main_v15 (F := Ideal) (m ((c : Thread nD τ).loc main_arg1)))) :=
  (W6_arr m ρ c 3).trans ((RegionDense.region1 (V5 m ρ) c).trans (by
    show gcnLin (W5 m ρ c (Proc.devRef .tc main_v18)) (W5 m ρ c (Proc.devRef .tc main_v20)) (W5 m ρ c (Proc.devRef .tc main_v16)) = _
    rw [hin_5 m ρ c, gW_5 m ρ c, dcol_5 m ρ c]))

theorem hin_7 : W7 m ρ c (Proc.devRef .tc main_v18) = H0 m c := (keep_v18_7_4 m ρ c).trans (h0_4 m ρ c)

theorem dcol_7 : W7 m ρ c (Proc.devRef .tc main_v16) = colOf (Cert.ReferenceIdeal.ReadP.val_main_v15 (F := Ideal) (m ((c : Thread nD τ).loc main_arg1))) := (keep_v16_7_3 m ρ c).trans (dcol_3 m ρ c)

set_option maxHeartbeats 4000000 in
theorem sW_7 : W7 m ρ c (Proc.devRef .tc main_v33) = Cert.ReferenceIdeal.ReadP.val_main_v60 (F := Ideal) (m ((c : Thread nD τ).loc main_arg6)) := by
  show StableHlo.after hostOps2 (W6 m ρ c) (Proc.devRef .tc main_v33) = _
  simp only [hostOps2]
  after_results
  rw [keep_arg6_6_0 m ρ c]
  rfl

set_option maxHeartbeats 4000000 in
theorem sb_7 : W7 m ρ c (Proc.devRef .tc main_v38) = rowOf (Cert.ReferenceIdeal.ReadP.val_main_v63 (F := Ideal) (m ((c : Thread nD τ).loc main_arg7))) := by
  show StableHlo.after hostOps2 (W6 m ρ c) (Proc.devRef .tc main_v38) = _
  simp only [hostOps2]
  after_results
  rw [keep_arg7_6_0 m ρ c]
  rfl

set_option maxHeartbeats 4000000 in
theorem gb_7 : W7 m ρ c (Proc.devRef .tc main_v39) = rowOf (Cert.ReferenceIdeal.ReadP.val_main_v26 (F := Ideal) (m ((c : Thread nD τ).loc main_arg5))) := by
  show StableHlo.after hostOps2 (W6 m ρ c) (Proc.devRef .tc main_v39) = _
  simp only [hostOps2]
  after_results
  rw [keep_arg5_6_0 m ρ c]
  rfl

set_option maxHeartbeats 4000000 in
/-- The aggregated messages: the dense half's rows gathered along the edges and added at their destinations. -/
theorem agg_7 : W7 m ρ c (Proc.devRef .tc main_v31)
    = aggK (gcnLin (H0 m c) (Cert.ReferenceIdeal.ReadP.val_main_v24 (F := Ideal) (m ((c : Thread nD τ).loc main_arg4))) (colOf (Cert.ReferenceIdeal.ReadP.val_main_v15 (F := Ideal) (m ((c : Thread nD τ).loc main_arg1))))) (Cert.ReferenceIdeal.ReadP.val_main_v53 (F := Ideal)) (Cert.ReferenceIdeal.ReadP.val_main_v54 (F := Ideal) (m ((c : Thread nD τ).loc main_arg1))) (Cert.ReferenceIdeal.ReadP.val_main_v48 (F := Ideal) (m ((c : Thread nD τ).loc main_arg1))) := by
  show StableHlo.after hostOps2 (W6 m ρ c) (Proc.devRef .tc main_v31) = _
  simp only [hostOps2]
  after_results
  rw [hws_6 m ρ c, keep_v3_6_1 m ρ c, keep_v6_6_1 m ρ c, src_1 m ρ c, dst_1 m ρ c]
  rfl

/-- The hidden features after layer 0. -/
def H1 : S50000x128.Idx → EReal :=
  layerK (H0 m c) (Cert.ReferenceIdeal.ReadP.val_main_v24 (F := Ideal) (m ((c : Thread nD τ).loc main_arg4))) (Cert.ReferenceIdeal.ReadP.val_main_v60 (F := Ideal) (m ((c : Thread nD τ).loc main_arg6))) (Cert.ReferenceIdeal.ReadP.val_main_v63 (F := Ideal) (m ((c : Thread nD τ).loc main_arg7))) (Cert.ReferenceIdeal.ReadP.val_main_v26 (F := Ideal) (m ((c : Thread nD τ).loc main_arg5))) (Cert.ReferenceIdeal.ReadP.val_main_v15 (F := Ideal) (m ((c : Thread nD τ).loc main_arg1))) (Cert.ReferenceIdeal.ReadP.val_main_v53 (F := Ideal)) (Cert.ReferenceIdeal.ReadP.val_main_v54 (F := Ideal) (m ((c : Thread nD τ).loc main_arg1))) (Cert.ReferenceIdeal.ReadP.val_main_v48 (F := Ideal) (m ((c : Thread nD τ).loc main_arg1)))

theorem h1_8 : W8 m ρ c (Proc.devRef .tc main_v40) = H1 m c :=
  (W8_arr m ρ c 6).trans ((RegionFuse.region2 (V7 m ρ) c).trans (by
    show fuse (W7 m ρ c (Proc.devRef .tc main_v18)) (W7 m ρ c (Proc.devRef .tc main_v33)) (W7 m ρ c (Proc.devRef .tc main_v38)) (W7 m ρ c (Proc.devRef .tc main_v31)) (W7 m ρ c (Proc.devRef .tc main_v39)) (W7 m ρ c (Proc.devRef .tc main_v16)) = _
    rw [hin_7 m ρ c, sW_7 m ρ c, sb_7 m ρ c, agg_7 m ρ c, gb_7 m ρ c, dcol_7 m ρ c]
    rfl))

/-! ## Layer 1 -/

set_option maxHeartbeats 4000000 in
theorem gW_9 : W9 m ρ c (Proc.devRef .tc main_v42) = Cert.ReferenceIdeal.ReadP.val_main_v72 (F := Ideal) (m ((c : Thread nD τ).loc main_arg4)) := by
  show StableHlo.after hostOps3 (W8 m ρ c) (Proc.devRef .tc main_v42) = _
  simp only [hostOps3]
  after_results
  rw [keep_arg4_8_0 m ρ c]
  rfl

theorem hin_9 : W9 m ρ c (Proc.devRef .tc main_v40) = H1 m c := (keep_v40_9_8 m ρ c).trans (h1_8 m ρ c)

theorem dcol_9 : W9 m ρ c (Proc.devRef .tc main_v16) = colOf (Cert.ReferenceIdeal.ReadP.val_main_v15 (F := Ideal) (m ((c : Thread nD τ).loc main_arg1))) := (keep_v16_9_3 m ρ c).trans (dcol_3 m ρ c)

/-- The dense half's result: the features times the convolution's weights, each node's row scaled by its factor. -/
theorem hws_10 : W10 m ρ c (Proc.devRef .tc main_v43) = gcnLin (H1 m c) (Cert.ReferenceIdeal.ReadP.val_main_v72 (F := Ideal) (m ((c : Thread nD τ).loc main_arg4))) (colOf (Cert.ReferenceIdeal.ReadP.val_main_v15 (F := Ideal) (m ((c : Thread nD τ).loc main_arg1)))) :=
  (W10_arr m ρ c 3).trans ((RegionDense.region3 (V9 m ρ) c).trans (by
    show gcnLin (W9 m ρ c (Proc.devRef .tc main_v40)) (W9 m ρ c (Proc.devRef .tc main_v42)) (W9 m ρ c (Proc.devRef .tc main_v16)) = _
    rw [hin_9 m ρ c, gW_9 m ρ c, dcol_9 m ρ c]))

theorem hin_11 : W11 m ρ c (Proc.devRef .tc main_v40) = H1 m c := (keep_v40_11_8 m ρ c).trans (h1_8 m ρ c)

theorem dcol_11 : W11 m ρ c (Proc.devRef .tc main_v16) = colOf (Cert.ReferenceIdeal.ReadP.val_main_v15 (F := Ideal) (m ((c : Thread nD τ).loc main_arg1))) := (keep_v16_11_3 m ρ c).trans (dcol_3 m ρ c)

set_option maxHeartbeats 4000000 in
theorem sW_11 : W11 m ρ c (Proc.devRef .tc main_v55) = Cert.ReferenceIdeal.ReadP.val_main_v108 (F := Ideal) (m ((c : Thread nD τ).loc main_arg6)) := by
  show StableHlo.after hostOps4 (W10 m ρ c) (Proc.devRef .tc main_v55) = _
  simp only [hostOps4]
  after_results
  rw [keep_arg6_10_0 m ρ c]
  rfl

set_option maxHeartbeats 4000000 in
theorem sb_11 : W11 m ρ c (Proc.devRef .tc main_v60) = rowOf (Cert.ReferenceIdeal.ReadP.val_main_v111 (F := Ideal) (m ((c : Thread nD τ).loc main_arg7))) := by
  show StableHlo.after hostOps4 (W10 m ρ c) (Proc.devRef .tc main_v60) = _
  simp only [hostOps4]
  after_results
  rw [keep_arg7_10_0 m ρ c]
  rfl

set_option maxHeartbeats 4000000 in
theorem gb_11 : W11 m ρ c (Proc.devRef .tc main_v61) = rowOf (Cert.ReferenceIdeal.ReadP.val_main_v74 (F := Ideal) (m ((c : Thread nD τ).loc main_arg5))) := by
  show StableHlo.after hostOps4 (W10 m ρ c) (Proc.devRef .tc main_v61) = _
  simp only [hostOps4]
  after_results
  rw [keep_arg5_10_0 m ρ c]
  rfl

set_option maxHeartbeats 4000000 in
/-- The aggregated messages: the dense half's rows gathered along the edges and added at their destinations. -/
theorem agg_11 : W11 m ρ c (Proc.devRef .tc main_v53)
    = aggK (gcnLin (H1 m c) (Cert.ReferenceIdeal.ReadP.val_main_v72 (F := Ideal) (m ((c : Thread nD τ).loc main_arg4))) (colOf (Cert.ReferenceIdeal.ReadP.val_main_v15 (F := Ideal) (m ((c : Thread nD τ).loc main_arg1))))) (Cert.ReferenceIdeal.ReadP.val_main_v101 (F := Ideal)) (Cert.ReferenceIdeal.ReadP.val_main_v102 (F := Ideal) (m ((c : Thread nD τ).loc main_arg1))) (Cert.ReferenceIdeal.ReadP.val_main_v96 (F := Ideal) (m ((c : Thread nD τ).loc main_arg1))) := by
  show StableHlo.after hostOps4 (W10 m ρ c) (Proc.devRef .tc main_v53) = _
  simp only [hostOps4]
  after_results
  rw [hws_10 m ρ c, keep_v3_10_1 m ρ c, keep_v6_10_1 m ρ c, src_1 m ρ c, dst_1 m ρ c]
  rfl

/-- The hidden features after layer 1. -/
def H2 : S50000x128.Idx → EReal :=
  layerK (H1 m c) (Cert.ReferenceIdeal.ReadP.val_main_v72 (F := Ideal) (m ((c : Thread nD τ).loc main_arg4))) (Cert.ReferenceIdeal.ReadP.val_main_v108 (F := Ideal) (m ((c : Thread nD τ).loc main_arg6))) (Cert.ReferenceIdeal.ReadP.val_main_v111 (F := Ideal) (m ((c : Thread nD τ).loc main_arg7))) (Cert.ReferenceIdeal.ReadP.val_main_v74 (F := Ideal) (m ((c : Thread nD τ).loc main_arg5))) (Cert.ReferenceIdeal.ReadP.val_main_v15 (F := Ideal) (m ((c : Thread nD τ).loc main_arg1))) (Cert.ReferenceIdeal.ReadP.val_main_v101 (F := Ideal)) (Cert.ReferenceIdeal.ReadP.val_main_v102 (F := Ideal) (m ((c : Thread nD τ).loc main_arg1))) (Cert.ReferenceIdeal.ReadP.val_main_v96 (F := Ideal) (m ((c : Thread nD τ).loc main_arg1)))

theorem h2_12 : W12 m ρ c (Proc.devRef .tc main_v62) = H2 m c :=
  (W12_arr m ρ c 6).trans ((RegionFuse.region4 (V11 m ρ) c).trans (by
    show fuse (W11 m ρ c (Proc.devRef .tc main_v40)) (W11 m ρ c (Proc.devRef .tc main_v55)) (W11 m ρ c (Proc.devRef .tc main_v60)) (W11 m ρ c (Proc.devRef .tc main_v53)) (W11 m ρ c (Proc.devRef .tc main_v61)) (W11 m ρ c (Proc.devRef .tc main_v16)) = _
    rw [hin_11 m ρ c, sW_11 m ρ c, sb_11 m ρ c, agg_11 m ρ c, gb_11 m ρ c, dcol_11 m ρ c]
    rfl))

/-! ## Layer 2 -/

set_option maxHeartbeats 4000000 in
theorem gW_13 : W13 m ρ c (Proc.devRef .tc main_v64) = Cert.ReferenceIdeal.ReadP.val_main_v120 (F := Ideal) (m ((c : Thread nD τ).loc main_arg4)) := by
  show StableHlo.after hostOps5 (W12 m ρ c) (Proc.devRef .tc main_v64) = _
  simp only [hostOps5]
  after_results
  rw [keep_arg4_12_0 m ρ c]
  rfl

theorem hin_13 : W13 m ρ c (Proc.devRef .tc main_v62) = H2 m c := (keep_v62_13_12 m ρ c).trans (h2_12 m ρ c)

theorem dcol_13 : W13 m ρ c (Proc.devRef .tc main_v16) = colOf (Cert.ReferenceIdeal.ReadP.val_main_v15 (F := Ideal) (m ((c : Thread nD τ).loc main_arg1))) := (keep_v16_13_3 m ρ c).trans (dcol_3 m ρ c)

/-- The dense half's result: the features times the convolution's weights, each node's row scaled by its factor. -/
theorem hws_14 : W14 m ρ c (Proc.devRef .tc main_v65) = gcnLin (H2 m c) (Cert.ReferenceIdeal.ReadP.val_main_v120 (F := Ideal) (m ((c : Thread nD τ).loc main_arg4))) (colOf (Cert.ReferenceIdeal.ReadP.val_main_v15 (F := Ideal) (m ((c : Thread nD τ).loc main_arg1)))) :=
  (W14_arr m ρ c 3).trans ((RegionDense.region5 (V13 m ρ) c).trans (by
    show gcnLin (W13 m ρ c (Proc.devRef .tc main_v62)) (W13 m ρ c (Proc.devRef .tc main_v64)) (W13 m ρ c (Proc.devRef .tc main_v16)) = _
    rw [hin_13 m ρ c, gW_13 m ρ c, dcol_13 m ρ c]))

theorem hin_15 : W15 m ρ c (Proc.devRef .tc main_v62) = H2 m c := (keep_v62_15_12 m ρ c).trans (h2_12 m ρ c)

theorem dcol_15 : W15 m ρ c (Proc.devRef .tc main_v16) = colOf (Cert.ReferenceIdeal.ReadP.val_main_v15 (F := Ideal) (m ((c : Thread nD τ).loc main_arg1))) := (keep_v16_15_3 m ρ c).trans (dcol_3 m ρ c)

set_option maxHeartbeats 4000000 in
theorem sW_15 : W15 m ρ c (Proc.devRef .tc main_v77) = Cert.ReferenceIdeal.ReadP.val_main_v156 (F := Ideal) (m ((c : Thread nD τ).loc main_arg6)) := by
  show StableHlo.after hostOps6 (W14 m ρ c) (Proc.devRef .tc main_v77) = _
  simp only [hostOps6]
  after_results
  rw [keep_arg6_14_0 m ρ c]
  rfl

set_option maxHeartbeats 4000000 in
theorem sb_15 : W15 m ρ c (Proc.devRef .tc main_v82) = rowOf (Cert.ReferenceIdeal.ReadP.val_main_v159 (F := Ideal) (m ((c : Thread nD τ).loc main_arg7))) := by
  show StableHlo.after hostOps6 (W14 m ρ c) (Proc.devRef .tc main_v82) = _
  simp only [hostOps6]
  after_results
  rw [keep_arg7_14_0 m ρ c]
  rfl

set_option maxHeartbeats 4000000 in
theorem gb_15 : W15 m ρ c (Proc.devRef .tc main_v83) = rowOf (Cert.ReferenceIdeal.ReadP.val_main_v122 (F := Ideal) (m ((c : Thread nD τ).loc main_arg5))) := by
  show StableHlo.after hostOps6 (W14 m ρ c) (Proc.devRef .tc main_v83) = _
  simp only [hostOps6]
  after_results
  rw [keep_arg5_14_0 m ρ c]
  rfl

set_option maxHeartbeats 4000000 in
/-- The aggregated messages: the dense half's rows gathered along the edges and added at their destinations. -/
theorem agg_15 : W15 m ρ c (Proc.devRef .tc main_v75)
    = aggK (gcnLin (H2 m c) (Cert.ReferenceIdeal.ReadP.val_main_v120 (F := Ideal) (m ((c : Thread nD τ).loc main_arg4))) (colOf (Cert.ReferenceIdeal.ReadP.val_main_v15 (F := Ideal) (m ((c : Thread nD τ).loc main_arg1))))) (Cert.ReferenceIdeal.ReadP.val_main_v149 (F := Ideal)) (Cert.ReferenceIdeal.ReadP.val_main_v150 (F := Ideal) (m ((c : Thread nD τ).loc main_arg1))) (Cert.ReferenceIdeal.ReadP.val_main_v144 (F := Ideal) (m ((c : Thread nD τ).loc main_arg1))) := by
  show StableHlo.after hostOps6 (W14 m ρ c) (Proc.devRef .tc main_v75) = _
  simp only [hostOps6]
  after_results
  rw [hws_14 m ρ c, keep_v3_14_1 m ρ c, keep_v6_14_1 m ρ c, src_1 m ρ c, dst_1 m ρ c]
  rfl

/-- The hidden features after layer 2. -/
def H3 : S50000x128.Idx → EReal :=
  layerK (H2 m c) (Cert.ReferenceIdeal.ReadP.val_main_v120 (F := Ideal) (m ((c : Thread nD τ).loc main_arg4))) (Cert.ReferenceIdeal.ReadP.val_main_v156 (F := Ideal) (m ((c : Thread nD τ).loc main_arg6))) (Cert.ReferenceIdeal.ReadP.val_main_v159 (F := Ideal) (m ((c : Thread nD τ).loc main_arg7))) (Cert.ReferenceIdeal.ReadP.val_main_v122 (F := Ideal) (m ((c : Thread nD τ).loc main_arg5))) (Cert.ReferenceIdeal.ReadP.val_main_v15 (F := Ideal) (m ((c : Thread nD τ).loc main_arg1))) (Cert.ReferenceIdeal.ReadP.val_main_v149 (F := Ideal)) (Cert.ReferenceIdeal.ReadP.val_main_v150 (F := Ideal) (m ((c : Thread nD τ).loc main_arg1))) (Cert.ReferenceIdeal.ReadP.val_main_v144 (F := Ideal) (m ((c : Thread nD τ).loc main_arg1)))

theorem h3_16 : W16 m ρ c (Proc.devRef .tc main_v84) = H3 m c :=
  (W16_arr m ρ c 6).trans ((RegionFuse.region6 (V15 m ρ) c).trans (by
    show fuse (W15 m ρ c (Proc.devRef .tc main_v62)) (W15 m ρ c (Proc.devRef .tc main_v77)) (W15 m ρ c (Proc.devRef .tc main_v82)) (W15 m ρ c (Proc.devRef .tc main_v75)) (W15 m ρ c (Proc.devRef .tc main_v83)) (W15 m ρ c (Proc.devRef .tc main_v16)) = _
    rw [hin_15 m ρ c, sW_15 m ρ c, sb_15 m ρ c, agg_15 m ρ c, gb_15 m ρ c, dcol_15 m ρ c]
    rfl))

/-! ## The output layer -/

theorem hin_17 : W17 m ρ c (Proc.devRef .tc main_v84) = H3 m c := (keep_v84_17_16 m ρ c).trans (h3_16 m ρ c)

set_option maxHeartbeats 4000000 in
theorem bone_17 : W17 m ρ c (Proc.devRef .tc main_v85) = oneOf (m ((c : Thread nD τ).loc main_arg9)) := by
  show StableHlo.after hostOps7 (W16 m ρ c) (Proc.devRef .tc main_v85) = _
  simp only [hostOps7]
  after_results
  rw [keep_arg9_16_0 m ρ c]
  rfl

/-- THE KERNEL PROGRAM'S RESULT: the output layer of the third layer's features. -/
theorem result_18 : W18 m ρ c (Proc.devRef .tc main_v86) = linOut (H3 m c) (m ((c : Thread nD τ).loc main_arg8)) (oneOf (m ((c : Thread nD τ).loc main_arg9))) :=
  (W18_arr m ρ c 3).trans ((RegionOut.region7 (V17 m ρ) c).trans (by
    show linOut (W17 m ρ c (Proc.devRef .tc main_v84)) (W17 m ρ c (Proc.devRef .tc main_arg8)) (W17 m ρ c (Proc.devRef .tc main_v85)) = _
    rw [hin_17 m ρ c, keep_arg8_17_0 m ρ c, bone_17 m ρ c]))

end Cert.KernelIdeal.Chain

end
-- ==== Proof.RefLayer.lean ====
/-
  One layer of the reference program as a function of arrays, spelt operation for operation as the reference's stages
  spell it, so that each of the three layers' stages is this function of the previous layer's stage by unfolding.

  The layer multiplies the features by the convolution's weights, gathers the product's rows at the edges' sources, scales
  the row of edge `e` by `dis (src e) · dis (dst e)`, adds the rows into their destinations, adds the convolution's bias and
  the skip path `H · sW + sb`, and applies mish.
-/
import proofs.«157124_j84301618086373_2_alg».proof.Proof.RefRead

noncomputable section

namespace Cert.ReferenceIdeal.Layer

open Cert.ReferenceIdeal Cert.ReferenceIdeal.Gen Cert.ReferenceIdeal.ReadP Idealize.ShloMosaic

/-- Mish of every element, as the reference's `softplus` call and the two operations after it spell it. -/
def mishVec (y : FVec Ideal S50000x128 .f32) : FVec Ideal S50000x128 .f32 :=
  mulf y (Host.tanh (select
    (cmpf .une (subf y (broadcastInDim S50000x128 ![] bcast_S_S50000x128 (constant S_ .f32 0x00000000#32)))
      (subf y (broadcastInDim S50000x128 ![] bcast_S_S50000x128 (constant S_ .f32 0x00000000#32))))
    (addf y (broadcastInDim S50000x128 ![] bcast_S_S50000x128 (constant S_ .f32 0x00000000#32)))
    (addf (maximumf y (broadcastInDim S50000x128 ![] bcast_S_S50000x128 (constant S_ .f32 0x00000000#32)))
      (Host.log1p (Host.exp (Host.negf (Host.absf
        (subf y (broadcastInDim S50000x128 ![] bcast_S_S50000x128 (constant S_ .f32 0x00000000#32))))))))))

/-- The layer before mish. `S₁` and `S₂` are the edges' sources (computed twice by the program), `N` the destinations as a
    gather reads them, `D` the destinations as the scatter reads them, `Z` the zeros the scatter accumulates onto. -/
def preact (H : FVec Ideal S50000x128 .f32) (gW sW : FVec Ideal S128x128 .f32) (gb sb : FVec Ideal S128 .f32)
    (dis : FVec Ideal S50000 .f32) (S₁ N S₂ : IVec S1650000x1 32) (Z : FVec Ideal S50000x128 .f32) (D : IVec S1650000x1 32) :
    FVec Ideal S50000x128 .f32 :=
  addf
    (addf
      (Host.scatterAdd scatter_S50000x128_S1650000x1_S1650000x128_1_0_0_1 Z D
        (mulf
          (Host.gather gather_S50000x128_S1650000x1_S1650000x128_1_0_n_n_0_1_1128
            (Host.dotGeneral dot_S50000x128_S128x128_S50000x128_1_0_0_1_n_n none H gW) S₂)
          (broadcastInDim S1650000x128 ![0, 1] bcast_S1650000x1_S1650000x128_0_1
            (broadcastInDim S1650000x1 ![0] bcast_S1650000_S1650000x1_0
              (mulf (Host.gather gather_S50000_S1650000x1_S1650000_n_0_n_n_0_1_1 dis S₁)
                (Host.gather gather_S50000_S1650000x1_S1650000_n_0_n_n_0_1_1 dis N))))))
      (broadcastInDim S50000x128 ![0, 1] bcast_S1x128_S50000x128_0_1 (broadcastInDim S1x128 ![1] bcast_S128_S1x128_1 gb)))
    (addf (Host.dotGeneral dot_S50000x128_S128x128_S50000x128_1_0_0_1_n_n none H sW)
      (broadcastInDim S50000x128 ![0, 1] bcast_S1x128_S50000x128_0_1 (broadcastInDim S1x128 ![1] bcast_S128_S1x128_1 sb)))

/-- The reference's layer. -/
def layer (H : FVec Ideal S50000x128 .f32) (gW sW : FVec Ideal S128x128 .f32) (gb sb : FVec Ideal S128 .f32)
    (dis : FVec Ideal S50000 .f32) (S₁ N S₂ : IVec S1650000x1 32) (Z : FVec Ideal S50000x128 .f32) (D : IVec S1650000x1 32) :
    FVec Ideal S50000x128 .f32 :=
  mishVec (preact H gW sW gb sb dis S₁ N S₂ Z D)

variable (x0 : (⟨S50000x128, .f32⟩ : BufTy).Contents (Elt Ideal)) (x1 : (⟨S2x1600000, .i32⟩ : BufTy).Contents (Elt Ideal))
  (x2 : (⟨S128x128, .f32⟩ : BufTy).Contents (Elt Ideal)) (x3 : (⟨S128, .f32⟩ : BufTy).Contents (Elt Ideal))
  (x4 : (⟨S3x128x128, .f32⟩ : BufTy).Contents (Elt Ideal)) (x5 : (⟨S3x128, .f32⟩ : BufTy).Contents (Elt Ideal))
  (x6 : (⟨S3x128x128, .f32⟩ : BufTy).Contents (Elt Ideal)) (x7 : (⟨S3x128, .f32⟩ : BufTy).Contents (Elt Ideal))

/-- The first layer's stage is the layer of the input layer's stage. -/
theorem stage70 : val_main_v70 (F := Ideal) x0 x1 x2 x3 x4 x5 x6 x7
    = layer (val_main_v22 x0 x2 x3) (val_main_v24 x4) (val_main_v60 x6) (val_main_v26 x5) (val_main_v63 x7) (val_main_v15 x1)
        (val_main_v33 x1) (val_main_v40 x1) (val_main_v48 x1) (val_main_v53 (F := Ideal)) (val_main_v54 x1) := rfl

/-- The second layer's stage. -/
theorem stage118 : val_main_v118 (F := Ideal) x0 x1 x2 x3 x4 x5 x6 x7
    = layer (val_main_v70 x0 x1 x2 x3 x4 x5 x6 x7) (val_main_v72 x4) (val_main_v108 x6) (val_main_v74 x5) (val_main_v111 x7) (val_main_v15 x1)
        (val_main_v81 x1) (val_main_v88 x1) (val_main_v96 x1) (val_main_v101 (F := Ideal)) (val_main_v102 x1) := rfl

/-- The third layer's stage. -/
theorem stage166 : val_main_v166 (F := Ideal) x0 x1 x2 x3 x4 x5 x6 x7
    = layer (val_main_v118 x0 x1 x2 x3 x4 x5 x6 x7) (val_main_v120 x4) (val_main_v156 x6) (val_main_v122 x5) (val_main_v159 x7) (val_main_v15 x1)
        (val_main_v129 x1) (val_main_v136 x1) (val_main_v144 x1) (val_main_v149 (F := Ideal)) (val_main_v150 x1) := rfl

/-- The two computations of the edges' sources agree, in every layer. -/
theorem src_same0 : val_main_v33 (F := Ideal) x1 = val_main_v48 x1 := rfl
theorem src_same1 : val_main_v81 (F := Ideal) x1 = val_main_v96 x1 := rfl
theorem src_same2 : val_main_v129 (F := Ideal) x1 = val_main_v144 x1 := rfl

end Cert.ReferenceIdeal.Layer

end
-- ==== Proof.Bridge.lean ====
/-
  The reference's layer is the kernel program's layer.

  Element `(r, q)` of either is `mish ((agg (r, q) + gb q) + (∑ k, H (r, k) · sW (k, q) + sb q))`. The reference's aggregate adds,
  for every edge `e` whose destination is `r`, the row `(H · gW) (src e)` scaled by `dis (src e) · dis (dst e)`; the kernel
  program's adds the rows `(H · gW) (src e) · dis (src e)` and scales the sum by `dis r`. The node factors are non-negative
  reals, so `dis r` distributes over the sum (the scaling law of the edges module), and `dst e = r` on every edge that lands.
-/
import proofs.«157124_j84301618086373_2_alg».proof.Proof.KLayer
import proofs.«157124_j84301618086373_2_alg».proof.Proof.RefLayer
import proofs.«157124_j84301618086373_2_alg».proof.Proof.Edges
import Idealize.ShloMosaic.Lib.Pipeline.Value
import Idealize.ShloMosaic.Lib.ValueLayout

noncomputable section

namespace Cert.Bridge

open Cert.Gcn Cert.KernelIdeal.Chain Idealize.ShloMosaic Idealize.ShloMosaic.ValueIdx
open Cert.ReferenceIdeal (S50000x128 S128x128 S128 S50000 S1650000x1 S1650000x128 S1650000)

/-! ## The reshaped vectors, read at an element -/

theorem rowOf_apply (b : Cert.KernelIdeal.S128.Idx → EReal) (q : Fin 128) : rowOf b (ix2 (0 : Fin 1) q) = b (ix1 q) :=
  shapeCast_a_1a_apply b _ 0 q

theorem colOf_apply (d : Cert.KernelIdeal.S50000.Idx → EReal) (r : Fin 50000) : colOf d (ix2 r (0 : Fin 1)) = d (ix1 r) :=
  shapeCast_apply d _ (ix2 r (0 : Fin 1)) (ix1 r) (by
    rw [Shape.rowMajor_val_two, Shape.rowMajor_val_one]
    show r.val = r.val * 1 + 0
    omega)

theorem oneOf_apply (b : Cert.KernelIdeal.S1.Idx → EReal) : oneOf b (ix2 (0 : Fin 1) (0 : Fin 1)) = b (ix1 (0 : Fin 1)) :=
  shapeCast_a_1a_apply b _ 0 0

/-! ## The reference's operations, read at an element -/

/-- The host's product of the features with a weight matrix is `mm`. -/
theorem dot_apply (H : FVec Ideal S50000x128 .f32) (W : FVec Ideal S128x128 .f32) (i : S50000x128.Idx) :
    Host.dotGeneral Cert.ReferenceIdeal.dot_S50000x128_S128x128_S50000x128_1_0_0_1_n_n none H W i = mm H W i := by
  refine (Cert.ReferenceIdeal.ReadP.val_main_v16_apply H W i).trans ?_
  unfold mm
  refine Finset.sum_congr rfl fun k _ => ?_
  have el : Cert.ReferenceIdeal.ReadP.lidx_main_v16 i k = ix2 (i 0) k :=
    funext fun a => Fin.ext (by match a with | ⟨0, _⟩ => rfl | ⟨1, _⟩ => rfl)
  have er : Cert.ReferenceIdeal.ReadP.ridx_main_v16 i k = ix2 k (i 1) :=
    funext fun a => Fin.ext (by match a with | ⟨0, _⟩ => rfl | ⟨1, _⟩ => rfl)
  rw [el, er]
  rfl

theorem dot_eq (H : FVec Ideal S50000x128 .f32) (W : FVec Ideal S128x128 .f32) :
    Host.dotGeneral Cert.ReferenceIdeal.dot_S50000x128_S128x128_S50000x128_1_0_0_1_n_n none H W = mm H W :=
  funext (dot_apply H W)

/-- A bias vector broadcast to a row and then over the nodes. -/
theorem bias_apply (b : FVec Ideal S128 .f32)
    (h₁ : S128.BroadcastsInDim Cert.ReferenceIdeal.S1x128 (![1] : Fin 1 → Fin Cert.ReferenceIdeal.S1x128.rank))
    (h₂ : Cert.ReferenceIdeal.S1x128.BroadcastsInDim S50000x128 (![0, 1] : Fin 2 → Fin S50000x128.rank)) (i : S50000x128.Idx) :
    broadcastInDim S50000x128 ![0, 1] h₂ (broadcastInDim Cert.ReferenceIdeal.S1x128 ![1] h₁ b) i = b (ix1 (i 1)) := by
  rw [broadcastInDim_apply _ h₂ _ i (ix2 (0 : Fin 1) (i 1)) (fun a => match a with
      | ⟨0, _⟩ => by show 0 = if (1 : Nat) = 1 then 0 else (i 0).val; rw [if_pos rfl]
      | ⟨1, _⟩ => by show (i 1).val = if (128 : Nat) = 1 then 0 else (i 1).val; rw [if_neg (by decide)]),
    broadcastInDim_apply _ h₁ b (ix2 (0 : Fin 1) (i 1)) (ix1 (i 1)) (fun a => match a with
      | ⟨0, _⟩ => by show (i 1).val = if (128 : Nat) = 1 then 0 else (i 1).val; rw [if_neg (by decide)])]

/-- One number per edge broadcast to a column and then over the message's columns. -/
theorem edge_apply (n : FVec Ideal S1650000 .f32)
    (h₁ : S1650000.BroadcastsInDim S1650000x1 (![0] : Fin 1 → Fin S1650000x1.rank))
    (h₂ : S1650000x1.BroadcastsInDim S1650000x128 (![0, 1] : Fin 2 → Fin S1650000x128.rank)) (j : S1650000x128.Idx) :
    broadcastInDim S1650000x128 ![0, 1] h₂ (broadcastInDim S1650000x1 ![0] h₁ n) j = n (ix1 (j 0)) := by
  rw [broadcastInDim_apply _ h₂ _ j (ix2 (j 0) (0 : Fin 1)) (fun a => match a with
      | ⟨0, _⟩ => by show (j 0).val = if (1650000 : Nat) = 1 then 0 else (j 0).val; rw [if_neg (by decide)]
      | ⟨1, _⟩ => by show 0 = if (1 : Nat) = 1 then 0 else (j 1).val; rw [if_pos rfl]),
    broadcastInDim_apply _ h₁ n (ix2 (j 0) (0 : Fin 1)) (ix1 (j 0)) (fun a => match a with
      | ⟨0, _⟩ => by show (j 0).val = if (1650000 : Nat) = 1 then 0 else (j 0).val; rw [if_neg (by decide)])]

/-- Mish of every element is mish of each. -/
theorem mishVec_apply (y : FVec Ideal S50000x128 .f32) (i : S50000x128.Idx) :
    Cert.ReferenceIdeal.Layer.mishVec y i = mish (y i) :=
  (show Cert.ReferenceIdeal.Layer.mishVec y i = mishR (y i) from rfl).trans (mishR_eq _)

/-- The reference's layer before mish, at an element. -/
theorem preact_apply (H : FVec Ideal S50000x128 .f32) (gW sW : FVec Ideal S128x128 .f32) (gb sb : FVec Ideal S128 .f32)
    (dis : FVec Ideal S50000 .f32) (S₁ N S₂ : IVec S1650000x1 32) (Z : FVec Ideal S50000x128 .f32) (D : IVec S1650000x1 32)
    (i : S50000x128.Idx) :
    Cert.ReferenceIdeal.Layer.preact H gW sW gb sb dis S₁ N S₂ Z D i
      = (Ideal.hostScatterAdd Cert.ReferenceIdeal.scatter_S50000x128_S1650000x1_S1650000x128_1_0_0_1 Z D
          (fun j => Host.gather Cert.ReferenceIdeal.gather_S50000x128_S1650000x1_S1650000x128_1_0_n_n_0_1_1128 (mm H gW) S₂ j
            * (Host.gather Cert.ReferenceIdeal.gather_S50000_S1650000x1_S1650000_n_0_n_n_0_1_1 dis S₁ (ix1 (j 0))
              * Host.gather Cert.ReferenceIdeal.gather_S50000_S1650000x1_S1650000_n_0_n_n_0_1_1 dis N (ix1 (j 0)))) i
          + gb (ix1 (i 1)))
        + (mm H sW i + sb (ix1 (i 1))) := by
  unfold Cert.ReferenceIdeal.Layer.preact
  rw [dot_eq, dot_eq]
  show (Ideal.hostScatterAdd _ Z D _ i
        + broadcastInDim S50000x128 (![0, 1] : Fin 2 → Fin S50000x128.rank) Cert.ReferenceIdeal.Gen.bcast_S1x128_S50000x128_0_1
            (broadcastInDim Cert.ReferenceIdeal.S1x128 (![1] : Fin 1 → Fin Cert.ReferenceIdeal.S1x128.rank)
              Cert.ReferenceIdeal.Gen.bcast_S128_S1x128_1 gb) i)
      + (mm H sW i
        + broadcastInDim S50000x128 (![0, 1] : Fin 2 → Fin S50000x128.rank) Cert.ReferenceIdeal.Gen.bcast_S1x128_S50000x128_0_1
            (broadcastInDim Cert.ReferenceIdeal.S1x128 (![1] : Fin 1 → Fin Cert.ReferenceIdeal.S1x128.rank)
              Cert.ReferenceIdeal.Gen.bcast_S128_S1x128_1 sb) i) = _
  rw [bias_apply, bias_apply]
  congr 3
  funext j
  exact congrArg
    (fun z : EReal => Host.gather Cert.ReferenceIdeal.gather_S50000x128_S1650000x1_S1650000x128_1_0_n_n_0_1_1128 (mm H gW) S₂ j * z)
    (edge_apply (mulf (Host.gather Cert.ReferenceIdeal.gather_S50000_S1650000x1_S1650000_n_0_n_n_0_1_1 dis S₁)
      (Host.gather Cert.ReferenceIdeal.gather_S50000_S1650000x1_S1650000_n_0_n_n_0_1_1 dis N)) _ _ j)

/-! ## The join -/

/-- THE LAYERS AGREE, for node factors that are non-negative reals, destination words `N` (as the gathers read them) that agree
    with `D` (as the scatter reads them) wherever `D` is non-negative, and `Z` zeros. -/
theorem layer_eq (H : FVec Ideal S50000x128 .f32) (gW sW : FVec Ideal S128x128 .f32) (gb sb : FVec Ideal S128 .f32)
    (dis : FVec Ideal S50000 .f32) (S N : IVec S1650000x1 32) (Z : FVec Ideal S50000x128 .f32) (D : IVec S1650000x1 32)
    (hdis : ∀ p, ∃ d : ℝ, 0 ≤ d ∧ dis p = (d : EReal)) (hN : ∀ e, 0 ≤ (D e).toInt → N e = D e) (hz : ∀ i, Z i = 0) :
    Cert.ReferenceIdeal.Layer.layer H gW sW gb sb dis S N S Z D = layerK H gW sW sb gb dis Z D S := by
  funext i
  obtain ⟨r, q, rfl⟩ : ∃ (r : Fin 50000) (q : Fin 128), i = ix2 r q := ⟨i 0, i 1, eq_ix2 i⟩
  unfold Cert.ReferenceIdeal.Layer.layer layerK
  rw [mishVec_apply, preact_apply]
  unfold fuse
  show mish ((_ + gb (ix1 q)) + (mm H sW (ix2 r q) + sb (ix1 q)))
    = mish ((aggK _ Z D S (ix2 r q) * colOf dis (ix2 r (0 : Fin 1)) + rowOf gb (ix2 (0 : Fin 1) q))
      + (mm H sW (ix2 r q) + rowOf sb (ix2 (0 : Fin 1) q)))
  rw [rowOf_apply, rowOf_apply, colOf_apply]
  have hg : gcnLin H gW (colOf dis) = fun p => mm H gW p * dis (ix1 (p 0)) :=
    funext fun p => show mm H gW p * colOf dis (ix2 (p 0) (0 : Fin 1)) = _ from
      congrArg (fun z => mm H gW p * z) (colOf_apply dis (p 0))
  rw [hg]
  congr 3
  exact (scatter_scale _ _ _ (mm H gW) dis hdis S D N hN Z hz (ix2 r q)).symm

end Cert.Bridge

end
-- ==== Proof.Net.lean ====
/-
  The two programs compute one function of the arguments.

  The input layers agree (`mish (x · W + b)` on both sides); by the layers' join each hidden layer of the kernel program is the
  reference's stage of the same depth; the output layers agree (`h · W + b`). The node factors are non-negative reals whatever the
  degrees are, the edge's destination as the gathers read it is the destination as the scatter reads it wherever that is
  non-negative, and the scatters accumulate onto zeros: the three hypotheses of the join.
-/
import proofs.«157124_j84301618086373_2_alg».proof.Proof.KChain
import proofs.«157124_j84301618086373_2_alg».proof.Proof.Bridge

noncomputable section

namespace Cert.Net

open Cert.Gcn Cert.Bridge Cert.KernelIdeal Cert.KernelIdeal.Gen Cert.KernelIdeal.Chain
open Idealize.ShloMosaic Idealize.ShloMosaic.ValueIdx Idealize.ShloMosaic.TcCoe Idealize.SL.Sem

/-! ## The hypotheses of the join, for the reference's stages -/

/-- The node factors are non-negative reals. -/
theorem dis_real (x1 : (⟨Cert.ReferenceIdeal.S2x1600000, .i32⟩ : BufTy).Contents (Elt Ideal)) (p : Cert.ReferenceIdeal.S50000.Idx) :
    ∃ d : ℝ, 0 ≤ d ∧ Cert.ReferenceIdeal.ReadP.val_main_v15 (F := Ideal) x1 p = (d : EReal) := by
  rw [Cert.ReferenceIdeal.ReadP.val_main_v15_apply, Cert.ReferenceIdeal.ReadP.val_main_v12_apply, Cert.ReferenceIdeal.ReadP.val_main_v14_apply, Cert.ReferenceIdeal.ReadP.val_main_v11_apply,
    Cert.ReferenceIdeal.ReadP.val_main_cst_1_apply, Cert.ReferenceIdeal.ReadP.val_main_v13_apply, Cert.ReferenceIdeal.ReadP.val_main_cst_2_apply, Cert.ReferenceIdeal.ReadP.val_main_call0_v1_apply,
    Cert.ReferenceIdeal.ReadP.val_main_call0_v0_apply, Cert.ReferenceIdeal.ReadP.val_main_cst_3_apply]
  exact factor_real _

theorem dst_ok0 (x1 : (⟨Cert.ReferenceIdeal.S2x1600000, .i32⟩ : BufTy).Contents (Elt Ideal)) (e : Cert.ReferenceIdeal.S1650000x1.Idx)
    (h : 0 ≤ (Cert.ReferenceIdeal.ReadP.val_main_v54 (F := Ideal) x1 e).toInt) :
    Cert.ReferenceIdeal.ReadP.val_main_v40 (F := Ideal) x1 e = Cert.ReferenceIdeal.ReadP.val_main_v54 (F := Ideal) x1 e :=
  select_nonneg _ _ h

theorem dst_ok1 (x1 : (⟨Cert.ReferenceIdeal.S2x1600000, .i32⟩ : BufTy).Contents (Elt Ideal)) (e : Cert.ReferenceIdeal.S1650000x1.Idx)
    (h : 0 ≤ (Cert.ReferenceIdeal.ReadP.val_main_v102 (F := Ideal) x1 e).toInt) :
    Cert.ReferenceIdeal.ReadP.val_main_v88 (F := Ideal) x1 e = Cert.ReferenceIdeal.ReadP.val_main_v102 (F := Ideal) x1 e :=
  select_nonneg _ _ h

theorem dst_ok2 (x1 : (⟨Cert.ReferenceIdeal.S2x1600000, .i32⟩ : BufTy).Contents (Elt Ideal)) (e : Cert.ReferenceIdeal.S1650000x1.Idx)
    (h : 0 ≤ (Cert.ReferenceIdeal.ReadP.val_main_v150 (F := Ideal) x1 e).toInt) :
    Cert.ReferenceIdeal.ReadP.val_main_v136 (F := Ideal) x1 e = Cert.ReferenceIdeal.ReadP.val_main_v150 (F := Ideal) x1 e :=
  select_nonneg _ _ h

theorem zeros0 (i : Cert.ReferenceIdeal.S50000x128.Idx) : Cert.ReferenceIdeal.ReadP.val_main_v53 (F := Ideal) i = 0 := ofBits_zero
theorem zeros1 (i : Cert.ReferenceIdeal.S50000x128.Idx) : Cert.ReferenceIdeal.ReadP.val_main_v101 (F := Ideal) i = 0 := ofBits_zero
theorem zeros2 (i : Cert.ReferenceIdeal.S50000x128.Idx) : Cert.ReferenceIdeal.ReadP.val_main_v149 (F := Ideal) i = 0 := ofBits_zero

/-! ## The input and output layers -/

theorem input_eq (x0 : (⟨Cert.ReferenceIdeal.S50000x128, .f32⟩ : BufTy).Contents (Elt Ideal))
    (x2 : (⟨Cert.ReferenceIdeal.S128x128, .f32⟩ : BufTy).Contents (Elt Ideal))
    (x3 : (⟨Cert.ReferenceIdeal.S128, .f32⟩ : BufTy).Contents (Elt Ideal)) :
    Cert.ReferenceIdeal.ReadP.val_main_v22 (F := Ideal) x0 x2 x3 = linMish x0 x2 (rowOf x3) := by
  funext i
  obtain ⟨r, q, rfl⟩ : ∃ (r : Fin 50000) (q : Fin 128), i = ix2 r q := ⟨i 0, i 1, eq_ix2 i⟩
  show mishR (Host.dotGeneral (F := Ideal) Cert.ReferenceIdeal.dot_S50000x128_S128x128_S50000x128_1_0_0_1_n_n none x0 x2 (ix2 r q)
      + broadcastInDim Cert.ReferenceIdeal.S50000x128 ![0, 1] _ (broadcastInDim Cert.ReferenceIdeal.S1x128 ![1] _ x3) (ix2 r q))
    = mish (mm x0 x2 (ix2 r q) + rowOf x3 (ix2 (0 : Fin 1) q))
  rw [mishR_eq, dot_apply, bias_apply, rowOf_apply]

theorem output_eq (x0 : (⟨Cert.ReferenceIdeal.S50000x128, .f32⟩ : BufTy).Contents (Elt Ideal)) (x1 : (⟨Cert.ReferenceIdeal.S2x1600000, .i32⟩ : BufTy).Contents (Elt Ideal))
    (x2 : (⟨Cert.ReferenceIdeal.S128x128, .f32⟩ : BufTy).Contents (Elt Ideal)) (x3 : (⟨Cert.ReferenceIdeal.S128, .f32⟩ : BufTy).Contents (Elt Ideal))
    (x4 : (⟨Cert.ReferenceIdeal.S3x128x128, .f32⟩ : BufTy).Contents (Elt Ideal)) (x5 : (⟨Cert.ReferenceIdeal.S3x128, .f32⟩ : BufTy).Contents (Elt Ideal))
    (x6 : (⟨Cert.ReferenceIdeal.S3x128x128, .f32⟩ : BufTy).Contents (Elt Ideal)) (x7 : (⟨Cert.ReferenceIdeal.S3x128, .f32⟩ : BufTy).Contents (Elt Ideal))
    (x8 : (⟨Cert.ReferenceIdeal.S128x1, .f32⟩ : BufTy).Contents (Elt Ideal)) (x9 : (⟨Cert.ReferenceIdeal.S1, .f32⟩ : BufTy).Contents (Elt Ideal)) :
    Cert.ReferenceIdeal.ReadP.val_main_v170 (F := Ideal) x0 x1 x2 x3 x4 x5 x6 x7 x8 x9
      = linOut (Cert.ReferenceIdeal.ReadP.val_main_v166 (F := Ideal) x0 x1 x2 x3 x4 x5 x6 x7) x8 (oneOf x9) := by
  funext i
  obtain ⟨r, q, rfl⟩ : ∃ (r : Fin 50000) (q : Fin 1), i = ix2 r q := ⟨i 0, i 1, eq_ix2 i⟩
  obtain rfl : q = 0 := Subsingleton.elim _ _
  rw [Cert.ReferenceIdeal.ReadP.val_main_v170_apply, Cert.ReferenceIdeal.ReadP.val_main_v167_apply, Cert.ReferenceIdeal.ReadP.val_main_v169_apply, Cert.ReferenceIdeal.ReadP.val_main_v168_apply]
  unfold linOut
  rw [oneOf_apply]
  show (∑ k : Fin 128, _ * _) + _ = _
  refine congr (congrArg HAdd.hAdd (Finset.sum_congr rfl fun k _ => ?_)) ?_
  · refine congr (congrArg HMul.hMul (congrArg _ ?_)) (congrArg _ ?_)
    · exact funext fun a => Fin.ext (by match a with | ⟨0, _⟩ => rfl | ⟨1, _⟩ => rfl)
    · exact funext fun a => Fin.ext (by match a with | ⟨0, _⟩ => rfl | ⟨1, _⟩ => rfl)
  · exact congrArg _ (funext fun a => Fin.ext (by match a with | ⟨0, _⟩ => rfl))

/-! ## The hidden layers and the result -/

variable (m : (ℓ : Loc nD τ sig) → Buf (Elt Ideal) ℓ) (c : Dev nD)

theorem h0_eq : H0 m c = Cert.ReferenceIdeal.ReadP.val_main_v22 (F := Ideal) (m ((c : Thread nD τ).loc main_arg0)) (m ((c : Thread nD τ).loc main_arg2)) (m ((c : Thread nD τ).loc main_arg3)) := (input_eq _ _ _).symm

theorem h1_eq : H1 m c = Cert.ReferenceIdeal.ReadP.val_main_v70 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) := by
  unfold H1
  rw [h0_eq, Cert.ReferenceIdeal.Layer.stage70, Cert.ReferenceIdeal.Layer.src_same0]
  exact (layer_eq _ _ _ _ _ _ _ _ _ _ (dis_real _) (dst_ok0 _) zeros0).symm

theorem h2_eq : H2 m c = Cert.ReferenceIdeal.ReadP.val_main_v118 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) := by
  unfold H2
  rw [h1_eq, Cert.ReferenceIdeal.Layer.stage118, Cert.ReferenceIdeal.Layer.src_same1]
  exact (layer_eq _ _ _ _ _ _ _ _ _ _ (dis_real _) (dst_ok1 _) zeros1).symm

theorem h3_eq : H3 m c = Cert.ReferenceIdeal.ReadP.val_main_v166 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) := by
  unfold H3
  rw [h2_eq, Cert.ReferenceIdeal.Layer.stage166, Cert.ReferenceIdeal.Layer.src_same2]
  exact (layer_eq _ _ _ _ _ _ _ _ _ _ (dis_real _) (dst_ok2 _) zeros2).symm

/-- THE RESULTS AGREE: the kernel program's result is the reference's last stage of the same arguments. -/
theorem result_eq : linOut (H3 m c) (m ((c : Thread nD τ).loc main_arg8)) (oneOf (m ((c : Thread nD τ).loc main_arg9))) = Cert.ReferenceIdeal.ReadP.val_main_v170 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) := by
  rw [output_eq, h3_eq]

end Cert.Net

end
-- ==== Proof.lean ====
/-
  A three-layer graph convolution network with linear skips and Mish, over 50000 nodes and 1.6 million edges: the tiled
  kernel program against its plain array reference, on the extended reals.

  Both programs compute, for node features `x` and an edge list with self-loops appended,
    h₀ = mish (x · W_pre + b_pre),
    hₗ₊₁ = mish ((Aₗ + gcn_bₗ) + (hₗ · skip_Wₗ + skip_bₗ)),      out = h₃ · W_post + b_post,
  where row `r` of `Aₗ` sums, over the edges `e` into `r`, the row `(hₗ · gcn_Wₗ) (src e)` scaled by `dis (src e) · dis r`, and
  `dis = deg ^ (-1/2)` where the in-degree is positive, else `0`. The reference scales every edge's message by the product of the
  two factors; the kernel program scales the rows of `hₗ · gcn_Wₗ` by `dis` inside the dense kernel, sums the gathered rows, and
  scales row `r` of the sum by `dis r` inside the fusion kernel. The two agree because `dis r` is a non-negative REAL — a
  positive extended real to the power `-1/2` is one, `⊤ ^ (-1/2) = 0` included — and such a factor distributes over a finite sum
  of extended reals. Nothing else separates them: a change of float format is the identity here, a blocked matrix product onto
  zeros is the whole product, and the two spellings of softplus differ only in a guard for not-a-number that is dead on the
  extended reals. The precondition is never opened.

  The kernel program's result is read off its frame run: the buffer contents at the last boundary, walked back through eight
  kernel regions and the host operations between them. The reference's result is its run's last stage.
-/
import proofs.«157124_j84301618086373_2_alg».proof.Defs
import proofs.«157124_j84301618086373_2_alg».proof.Proof.Gen.Kernel
import proofs.«157124_j84301618086373_2_alg».proof.Proof.Gen.Kernel.Frame
import proofs.«157124_j84301618086373_2_alg».proof.Proof.Gen.KernelIdeal
import proofs.«157124_j84301618086373_2_alg».proof.Proof.Gen.KernelIdeal.Frame
import proofs.«157124_j84301618086373_2_alg».proof.Proof.Gen.ReferenceIdeal
import proofs.«157124_j84301618086373_2_alg».proof.Proof.Gen.Pre_finite_inputs
import proofs.«157124_j84301618086373_2_alg».proof.Proof.KRun
import proofs.«157124_j84301618086373_2_alg».proof.Proof.KChain
import proofs.«157124_j84301618086373_2_alg».proof.Proof.Net
import proofs.«157124_j84301618086373_2_alg».proof.Proof.RefRun
import Idealize.ShloMosaic.Adequacy
import Idealize.ShloMosaic.Init

noncomputable section

namespace Cert.Proof

open Idealize.ShloMosaic Idealize.SL.Sem

/-- The word-level kernel program runs and leaves its arguments as they were. -/
theorem frame_kernel : Cert.frame_Kernel := fun m ρ _ => Cert.Kernel.Gen.frame m ρ

/-- So does the idealized kernel program. -/
theorem frame_kernelIdeal : Cert.frame_KernelIdeal := fun m ρ _ => Cert.KernelIdeal.Gen.frame m ρ

/-- So does the idealized reference: its run, the result forgotten. -/
theorem frame_referenceIdeal : Cert.frame_ReferenceIdeal := fun m ρ _ =>
  (θ_run Cert.ReferenceIdeal.defs _ _).mono (fun _ h c => (h c).2) (Cert.ReferenceIdeal.ValueP.run (F := Ideal) m ρ)

/-- From memories agreeing on the arguments both programs end with the same result: the kernel program's at the network of
    its arguments (its run, read back), the reference's at its last stage of the same arguments, which is that network. -/
theorem algebraic : Cert.algebraic_KernelIdeal_ReferenceIdeal := by
  intro m ρ m' ρ' _ hagree
  refine ⟨fun c => Cert.Gcn.linOut (Cert.KernelIdeal.Chain.H3 m c) (m ((c.tc : Thread Cert.KernelIdeal.nD Cert.KernelIdeal.τ).loc Cert.KernelIdeal.main_arg8)) (Cert.KernelIdeal.Chain.oneOf (m ((c.tc : Thread Cert.KernelIdeal.nD Cert.KernelIdeal.τ).loc Cert.KernelIdeal.main_arg9))), ?_, ?_⟩
  · exact (θ_run Cert.KernelIdeal.defs _ _).mono
      (fun r h c => ⟨(h c).1.trans (Cert.KernelIdeal.Chain.result_18 m ρ c), (h c).2⟩)
      (Cert.KernelIdeal.RunValue.run_last m ρ)
  · refine (θ_run Cert.ReferenceIdeal.defs _ _).mono (fun r h c => ⟨(h c).1.trans ?_, (h c).2⟩)
      (Cert.ReferenceIdeal.ValueP.run (F := Ideal) m' ρ')
    obtain ⟨a0, a1, a2, a3, a4, a5, a6, a7, a8, a9⟩ := hagree c
    rw [a0, a1, a2, a3, a4, a5, a6, a7, a8, a9]
    exact (Cert.Net.result_eq m c).symm

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, trivial, algebraic⟩

end Cert.Proof

end
